-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x96x96 : Shape := ⟨4, ![16, 64, 96, 96]⟩
abbrev S_ : Shape := ⟨0, ![]⟩

class Facts : Prop where
  bcast_S_S16x64x96x96 : S_.BroadcastsInDim S16x64x96x96 (![] : Fin 0 → Fin S16x64x96x96.rank)
  reducesTo_S16x64x96x96_S_d0_1_2_3 : S16x64x96x96.ReducesTo [0, 1, 2, 3] S_
  h_S_ : 0 < S_.numel

variable [Facts]

def fn {F : FTy → Type} [FloatOps F] (main_arg0 : FVec F S16x64x96x96 .f32) : IVec S_ 1 :=
  let main_v0 : FVec F S16x64x96x96 .f32 := Host.absf main_arg0
  let main_cst : FVec F S_ .f32 := constant S_ .f32 0x7F800000#32
  let main_v1 : FVec F S16x64x96x96 .f32 := broadcastInDim S16x64x96x96 ![] bcast_S_S16x64x96x96 main_cst
  let main_v2 : IVec S16x64x96x96 1 := cmpf .olt main_v0 main_v1
  let main_c : IVec S_ 1 := constantI S_ 1 1#1
  let main_v3 : IVec S_ 1 := (fun x v => Host.reduce IntOp.andi x v reducesTo_S16x64x96x96_S_d0_1_2_3 h_S_) main_v2 main_c
  main_v3
-- ==== Kernel.lean ====
abbrev S16x64x96x96 : Shape := ⟨4, ![16, 64, 96, 96]⟩
abbrev S16x16x4x9216 : Shape := ⟨4, ![16, 16, 4, 9216]⟩
abbrev S16x544x9216 : Shape := ⟨3, ![16, 544, 9216]⟩
abbrev S1x16x4x4608 : Shape := ⟨4, ![1, 16, 4, 4608]⟩
abbrev S1x544x4608 : Shape := ⟨3, ![1, 544, 4608]⟩
abbrev S1x16x1x4608 : Shape := ⟨4, ![1, 16, 1, 4608]⟩
abbrev S16x4608 : Shape := ⟨2, ![16, 4608]⟩
abbrev S1x4608 : Shape := ⟨2, ![1, 4608]⟩
abbrev S4608 : Shape := ⟨1, ![4608]⟩
abbrev S1x1x4608 : Shape := ⟨3, ![1, 1, 4608]⟩
abbrev S16x544x96x96 : Shape := ⟨4, ![16, 544, 96, 96]⟩

abbrev nBuf : Space → Nat
  | .hbm => 4
  | .vmem => 4
  | .smem => 0
  | _ => 0

abbrev bufTy : (tb : Table) → Fin (tcTables nBuf tb) → BufTy
  | .hbm, ⟨0, _⟩ => ⟨S16x64x96x96, .f32⟩
  | .hbm, ⟨1, _⟩ => ⟨S16x16x4x9216, .f32⟩
  | .hbm, ⟨2, _⟩ => ⟨S16x544x9216, .f32⟩
  | .hbm, ⟨3, _⟩ => ⟨S16x544x96x96, .f32⟩
  | .local _ .vmem, ⟨0, _⟩ => ⟨S1x16x4x4608, .f32⟩
  | .local _ .vmem, ⟨1, _⟩ => ⟨S1x16x4x4608, .f32⟩
  | .local _ .vmem, ⟨2, _⟩ => ⟨S1x544x4608, .f32⟩
  | .local _ .vmem, ⟨3, _⟩ => ⟨S1x544x4608, .f32⟩
  | _, _ => ⟨S16x64x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x16x4x4608 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x544x4608 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x64x96x96_S16x16x4x9216 : S16x64x96x96.ShapeCasts S16x16x4x9216
  inb_S1x16x4x4608_S1x16x1x4608_0_0_0_0 : ∀ a, (![0, 0, 0, 0] : Fin 4 → Nat) a + S1x16x1x4608.size a ≤ S1x16x4x4608.size a
  h_S1x16x1x4608 : 0 < S1x16x1x4608.numel
  shapeCasts_S1x16x1x4608_S16x4608 : S1x16x1x4608.ShapeCasts S16x4608
  slices_S16x4608_o0_0_S1x4608 : S16x4608.Slices ![0, 0] S1x4608
  shapeCasts_S1x4608_S4608 : S1x4608.ShapeCasts S4608
  inb_S1x544x4608_S1x1x4608_0_0_0 : ∀ a, (![0, 0, 0] : Fin 3 → Nat) a + S1x1x4608.size a ≤ S1x544x4608.size a
  h_S1x1x4608 : 0 < S1x1x4608.numel
  shapeCasts_S1x1x4608_S4608 : S1x1x4608.ShapeCasts S4608
  shapeCasts_S4608_S1x1x4608 : S4608.ShapeCasts S1x1x4608
  slices_S16x4608_o1_0_S1x4608 : S16x4608.Slices ![1, 0] S1x4608
  inb_S1x544x4608_S1x1x4608_0_1_0 : ∀ a, (![0, 1, 0] : Fin 3 → Nat) a + S1x1x4608.size a ≤ S1x544x4608.size a
  slices_S16x4608_o2_0_S1x4608 : S16x4608.Slices ![2, 0] S1x4608
  inb_S1x544x4608_S1x1x4608_0_2_0 : ∀ a, (![0, 2, 0] : Fin 3 → Nat) a + S1x1x4608.size a ≤ S1x544x4608.size a
  slices_S16x4608_o3_0_S1x4608 : S16x4608.Slices ![3, 0] S1x4608
  inb_S1x544x4608_S1x1x4608_0_3_0 : ∀ a, (![0, 3, 0] : Fin 3 → Nat) a + S1x1x4608.size a ≤ S1x544x4608.size a
  slices_S16x4608_o4_0_S1x4608 : S16x4608.Slices ![4, 0] S1x4608
  inb_S1x544x4608_S1x1x4608_0_4_0 : ∀ a, (![0, 4, 0] : Fin 3 → Nat) a + S1x1x4608.size a ≤ S1x544x4608.size a
  slices_S16x4608_o5_0_S1x4608 : S16x4608.Slices ![5, 0] S1x4608
  inb_S1x544x4608_S1x1x4608_0_5_0 : ∀ a, (![0, 5, 0] : Fin 3 → Nat) a + S1x1x4608.size a ≤ S1x544x4608.size a
  slices_S16x4608_o6_0_S1x4608 : S16x4608.Slices ![6, 0] S1x4608
  inb_S1x544x4608_S1x1x4608_0_6_0 : ∀ a, (![0, 6, 0] : Fin 3 → Nat) a + S1x1x4608.size a ≤ S1x544x4608.size a
  slices_S16x4608_o7_0_S1x4608 : S16x4608.Slices ![7, 0] S1x4608
  inb_S1x544x4608_S1x1x4608_0_7_0 : ∀ a, (![0, 7, 0] : Fin 3 → Nat) a + S1x1x4608.size a ≤ S1x544x4608.size a
  slices_S16x4608_o8_0_S1x4608 : S16x4608.Slices ![8, 0] S1x4608
  inb_S1x544x4608_S1x1x4608_0_8_0 : ∀ a, (![0, 8, 0] : Fin 3 → Nat) a + S1x1x4608.size a ≤ S1x544x4608.size a
  slices_S16x4608_o9_0_S1x4608 : S16x4608.Slices ![9, 0] S1x4608
  inb_S1x544x4608_S1x1x4608_0_9_0 : ∀ a, (![0, 9, 0] : Fin 3 → Nat) a + S1x1x4608.size a ≤ S1x544x4608.size a
  slices_S16x4608_o10_0_S1x4608 : S16x4608.Slices ![10, 0] S1x4608
  inb_S1x544x4608_S1x1x4608_0_10_0 : ∀ a, (![0, 10, 0] : Fin 3 → Nat) a + S1x1x4608.size a ≤ S1x544x4608.size a
  slices_S16x4608_o11_0_S1x4608 : S16x4608.Slices ![11, 0] S1x4608
  inb_S1x544x4608_S1x1x4608_0_11_0 : ∀ a, (![0, 11, 0] : Fin 3 → Nat) a + S1x1x4608.size a ≤ S1x544x4608.size a
  slices_S16x4608_o12_0_S1x4608 : S16x4608.Slices ![12, 0] S1x4608
  inb_S1x544x4608_S1x1x4608_0_12_0 : ∀ a, (![0, 12, 0] : Fin 3 → Nat) a + S1x1x4608.size a ≤ S1x544x4608.size a
  slices_S16x4608_o13_0_S1x4608 : S16x4608.Slices ![13, 0] S1x4608
  inb_S1x544x4608_S1x1x4608_0_13_0 : ∀ a, (![0, 13, 0] : Fin 3 → Nat) a + S1x1x4608.size a ≤ S1x544x4608.size a
  slices_S16x4608_o14_0_S1x4608 : S16x4608.Slices ![14, 0] S1x4608
  inb_S1x544x4608_S1x1x4608_0_14_0 : ∀ a, (![0, 14, 0] : Fin 3 → Nat) a + S1x1x4608.size a ≤ S1x544x4608.size a
  slices_S16x4608_o15_0_S1x4608 : S16x4608.Slices ![15, 0] S1x4608
  inb_S1x544x4608_S1x1x4608_0_15_0 : ∀ a, (![0, 15, 0] : Fin 3 → Nat) a + S1x1x4608.size a ≤ S1x544x4608.size a
  inb_S1x544x4608_S1x1x4608_0_16_0 : ∀ a, (![0, 16, 0] : Fin 3 → Nat) a + S1x1x4608.size a ≤ S1x544x4608.size a
  inb_S1x544x4608_S1x1x4608_0_17_0 : ∀ a, (![0, 17, 0] : Fin 3 → Nat) a + S1x1x4608.size a ≤ S1x544x4608.size a
  inb_S1x544x4608_S1x1x4608_0_18_0 : ∀ a, (![0, 18, 0] : Fin 3 → Nat) a + S1x1x4608.size a ≤ S1x544x4608.size a
  inb_S1x544x4608_S1x1x4608_0_19_0 : ∀ a, (![0, 19, 0] : Fin 3 → Nat) a + S1x1x4608.size a ≤ S1x544x4608.size a
  inb_S1x544x4608_S1x1x4608_0_20_0 : ∀ a, (![0, 20, 0] : Fin 3 → Nat) a + S1x1x4608.size a ≤ S1x544x4608.size a
  inb_S1x544x4608_S1x1x4608_0_21_0 : ∀ a, (![0, 21, 0] : Fin 3 → Nat) a + S1x1x4608.size a ≤ S1x544x4608.size a
  inb_S1x544x4608_S1x1x4608_0_22_0 : ∀ a, (![0, 22, 0] : Fin 3 → Nat) a + S1x1x4608.size a ≤ S1x544x4608.size a
  inb_S1x544x4608_S1x1x4608_0_23_0 : ∀ a, (![0, 23, 0] : Fin 3 → Nat) a + S1x1x4608.size a ≤ S1x544x4608.size a
  inb_S1x544x4608_S1x1x4608_0_24_0 : ∀ a, (![0, 24, 0] : Fin 3 → Nat) a + S1x1x4608.size a ≤ S1x544x4608.size a
  inb_S1x544x4608_S1x1x4608_0_25_0 : ∀ a, (![0, 25, 0] : Fin 3 → Nat) a + S1x1x4608.size a ≤ S1x544x4608.size a
  inb_S1x544x4608_S1x1x4608_0_26_0 : ∀ a, (![0, 26, 0] : Fin 3 → Nat) a + S1x1x4608.size a ≤ S1x544x4608.size a
  inb_S1x544x4608_S1x1x4608_0_27_0 : ∀ a, (![0, 27, 0] : Fin 3 → Nat) a + S1x1x4608.size a ≤ S1x544x4608.size a
  inb_S1x544x4608_S1x1x4608_0_28_0 : ∀ a, (![0, 28, 0] : Fin 3 → Nat) a + S1x1x4608.size a ≤ S1x544x4608.size a
  inb_S1x544x4608_S1x1x4608_0_29_0 : ∀ a, (![0, 29, 0] : Fin 3 → Nat) a + S1x1x4608.size a ≤ S1x544x4608.size a
  inb_S1x544x4608_S1x1x4608_0_30_0 : ∀ a, (![0, 30, 0] : Fin 3 → Nat) a + S1x1x4608.size a ≤ S1x544x4608.size a
  inb_S1x544x4608_S1x1x4608_0_31_0 : ∀ a, (![0, 31, 0] : Fin 3 → Nat) a + S1x1x4608.size a ≤ S1x544x4608.size a
  inb_S1x544x4608_S1x1x4608_0_32_0 : ∀ a, (![0, 32, 0] : Fin 3 → Nat) a + S1x1x4608.size a ≤ S1x544x4608.size a
  inb_S1x544x4608_S1x1x4608_0_33_0 : ∀ a, (![0, 33, 0] : Fin 3 → Nat) a + S1x1x4608.size a ≤ S1x544x4608.size a
  inb_S1x544x4608_S1x1x4608_0_34_0 : ∀ a, (![0, 34, 0] : Fin 3 → Nat) a + S1x1x4608.size a ≤ S1x544x4608.size a
  inb_S1x544x4608_S1x1x4608_0_35_0 : ∀ a, (![0, 35, 0] : Fin 3 → Nat) a + S1x1x4608.size a ≤ S1x544x4608.size a
  inb_S1x544x4608_S1x1x4608_0_36_0 : ∀ a, (![0, 36, 0] : Fin 3 → Nat) a + S1x1x4608.size a ≤ S1x544x4608.size a
  inb_S1x544x4608_S1x1x4608_0_37_0 : ∀ a, (![0, 37, 0] : Fin 3 → Nat) a + S1x1x4608.size a ≤ S1x544x4608.size a
  inb_S1x544x4608_S1x1x4608_0_38_0 : ∀ a, (![0, 38, 0] : Fin 3 → Nat) a + S1x1x4608.size a ≤ S1x544x4608.size a
  inb_S1x544x4608_S1x1x4608_0_39_0 : ∀ a, (![0, 39, 0] : Fin 3 → Nat) a + S1x1x4608.size a ≤ S1x544x4608.size a
  inb_S1x544x4608_S1x1x4608_0_40_0 : ∀ a, (![0, 40, 0] : Fin 3 → Nat) a + S1x1x4608.size a ≤ S1x544x4608.size a
  inb_S1x544x4608_S1x1x4608_0_41_0 : ∀ a, (![0, 41, 0] : Fin 3 → Nat) a + S1x1x4608.size a ≤ S1x544x4608.size a
  inb_S1x544x4608_S1x1x4608_0_42_0 : ∀ a, (![0, 42, 0] : Fin 3 → Nat) a + S1x1x4608.size a ≤ S1x544x4608.size a
  inb_S1x544x4608_S1x1x4608_0_43_0 : ∀ a, (![0, 43, 0] : Fin 3 → Nat) a + S1x1x4608.size a ≤ S1x544x4608.size a
  inb_S1x544x4608_S1x1x4608_0_44_0 : ∀ a, (![0, 44, 0] : Fin 3 → Nat) a + S1x1x4608.size a ≤ S1x544x4608.size a
  inb_S1x544x4608_S1x1x4608_0_45_0 : ∀ a, (![0, 45, 0] : Fin 3 → Nat) a + S1x1x4608.size a ≤ S1x544x4608.size a
  inb_S1x544x4608_S1x1x4608_0_46_0 : ∀ a, (![0, 46, 0] : Fin 3 → Nat) a + S1x1x4608.size a ≤ S1x544x4608.size a
  inb_S1x544x4608_S1x1x4608_0_47_0 : ∀ a, (![0, 47, 0] : Fin 3 → Nat) a + S1x1x4608.size a ≤ S1x544x4608.size a
  inb_S1x544x4608_S1x1x4608_0_48_0 : ∀ a, (![0, 48, 0] : Fin 3 → Nat) a + S1x1x4608.size a ≤ S1x544x4608.size a
  inb_S1x544x4608_S1x1x4608_0_49_0 : ∀ a, (![0, 49, 0] : Fin 3 → Nat) a + S1x1x4608.size a ≤ S1x544x4608.size a
  inb_S1x544x4608_S1x1x4608_0_50_0 : ∀ a, (![0, 50, 0] : Fin 3 → Nat) a + S1x1x4608.size a ≤ S1x544x4608.size a
  inb_S1x544x4608_S1x1x4608_0_51_0 : ∀ a, (![0, 51, 0] : Fin 3 → Nat) a + S1x1x4608.size a ≤ S1x544x4608.size a
  inb_S1x544x4608_S1x1x4608_0_52_0 : ∀ a, (![0, 52, 0] : Fin 3 → Nat) a + S1x1x4608.size a ≤ S1x544x4608.size a
  inb_S1x544x4608_S1x1x4608_0_53_0 : ∀ a, (![0, 53, 0] : Fin 3 → Nat) a + S1x1x4608.size a ≤ S1x544x4608.size a
  inb_S1x544x4608_S1x1x4608_0_54_0 : ∀ a, (![0, 54, 0] : Fin 3 → Nat) a + S1x1x4608.size a ≤ S1x544x4608.size a
  inb_S1x544x4608_S1x1x4608_0_55_0 : ∀ a, (![0, 55, 0] : Fin 3 → Nat) a + S1x1x4608.size a ≤ S1x544x4608.size a
  inb_S1x544x4608_S1x1x4608_0_56_0 : ∀ a, (![0, 56, 0] : Fin 3 → Nat) a + S1x1x4608.size a ≤ S1x544x4608.size a
  inb_S1x544x4608_S1x1x4608_0_57_0 : ∀ a, (![0, 57, 0] : Fin 3 → Nat) a + S1x1x4608.size a ≤ S1x544x4608.size a
  inb_S1x544x4608_S1x1x4608_0_58_0 : ∀ a, (![0, 58, 0] : Fin 3 → Nat) a + S1x1x4608.size a ≤ S1x544x4608.size a
  inb_S1x544x4608_S1x1x4608_0_59_0 : ∀ a, (![0, 59, 0] : Fin 3 → Nat) a + S1x1x4608.size a ≤ S1x544x4608.size a
  inb_S1x544x4608_S1x1x4608_0_60_0 : ∀ a, (![0, 60, 0] : Fin 3 → Nat) a + S1x1x4608.size a ≤ S1x544x4608.size a
  inb_S1x544x4608_S1x1x4608_0_61_0 : ∀ a, (![0, 61, 0] : Fin 3 → Nat) a + S1x1x4608.size a ≤ S1x544x4608.size a
  inb_S1x544x4608_S1x1x4608_0_62_0 : ∀ a, (![0, 62, 0] : Fin 3 → Nat) a + S1x1x4608.size a ≤ S1x544x4608.size a
  inb_S1x544x4608_S1x1x4608_0_63_0 : ∀ a, (![0, 63, 0] : Fin 3 → Nat) a + S1x1x4608.size a ≤ S1x544x4608.size a
  inb_S1x544x4608_S1x1x4608_0_64_0 : ∀ a, (![0, 64, 0] : Fin 3 → Nat) a + S1x1x4608.size a ≤ S1x544x4608.size a
  inb_S1x544x4608_S1x1x4608_0_65_0 : ∀ a, (![0, 65, 0] : Fin 3 → Nat) a + S1x1x4608.size a ≤ S1x544x4608.size a
  inb_S1x544x4608_S1x1x4608_0_66_0 : ∀ a, (![0, 66, 0] : Fin 3 → Nat) a + S1x1x4608.size a ≤ S1x544x4608.size a
  inb_S1x544x4608_S1x1x4608_0_67_0 : ∀ a, (![0, 67, 0] : Fin 3 → Nat) a + S1x1x4608.size a ≤ S1x544x4608.size a
  inb_S1x544x4608_S1x1x4608_0_68_0 : ∀ a, (![0, 68, 0] : Fin 3 → Nat) a + S1x1x4608.size a ≤ S1x544x4608.size a
  inb_S1x544x4608_S1x1x4608_0_69_0 : ∀ a, (![0, 69, 0] : Fin 3 → Nat) a + S1x1x4608.size a ≤ S1x544x4608.size a
  inb_S1x544x4608_S1x1x4608_0_70_0 : ∀ a, (![0, 70, 0] : Fin 3 → Nat) a + S1x1x4608.size a ≤ S1x544x4608.size a
  inb_S1x544x4608_S1x1x4608_0_71_0 : ∀ a, (![0, 71, 0] : Fin 3 → Nat) a + S1x1x4608.size a ≤ S1x544x4608.size a
  inb_S1x544x4608_S1x1x4608_0_72_0 : ∀ a, (![0, 72, 0] : Fin 3 → Nat) a + S1x1x4608.size a ≤ S1x544x4608.size a
  inb_S1x544x4608_S1x1x4608_0_73_0 : ∀ a, (![0, 73, 0] : Fin 3 → Nat) a + S1x1x4608.size a ≤ S1x544x4608.size a
  inb_S1x544x4608_S1x1x4608_0_74_0 : ∀ a, (![0, 74, 0] : Fin 3 → Nat) a + S1x1x4608.size a ≤ S1x544x4608.size a
  inb_S1x544x4608_S1x1x4608_0_75_0 : ∀ a, (![0, 75, 0] : Fin 3 → Nat) a + S1x1x4608.size a ≤ S1x544x4608.size a
  inb_S1x544x4608_S1x1x4608_0_76_0 : ∀ a, (![0, 76, 0] : Fin 3 → Nat) a + S1x1x4608.size a ≤ S1x544x4608.size a
  inb_S1x544x4608_S1x1x4608_0_77_0 : ∀ a, (![0, 77, 0] : Fin 3 → Nat) a + S1x1x4608.size a ≤ S1x544x4608.size a
  inb_S1x544x4608_S1x1x4608_0_78_0 : ∀ a, (![0, 78, 0] : Fin 3 → Nat) a + S1x1x4608.size a ≤ S1x544x4608.size a
  inb_S1x544x4608_S1x1x4608_0_79_0 : ∀ a, (![0, 79, 0] : Fin 3 → Nat) a + S1x1x4608.size a ≤ S1x544x4608.size a
  inb_S1x544x4608_S1x1x4608_0_80_0 : ∀ a, (![0, 80, 0] : Fin 3 → Nat) a + S1x1x4608.size a ≤ S1x544x4608.size a
  inb_S1x544x4608_S1x1x4608_0_81_0 : ∀ a, (![0, 81, 0] : Fin 3 → Nat) a + S1x1x4608.size a ≤ S1x544x4608.size a
  inb_S1x544x4608_S1x1x4608_0_82_0 : ∀ a, (![0, 82, 0] : Fin 3 → Nat) a + S1x1x4608.size a ≤ S1x544x4608.size a
  inb_S1x544x4608_S1x1x4608_0_83_0 : ∀ a, (![0, 83, 0] : Fin 3 → Nat) a + S1x1x4608.size a ≤ S1x544x4608.size a
  inb_S1x544x4608_S1x1x4608_0_84_0 : ∀ a, (![0, 84, 0] : Fin 3 → Nat) a + S1x1x4608.size a ≤ S1x544x4608.size a
  inb_S1x544x4608_S1x1x4608_0_85_0 : ∀ a, (![0, 85, 0] : Fin 3 → Nat) a + S1x1x4608.size a ≤ S1x544x4608.size a
  inb_S1x544x4608_S1x1x4608_0_86_0 : ∀ a, (![0, 86, 0] : Fin 3 → Nat) a + S1x1x4608.size a ≤ S1x544x4608.size a
  inb_S1x544x4608_S1x1x4608_0_87_0 : ∀ a, (![0, 87, 0] : Fin 3 → Nat) a + S1x1x4608.size a ≤ S1x544x4608.size a
  inb_S1x544x4608_S1x1x4608_0_88_0 : ∀ a, (![0, 88, 0] : Fin 3 → Nat) a + S1x1x4608.size a ≤ S1x544x4608.size a
  inb_S1x544x4608_S1x1x4608_0_89_0 : ∀ a, (![0, 89, 0] : Fin 3 → Nat) a + S1x1x4608.size a ≤ S1x544x4608.size a
  inb_S1x544x4608_S1x1x4608_0_90_0 : ∀ a, (![0, 90, 0] : Fin 3 → Nat) a + S1x1x4608.size a ≤ S1x544x4608.size a
  inb_S1x544x4608_S1x1x4608_0_91_0 : ∀ a, (![0, 91, 0] : Fin 3 → Nat) a + S1x1x4608.size a ≤ S1x544x4608.size a
  inb_S1x544x4608_S1x1x4608_0_92_0 : ∀ a, (![0, 92, 0] : Fin 3 → Nat) a + S1x1x4608.size a ≤ S1x544x4608.size a
  inb_S1x544x4608_S1x1x4608_0_93_0 : ∀ a, (![0, 93, 0] : Fin 3 → Nat) a + S1x1x4608.size a ≤ S1x544x4608.size a
  inb_S1x544x4608_S1x1x4608_0_94_0 : ∀ a, (![0, 94, 0] : Fin 3 → Nat) a + S1x1x4608.size a ≤ S1x544x4608.size a
  inb_S1x544x4608_S1x1x4608_0_95_0 : ∀ a, (![0, 95, 0] : Fin 3 → Nat) a + S1x1x4608.size a ≤ S1x544x4608.size a
  inb_S1x544x4608_S1x1x4608_0_96_0 : ∀ a, (![0, 96, 0] : Fin 3 → Nat) a + S1x1x4608.size a ≤ S1x544x4608.size a
  inb_S1x544x4608_S1x1x4608_0_97_0 : ∀ a, (![0, 97, 0] : Fin 3 → Nat) a + S1x1x4608.size a ≤ S1x544x4608.size a
  inb_S1x544x4608_S1x1x4608_0_98_0 : ∀ a, (![0, 98, 0] : Fin 3 → Nat) a + S1x1x4608.size a ≤ S1x544x4608.size a
  inb_S1x544x4608_S1x1x4608_0_99_0 : ∀ a, (![0, 99, 0] : Fin 3 → Nat) a + S1x1x4608.size a ≤ S1x544x4608.size a
  inb_S1x544x4608_S1x1x4608_0_100_0 : ∀ a, (![0, 100, 0] : Fin 3 → Nat) a + S1x1x4608.size a ≤ S1x544x4608.size a
  inb_S1x544x4608_S1x1x4608_0_101_0 : ∀ a, (![0, 101, 0] : Fin 3 → Nat) a + S1x1x4608.size a ≤ S1x544x4608.size a
  inb_S1x544x4608_S1x1x4608_0_102_0 : ∀ a, (![0, 102, 0] : Fin 3 → Nat) a + S1x1x4608.size a ≤ S1x544x4608.size a
  inb_S1x544x4608_S1x1x4608_0_103_0 : ∀ a, (![0, 103, 0] : Fin 3 → Nat) a + S1x1x4608.size a ≤ S1x544x4608.size a
  inb_S1x544x4608_S1x1x4608_0_104_0 : ∀ a, (![0, 104, 0] : Fin 3 → Nat) a + S1x1x4608.size a ≤ S1x544x4608.size a
  inb_S1x544x4608_S1x1x4608_0_105_0 : ∀ a, (![0, 105, 0] : Fin 3 → Nat) a + S1x1x4608.size a ≤ S1x544x4608.size a
  inb_S1x544x4608_S1x1x4608_0_106_0 : ∀ a, (![0, 106, 0] : Fin 3 → Nat) a + S1x1x4608.size a ≤ S1x544x4608.size a
  inb_S1x544x4608_S1x1x4608_0_107_0 : ∀ a, (![0, 107, 0] : Fin 3 → Nat) a + S1x1x4608.size a ≤ S1x544x4608.size a
  inb_S1x544x4608_S1x1x4608_0_108_0 : ∀ a, (![0, 108, 0] : Fin 3 → Nat) a + S1x1x4608.size a ≤ S1x544x4608.size a
  inb_S1x544x4608_S1x1x4608_0_109_0 : ∀ a, (![0, 109, 0] : Fin 3 → Nat) a + S1x1x4608.size a ≤ S1x544x4608.size a
  inb_S1x544x4608_S1x1x4608_0_110_0 : ∀ a, (![0, 110, 0] : Fin 3 → Nat) a + S1x1x4608.size a ≤ S1x544x4608.size a
  inb_S1x544x4608_S1x1x4608_0_111_0 : ∀ a, (![0, 111, 0] : Fin 3 → Nat) a + S1x1x4608.size a ≤ S1x544x4608.size a
  inb_S1x544x4608_S1x1x4608_0_112_0 : ∀ a, (![0, 112, 0] : Fin 3 → Nat) a + S1x1x4608.size a ≤ S1x544x4608.size a
  inb_S1x544x4608_S1x1x4608_0_113_0 : ∀ a, (![0, 113, 0] : Fin 3 → Nat) a + S1x1x4608.size a ≤ S1x544x4608.size a
  inb_S1x544x4608_S1x1x4608_0_114_0 : ∀ a, (![0, 114, 0] : Fin 3 → Nat) a + S1x1x4608.size a ≤ S1x544x4608.size a
  inb_S1x544x4608_S1x1x4608_0_115_0 : ∀ a, (![0, 115, 0] : Fin 3 → Nat) a + S1x1x4608.size a ≤ S1x544x4608.size a
  inb_S1x544x4608_S1x1x4608_0_116_0 : ∀ a, (![0, 116, 0] : Fin 3 → Nat) a + S1x1x4608.size a ≤ S1x544x4608.size a
  inb_S1x544x4608_S1x1x4608_0_117_0 : ∀ a, (![0, 117, 0] : Fin 3 → Nat) a + S1x1x4608.size a ≤ S1x544x4608.size a
  inb_S1x544x4608_S1x1x4608_0_118_0 : ∀ a, (![0, 118, 0] : Fin 3 → Nat) a + S1x1x4608.size a ≤ S1x544x4608.size a
  inb_S1x544x4608_S1x1x4608_0_119_0 : ∀ a, (![0, 119, 0] : Fin 3 → Nat) a + S1x1x4608.size a ≤ S1x544x4608.size a
  inb_S1x544x4608_S1x1x4608_0_120_0 : ∀ a, (![0, 120, 0] : Fin 3 → Nat) a + S1x1x4608.size a ≤ S1x544x4608.size a
  inb_S1x544x4608_S1x1x4608_0_121_0 : ∀ a, (![0, 121, 0] : Fin 3 → Nat) a + S1x1x4608.size a ≤ S1x544x4608.size a
  inb_S1x544x4608_S1x1x4608_0_122_0 : ∀ a, (![0, 122, 0] : Fin 3 → Nat) a + S1x1x4608.size a ≤ S1x544x4608.size a
  inb_S1x544x4608_S1x1x4608_0_123_0 : ∀ a, (![0, 123, 0] : Fin 3 → Nat) a + S1x1x4608.size a ≤ S1x544x4608.size a
  inb_S1x544x4608_S1x1x4608_0_124_0 : ∀ a, (![0, 124, 0] : Fin 3 → Nat) a + S1x1x4608.size a ≤ S1x544x4608.size a
  inb_S1x544x4608_S1x1x4608_0_125_0 : ∀ a, (![0, 125, 0] : Fin 3 → Nat) a + S1x1x4608.size a ≤ S1x544x4608.size a
  inb_S1x544x4608_S1x1x4608_0_126_0 : ∀ a, (![0, 126, 0] : Fin 3 → Nat) a + S1x1x4608.size a ≤ S1x544x4608.size a
  inb_S1x544x4608_S1x1x4608_0_127_0 : ∀ a, (![0, 127, 0] : Fin 3 → Nat) a + S1x1x4608.size a ≤ S1x544x4608.size a
  inb_S1x544x4608_S1x1x4608_0_128_0 : ∀ a, (![0, 128, 0] : Fin 3 → Nat) a + S1x1x4608.size a ≤ S1x544x4608.size a
  inb_S1x544x4608_S1x1x4608_0_129_0 : ∀ a, (![0, 129, 0] : Fin 3 → Nat) a + S1x1x4608.size a ≤ S1x544x4608.size a
  inb_S1x544x4608_S1x1x4608_0_130_0 : ∀ a, (![0, 130, 0] : Fin 3 → Nat) a + S1x1x4608.size a ≤ S1x544x4608.size a
  inb_S1x544x4608_S1x1x4608_0_131_0 : ∀ a, (![0, 131, 0] : Fin 3 → Nat) a + S1x1x4608.size a ≤ S1x544x4608.size a
  inb_S1x544x4608_S1x1x4608_0_132_0 : ∀ a, (![0, 132, 0] : Fin 3 → Nat) a + S1x1x4608.size a ≤ S1x544x4608.size a
  inb_S1x544x4608_S1x1x4608_0_133_0 : ∀ a, (![0, 133, 0] : Fin 3 → Nat) a + S1x1x4608.size a ≤ S1x544x4608.size a
  inb_S1x544x4608_S1x1x4608_0_134_0 : ∀ a, (![0, 134, 0] : Fin 3 → Nat) a + S1x1x4608.size a ≤ S1x544x4608.size a
  inb_S1x544x4608_S1x1x4608_0_135_0 : ∀ a, (![0, 135, 0] : Fin 3 → Nat) a + S1x1x4608.size a ≤ S1x544x4608.size a
  inb_S1x16x4x4608_S1x16x1x4608_0_0_1_0 : ∀ a, (![0, 0, 1, 0] : Fin 4 → Nat) a + S1x16x1x4608.size a ≤ S1x16x4x4608.size a
  inb_S1x544x4608_S1x1x4608_0_136_0 : ∀ a, (![0, 136, 0] : Fin 3 → Nat) a + S1x1x4608.size a ≤ S1x544x4608.size a
  inb_S1x544x4608_S1x1x4608_0_137_0 : ∀ a, (![0, 137, 0] : Fin 3 → Nat) a + S1x1x4608.size a ≤ S1x544x4608.size a
  inb_S1x544x4608_S1x1x4608_0_138_0 : ∀ a, (![0, 138, 0] : Fin 3 → Nat) a + S1x1x4608.size a ≤ S1x544x4608.size a
  inb_S1x544x4608_S1x1x4608_0_139_0 : ∀ a, (![0, 139, 0] : Fin 3 → Nat) a + S1x1x4608.size a ≤ S1x544x4608.size a
  inb_S1x544x4608_S1x1x4608_0_140_0 : ∀ a, (![0, 140, 0] : Fin 3 → Nat) a + S1x1x4608.size a ≤ S1x544x4608.size a
  inb_S1x544x4608_S1x1x4608_0_141_0 : ∀ a, (![0, 141, 0] : Fin 3 → Nat) a + S1x1x4608.size a ≤ S1x544x4608.size a
  inb_S1x544x4608_S1x1x4608_0_142_0 : ∀ a, (![0, 142, 0] : Fin 3 → Nat) a + S1x1x4608.size a ≤ S1x544x4608.size a
  inb_S1x544x4608_S1x1x4608_0_143_0 : ∀ a, (![0, 143, 0] : Fin 3 → Nat) a + S1x1x4608.size a ≤ S1x544x4608.size a
  inb_S1x544x4608_S1x1x4608_0_144_0 : ∀ a, (![0, 144, 0] : Fin 3 → Nat) a + S1x1x4608.size a ≤ S1x544x4608.size a
  inb_S1x544x4608_S1x1x4608_0_145_0 : ∀ a, (![0, 145, 0] : Fin 3 → Nat) a + S1x1x4608.size a ≤ S1x544x4608.size a
  inb_S1x544x4608_S1x1x4608_0_146_0 : ∀ a, (![0, 146, 0] : Fin 3 → Nat) a + S1x1x4608.size a ≤ S1x544x4608.size a
  inb_S1x544x4608_S1x1x4608_0_147_0 : ∀ a, (![0, 147, 0] : Fin 3 → Nat) a + S1x1x4608.size a ≤ S1x544x4608.size a
  inb_S1x544x4608_S1x1x4608_0_148_0 : ∀ a, (![0, 148, 0] : Fin 3 → Nat) a + S1x1x4608.size a ≤ S1x544x4608.size a
  inb_S1x544x4608_S1x1x4608_0_149_0 : ∀ a, (![0, 149, 0] : Fin 3 → Nat) a + S1x1x4608.size a ≤ S1x544x4608.size a
  inb_S1x544x4608_S1x1x4608_0_150_0 : ∀ a, (![0, 150, 0] : Fin 3 → Nat) a + S1x1x4608.size a ≤ S1x544x4608.size a
  inb_S1x544x4608_S1x1x4608_0_151_0 : ∀ a, (![0, 151, 0] : Fin 3 → Nat) a + S1x1x4608.size a ≤ S1x544x4608.size a
  inb_S1x544x4608_S1x1x4608_0_152_0 : ∀ a, (![0, 152, 0] : Fin 3 → Nat) a + S1x1x4608.size a ≤ S1x544x4608.size a
  inb_S1x544x4608_S1x1x4608_0_153_0 : ∀ a, (![0, 153, 0] : Fin 3 → Nat) a + S1x1x4608.size a ≤ S1x544x4608.size a
  inb_S1x544x4608_S1x1x4608_0_154_0 : ∀ a, (![0, 154, 0] : Fin 3 → Nat) a + S1x1x4608.size a ≤ S1x544x4608.size a
  inb_S1x544x4608_S1x1x4608_0_155_0 : ∀ a, (![0, 155, 0] : Fin 3 → Nat) a + S1x1x4608.size a ≤ S1x544x4608.size a
  inb_S1x544x4608_S1x1x4608_0_156_0 : ∀ a, (![0, 156, 0] : Fin 3 → Nat) a + S1x1x4608.size a ≤ S1x544x4608.size a
  inb_S1x544x4608_S1x1x4608_0_157_0 : ∀ a, (![0, 157, 0] : Fin 3 → Nat) a + S1x1x4608.size a ≤ S1x544x4608.size a
  inb_S1x544x4608_S1x1x4608_0_158_0 : ∀ a, (![0, 158, 0] : Fin 3 → Nat) a + S1x1x4608.size a ≤ S1x544x4608.size a
  inb_S1x544x4608_S1x1x4608_0_159_0 : ∀ a, (![0, 159, 0] : Fin 3 → Nat) a + S1x1x4608.size a ≤ S1x544x4608.size a
  inb_S1x544x4608_S1x1x4608_0_160_0 : ∀ a, (![0, 160, 0] : Fin 3 → Nat) a + S1x1x4608.size a ≤ S1x544x4608.size a
  inb_S1x544x4608_S1x1x4608_0_161_0 : ∀ a, (![0, 161, 0] : Fin 3 → Nat) a + S1x1x4608.size a ≤ S1x544x4608.size a
  inb_S1x544x4608_S1x1x4608_0_162_0 : ∀ a, (![0, 162, 0] : Fin 3 → Nat) a + S1x1x4608.size a ≤ S1x544x4608.size a
  inb_S1x544x4608_S1x1x4608_0_163_0 : ∀ a, (![0, 163, 0] : Fin 3 → Nat) a + S1x1x4608.size a ≤ S1x544x4608.size a
  inb_S1x544x4608_S1x1x4608_0_164_0 : ∀ a, (![0, 164, 0] : Fin 3 → Nat) a + S1x1x4608.size a ≤ S1x544x4608.size a
  inb_S1x544x4608_S1x1x4608_0_165_0 : ∀ a, (![0, 165, 0] : Fin 3 → Nat) a + S1x1x4608.size a ≤ S1x544x4608.size a
  inb_S1x544x4608_S1x1x4608_0_166_0 : ∀ a, (![0, 166, 0] : Fin 3 → Nat) a + S1x1x4608.size a ≤ S1x544x4608.size a
  inb_S1x544x4608_S1x1x4608_0_167_0 : ∀ a, (![0, 167, 0] : Fin 3 → Nat) a + S1x1x4608.size a ≤ S1x544x4608.size a
  inb_S1x544x4608_S1x1x4608_0_168_0 : ∀ a, (![0, 168, 0] : Fin 3 → Nat) a + S1x1x4608.size a ≤ S1x544x4608.size a
  inb_S1x544x4608_S1x1x4608_0_169_0 : ∀ a, (![0, 169, 0] : Fin 3 → Nat) a + S1x1x4608.size a ≤ S1x544x4608.size a
  inb_S1x544x4608_S1x1x4608_0_170_0 : ∀ a, (![0, 170, 0] : Fin 3 → Nat) a + S1x1x4608.size a ≤ S1x544x4608.size a
  inb_S1x544x4608_S1x1x4608_0_171_0 : ∀ a, (![0, 171, 0] : Fin 3 → Nat) a + S1x1x4608.size a ≤ S1x544x4608.size a
  inb_S1x544x4608_S1x1x4608_0_172_0 : ∀ a, (![0, 172, 0] : Fin 3 → Nat) a + S1x1x4608.size a ≤ S1x544x4608.size a
  inb_S1x544x4608_S1x1x4608_0_173_0 : ∀ a, (![0, 173, 0] : Fin 3 → Nat) a + S1x1x4608.size a ≤ S1x544x4608.size a
  inb_S1x544x4608_S1x1x4608_0_174_0 : ∀ a, (![0, 174, 0] : Fin 3 → Nat) a + S1x1x4608.size a ≤ S1x544x4608.size a
  inb_S1x544x4608_S1x1x4608_0_175_0 : ∀ a, (![0, 175, 0] : Fin 3 → Nat) a + S1x1x4608.size a ≤ S1x544x4608.size a
  inb_S1x544x4608_S1x1x4608_0_176_0 : ∀ a, (![0, 176, 0] : Fin 3 → Nat) a + S1x1x4608.size a ≤ S1x544x4608.size a
  inb_S1x544x4608_S1x1x4608_0_177_0 : ∀ a, (![0, 177, 0] : Fin 3 → Nat) a + S1x1x4608.size a ≤ S1x544x4608.size a
  inb_S1x544x4608_S1x1x4608_0_178_0 : ∀ a, (![0, 178, 0] : Fin 3 → Nat) a + S1x1x4608.size a ≤ S1x544x4608.size a
  inb_S1x544x4608_S1x1x4608_0_179_0 : ∀ a, (![0, 179, 0] : Fin 3 → Nat) a + S1x1x4608.size a ≤ S1x544x4608.size a
  inb_S1x544x4608_S1x1x4608_0_180_0 : ∀ a, (![0, 180, 0] : Fin 3 → Nat) a + S1x1x4608.size a ≤ S1x544x4608.size a
  inb_S1x544x4608_S1x1x4608_0_181_0 : ∀ a, (![0, 181, 0] : Fin 3 → Nat) a + S1x1x4608.size a ≤ S1x544x4608.size a
  inb_S1x544x4608_S1x1x4608_0_182_0 : ∀ a, (![0, 182, 0] : Fin 3 → Nat) a + S1x1x4608.size a ≤ S1x544x4608.size a
  inb_S1x544x4608_S1x1x4608_0_183_0 : ∀ a, (![0, 183, 0] : Fin 3 → Nat) a + S1x1x4608.size a ≤ S1x544x4608.size a
  inb_S1x544x4608_S1x1x4608_0_184_0 : ∀ a, (![0, 184, 0] : Fin 3 → Nat) a + S1x1x4608.size a ≤ S1x544x4608.size a
  inb_S1x544x4608_S1x1x4608_0_185_0 : ∀ a, (![0, 185, 0] : Fin 3 → Nat) a + S1x1x4608.size a ≤ S1x544x4608.size a
  inb_S1x544x4608_S1x1x4608_0_186_0 : ∀ a, (![0, 186, 0] : Fin 3 → Nat) a + S1x1x4608.size a ≤ S1x544x4608.size a
  inb_S1x544x4608_S1x1x4608_0_187_0 : ∀ a, (![0, 187, 0] : Fin 3 → Nat) a + S1x1x4608.size a ≤ S1x544x4608.size a
  inb_S1x544x4608_S1x1x4608_0_188_0 : ∀ a, (![0, 188, 0] : Fin 3 → Nat) a + S1x1x4608.size a ≤ S1x544x4608.size a
  inb_S1x544x4608_S1x1x4608_0_189_0 : ∀ a, (![0, 189, 0] : Fin 3 → Nat) a + S1x1x4608.size a ≤ S1x544x4608.size a
  inb_S1x544x4608_S1x1x4608_0_190_0 : ∀ a, (![0, 190, 0] : Fin 3 → Nat) a + S1x1x4608.size a ≤ S1x544x4608.size a
  inb_S1x544x4608_S1x1x4608_0_191_0 : ∀ a, (![0, 191, 0] : Fin 3 → Nat) a + S1x1x4608.size a ≤ S1x544x4608.size a
  inb_S1x544x4608_S1x1x4608_0_192_0 : ∀ a, (![0, 192, 0] : Fin 3 → Nat) a + S1x1x4608.size a ≤ S1x544x4608.size a
  inb_S1x544x4608_S1x1x4608_0_193_0 : ∀ a, (![0, 193, 0] : Fin 3 → Nat) a + S1x1x4608.size a ≤ S1x544x4608.size a
  inb_S1x544x4608_S1x1x4608_0_194_0 : ∀ a, (![0, 194, 0] : Fin 3 → Nat) a + S1x1x4608.size a ≤ S1x544x4608.size a
  inb_S1x544x4608_S1x1x4608_0_195_0 : ∀ a, (![0, 195, 0] : Fin 3 → Nat) a + S1x1x4608.size a ≤ S1x544x4608.size a
  inb_S1x544x4608_S1x1x4608_0_196_0 : ∀ a, (![0, 196, 0] : Fin 3 → Nat) a + S1x1x4608.size a ≤ S1x544x4608.size a
  inb_S1x544x4608_S1x1x4608_0_197_0 : ∀ a, (![0, 197, 0] : Fin 3 → Nat) a + S1x1x4608.size a ≤ S1x544x4608.size a
  inb_S1x544x4608_S1x1x4608_0_198_0 : ∀ a, (![0, 198, 0] : Fin 3 → Nat) a + S1x1x4608.size a ≤ S1x544x4608.size a
  inb_S1x544x4608_S1x1x4608_0_199_0 : ∀ a, (![0, 199, 0] : Fin 3 → Nat) a + S1x1x4608.size a ≤ S1x544x4608.size a
  inb_S1x544x4608_S1x1x4608_0_200_0 : ∀ a, (![0, 200, 0] : Fin 3 → Nat) a + S1x1x4608.size a ≤ S1x544x4608.size a
  inb_S1x544x4608_S1x1x4608_0_201_0 : ∀ a, (![0, 201, 0] : Fin 3 → Nat) a + S1x1x4608.size a ≤ S1x544x4608.size a
  inb_S1x544x4608_S1x1x4608_0_202_0 : ∀ a, (![0, 202, 0] : Fin 3 → Nat) a + S1x1x4608.size a ≤ S1x544x4608.size a
  inb_S1x544x4608_S1x1x4608_0_203_0 : ∀ a, (![0, 203, 0] : Fin 3 → Nat) a + S1x1x4608.size a ≤ S1x544x4608.size a
  inb_S1x544x4608_S1x1x4608_0_204_0 : ∀ a, (![0, 204, 0] : Fin 3 → Nat) a + S1x1x4608.size a ≤ S1x544x4608.size a
  inb_S1x544x4608_S1x1x4608_0_205_0 : ∀ a, (![0, 205, 0] : Fin 3 → Nat) a + S1x1x4608.size a ≤ S1x544x4608.size a
  inb_S1x544x4608_S1x1x4608_0_206_0 : ∀ a, (![0, 206, 0] : Fin 3 → Nat) a + S1x1x4608.size a ≤ S1x544x4608.size a
  inb_S1x544x4608_S1x1x4608_0_207_0 : ∀ a, (![0, 207, 0] : Fin 3 → Nat) a + S1x1x4608.size a ≤ S1x544x4608.size a
  inb_S1x544x4608_S1x1x4608_0_208_0 : ∀ a, (![0, 208, 0] : Fin 3 → Nat) a + S1x1x4608.size a ≤ S1x544x4608.size a
  inb_S1x544x4608_S1x1x4608_0_209_0 : ∀ a, (![0, 209, 0] : Fin 3 → Nat) a + S1x1x4608.size a ≤ S1x544x4608.size a
  inb_S1x544x4608_S1x1x4608_0_210_0 : ∀ a, (![0, 210, 0] : Fin 3 → Nat) a + S1x1x4608.size a ≤ S1x544x4608.size a
  inb_S1x544x4608_S1x1x4608_0_211_0 : ∀ a, (![0, 211, 0] : Fin 3 → Nat) a + S1x1x4608.size a ≤ S1x544x4608.size a
  inb_S1x544x4608_S1x1x4608_0_212_0 : ∀ a, (![0, 212, 0] : Fin 3 → Nat) a + S1x1x4608.size a ≤ S1x544x4608.size a
  inb_S1x544x4608_S1x1x4608_0_213_0 : ∀ a, (![0, 213, 0] : Fin 3 → Nat) a + S1x1x4608.size a ≤ S1x544x4608.size a
  inb_S1x544x4608_S1x1x4608_0_214_0 : ∀ a, (![0, 214, 0] : Fin 3 → Nat) a + S1x1x4608.size a ≤ S1x544x4608.size a
  inb_S1x544x4608_S1x1x4608_0_215_0 : ∀ a, (![0, 215, 0] : Fin 3 → Nat) a + S1x1x4608.size a ≤ S1x544x4608.size a
  inb_S1x544x4608_S1x1x4608_0_216_0 : ∀ a, (![0, 216, 0] : Fin 3 → Nat) a + S1x1x4608.size a ≤ S1x544x4608.size a
  inb_S1x544x4608_S1x1x4608_0_217_0 : ∀ a, (![0, 217, 0] : Fin 3 → Nat) a + S1x1x4608.size a ≤ S1x544x4608.size a
  inb_S1x544x4608_S1x1x4608_0_218_0 : ∀ a, (![0, 218, 0] : Fin 3 → Nat) a + S1x1x4608.size a ≤ S1x544x4608.size a
  inb_S1x544x4608_S1x1x4608_0_219_0 : ∀ a, (![0, 219, 0] : Fin 3 → Nat) a + S1x1x4608.size a ≤ S1x544x4608.size a
  inb_S1x544x4608_S1x1x4608_0_220_0 : ∀ a, (![0, 220, 0] : Fin 3 → Nat) a + S1x1x4608.size a ≤ S1x544x4608.size a
  inb_S1x544x4608_S1x1x4608_0_221_0 : ∀ a, (![0, 221, 0] : Fin 3 → Nat) a + S1x1x4608.size a ≤ S1x544x4608.size a
  inb_S1x544x4608_S1x1x4608_0_222_0 : ∀ a, (![0, 222, 0] : Fin 3 → Nat) a + S1x1x4608.size a ≤ S1x544x4608.size a
  inb_S1x544x4608_S1x1x4608_0_223_0 : ∀ a, (![0, 223, 0] : Fin 3 → Nat) a + S1x1x4608.size a ≤ S1x544x4608.size a
  inb_S1x544x4608_S1x1x4608_0_224_0 : ∀ a, (![0, 224, 0] : Fin 3 → Nat) a + S1x1x4608.size a ≤ S1x544x4608.size a
  inb_S1x544x4608_S1x1x4608_0_225_0 : ∀ a, (![0, 225, 0] : Fin 3 → Nat) a + S1x1x4608.size a ≤ S1x544x4608.size a
  inb_S1x544x4608_S1x1x4608_0_226_0 : ∀ a, (![0, 226, 0] : Fin 3 → Nat) a + S1x1x4608.size a ≤ S1x544x4608.size a
  inb_S1x544x4608_S1x1x4608_0_227_0 : ∀ a, (![0, 227, 0] : Fin 3 → Nat) a + S1x1x4608.size a ≤ S1x544x4608.size a
  inb_S1x544x4608_S1x1x4608_0_228_0 : ∀ a, (![0, 228, 0] : Fin 3 → Nat) a + S1x1x4608.size a ≤ S1x544x4608.size a
  inb_S1x544x4608_S1x1x4608_0_229_0 : ∀ a, (![0, 229, 0] : Fin 3 → Nat) a + S1x1x4608.size a ≤ S1x544x4608.size a
  inb_S1x544x4608_S1x1x4608_0_230_0 : ∀ a, (![0, 230, 0] : Fin 3 → Nat) a + S1x1x4608.size a ≤ S1x544x4608.size a
  inb_S1x544x4608_S1x1x4608_0_231_0 : ∀ a, (![0, 231, 0] : Fin 3 → Nat) a + S1x1x4608.size a ≤ S1x544x4608.size a
  inb_S1x544x4608_S1x1x4608_0_232_0 : ∀ a, (![0, 232, 0] : Fin 3 → Nat) a + S1x1x4608.size a ≤ S1x544x4608.size a
  inb_S1x544x4608_S1x1x4608_0_233_0 : ∀ a, (![0, 233, 0] : Fin 3 → Nat) a + S1x1x4608.size a ≤ S1x544x4608.size a
  inb_S1x544x4608_S1x1x4608_0_234_0 : ∀ a, (![0, 234, 0] : Fin 3 → Nat) a + S1x1x4608.size a ≤ S1x544x4608.size a
  inb_S1x544x4608_S1x1x4608_0_235_0 : ∀ a, (![0, 235, 0] : Fin 3 → Nat) a + S1x1x4608.size a ≤ S1x544x4608.size a
  inb_S1x544x4608_S1x1x4608_0_236_0 : ∀ a, (![0, 236, 0] : Fin 3 → Nat) a + S1x1x4608.size a ≤ S1x544x4608.size a
  inb_S1x544x4608_S1x1x4608_0_237_0 : ∀ a, (![0, 237, 0] : Fin 3 → Nat) a + S1x1x4608.size a ≤ S1x544x4608.size a
  inb_S1x544x4608_S1x1x4608_0_238_0 : ∀ a, (![0, 238, 0] : Fin 3 → Nat) a + S1x1x4608.size a ≤ S1x544x4608.size a
  inb_S1x544x4608_S1x1x4608_0_239_0 : ∀ a, (![0, 239, 0] : Fin 3 → Nat) a + S1x1x4608.size a ≤ S1x544x4608.size a
  inb_S1x544x4608_S1x1x4608_0_240_0 : ∀ a, (![0, 240, 0] : Fin 3 → Nat) a + S1x1x4608.size a ≤ S1x544x4608.size a
  inb_S1x544x4608_S1x1x4608_0_241_0 : ∀ a, (![0, 241, 0] : Fin 3 → Nat) a + S1x1x4608.size a ≤ S1x544x4608.size a
  inb_S1x544x4608_S1x1x4608_0_242_0 : ∀ a, (![0, 242, 0] : Fin 3 → Nat) a + S1x1x4608.size a ≤ S1x544x4608.size a
  inb_S1x544x4608_S1x1x4608_0_243_0 : ∀ a, (![0, 243, 0] : Fin 3 → Nat) a + S1x1x4608.size a ≤ S1x544x4608.size a
  inb_S1x544x4608_S1x1x4608_0_244_0 : ∀ a, (![0, 244, 0] : Fin 3 → Nat) a + S1x1x4608.size a ≤ S1x544x4608.size a
  inb_S1x544x4608_S1x1x4608_0_245_0 : ∀ a, (![0, 245, 0] : Fin 3 → Nat) a + S1x1x4608.size a ≤ S1x544x4608.size a
  inb_S1x544x4608_S1x1x4608_0_246_0 : ∀ a, (![0, 246, 0] : Fin 3 → Nat) a + S1x1x4608.size a ≤ S1x544x4608.size a
  inb_S1x544x4608_S1x1x4608_0_247_0 : ∀ a, (![0, 247, 0] : Fin 3 → Nat) a + S1x1x4608.size a ≤ S1x544x4608.size a
  inb_S1x544x4608_S1x1x4608_0_248_0 : ∀ a, (![0, 248, 0] : Fin 3 → Nat) a + S1x1x4608.size a ≤ S1x544x4608.size a
  inb_S1x544x4608_S1x1x4608_0_249_0 : ∀ a, (![0, 249, 0] : Fin 3 → Nat) a + S1x1x4608.size a ≤ S1x544x4608.size a
  inb_S1x544x4608_S1x1x4608_0_250_0 : ∀ a, (![0, 250, 0] : Fin 3 → Nat) a + S1x1x4608.size a ≤ S1x544x4608.size a
  inb_S1x544x4608_S1x1x4608_0_251_0 : ∀ a, (![0, 251, 0] : Fin 3 → Nat) a + S1x1x4608.size a ≤ S1x544x4608.size a
  inb_S1x544x4608_S1x1x4608_0_252_0 : ∀ a, (![0, 252, 0] : Fin 3 → Nat) a + S1x1x4608.size a ≤ S1x544x4608.size a
  inb_S1x544x4608_S1x1x4608_0_253_0 : ∀ a, (![0, 253, 0] : Fin 3 → Nat) a + S1x1x4608.size a ≤ S1x544x4608.size a
  inb_S1x544x4608_S1x1x4608_0_254_0 : ∀ a, (![0, 254, 0] : Fin 3 → Nat) a + S1x1x4608.size a ≤ S1x544x4608.size a
  inb_S1x544x4608_S1x1x4608_0_255_0 : ∀ a, (![0, 255, 0] : Fin 3 → Nat) a + S1x1x4608.size a ≤ S1x544x4608.size a
  inb_S1x544x4608_S1x1x4608_0_256_0 : ∀ a, (![0, 256, 0] : Fin 3 → Nat) a + S1x1x4608.size a ≤ S1x544x4608.size a
  inb_S1x544x4608_S1x1x4608_0_257_0 : ∀ a, (![0, 257, 0] : Fin 3 → Nat) a + S1x1x4608.size a ≤ S1x544x4608.size a
  inb_S1x544x4608_S1x1x4608_0_258_0 : ∀ a, (![0, 258, 0] : Fin 3 → Nat) a + S1x1x4608.size a ≤ S1x544x4608.size a
  inb_S1x544x4608_S1x1x4608_0_259_0 : ∀ a, (![0, 259, 0] : Fin 3 → Nat) a + S1x1x4608.size a ≤ S1x544x4608.size a
  inb_S1x544x4608_S1x1x4608_0_260_0 : ∀ a, (![0, 260, 0] : Fin 3 → Nat) a + S1x1x4608.size a ≤ S1x544x4608.size a
  inb_S1x544x4608_S1x1x4608_0_261_0 : ∀ a, (![0, 261, 0] : Fin 3 → Nat) a + S1x1x4608.size a ≤ S1x544x4608.size a
  inb_S1x544x4608_S1x1x4608_0_262_0 : ∀ a, (![0, 262, 0] : Fin 3 → Nat) a + S1x1x4608.size a ≤ S1x544x4608.size a
  inb_S1x544x4608_S1x1x4608_0_263_0 : ∀ a, (![0, 263, 0] : Fin 3 → Nat) a + S1x1x4608.size a ≤ S1x544x4608.size a
  inb_S1x544x4608_S1x1x4608_0_264_0 : ∀ a, (![0, 264, 0] : Fin 3 → Nat) a + S1x1x4608.size a ≤ S1x544x4608.size a
  inb_S1x544x4608_S1x1x4608_0_265_0 : ∀ a, (![0, 265, 0] : Fin 3 → Nat) a + S1x1x4608.size a ≤ S1x544x4608.size a
  inb_S1x544x4608_S1x1x4608_0_266_0 : ∀ a, (![0, 266, 0] : Fin 3 → Nat) a + S1x1x4608.size a ≤ S1x544x4608.size a
  inb_S1x544x4608_S1x1x4608_0_267_0 : ∀ a, (![0, 267, 0] : Fin 3 → Nat) a + S1x1x4608.size a ≤ S1x544x4608.size a
  inb_S1x544x4608_S1x1x4608_0_268_0 : ∀ a, (![0, 268, 0] : Fin 3 → Nat) a + S1x1x4608.size a ≤ S1x544x4608.size a
  inb_S1x544x4608_S1x1x4608_0_269_0 : ∀ a, (![0, 269, 0] : Fin 3 → Nat) a + S1x1x4608.size a ≤ S1x544x4608.size a
  inb_S1x544x4608_S1x1x4608_0_270_0 : ∀ a, (![0, 270, 0] : Fin 3 → Nat) a + S1x1x4608.size a ≤ S1x544x4608.size a
  inb_S1x544x4608_S1x1x4608_0_271_0 : ∀ a, (![0, 271, 0] : Fin 3 → Nat) a + S1x1x4608.size a ≤ S1x544x4608.size a
  inb_S1x16x4x4608_S1x16x1x4608_0_0_2_0 : ∀ a, (![0, 0, 2, 0] : Fin 4 → Nat) a + S1x16x1x4608.size a ≤ S1x16x4x4608.size a
  inb_S1x544x4608_S1x1x4608_0_272_0 : ∀ a, (![0, 272, 0] : Fin 3 → Nat) a + S1x1x4608.size a ≤ S1x544x4608.size a
  inb_S1x544x4608_S1x1x4608_0_273_0 : ∀ a, (![0, 273, 0] : Fin 3 → Nat) a + S1x1x4608.size a ≤ S1x544x4608.size a
  inb_S1x544x4608_S1x1x4608_0_274_0 : ∀ a, (![0, 274, 0] : Fin 3 → Nat) a + S1x1x4608.size a ≤ S1x544x4608.size a
  inb_S1x544x4608_S1x1x4608_0_275_0 : ∀ a, (![0, 275, 0] : Fin 3 → Nat) a + S1x1x4608.size a ≤ S1x544x4608.size a
  inb_S1x544x4608_S1x1x4608_0_276_0 : ∀ a, (![0, 276, 0] : Fin 3 → Nat) a + S1x1x4608.size a ≤ S1x544x4608.size a
  inb_S1x544x4608_S1x1x4608_0_277_0 : ∀ a, (![0, 277, 0] : Fin 3 → Nat) a + S1x1x4608.size a ≤ S1x544x4608.size a
  inb_S1x544x4608_S1x1x4608_0_278_0 : ∀ a, (![0, 278, 0] : Fin 3 → Nat) a + S1x1x4608.size a ≤ S1x544x4608.size a
  inb_S1x544x4608_S1x1x4608_0_279_0 : ∀ a, (![0, 279, 0] : Fin 3 → Nat) a + S1x1x4608.size a ≤ S1x544x4608.size a
  inb_S1x544x4608_S1x1x4608_0_280_0 : ∀ a, (![0, 280, 0] : Fin 3 → Nat) a + S1x1x4608.size a ≤ S1x544x4608.size a
  inb_S1x544x4608_S1x1x4608_0_281_0 : ∀ a, (![0, 281, 0] : Fin 3 → Nat) a + S1x1x4608.size a ≤ S1x544x4608.size a
  inb_S1x544x4608_S1x1x4608_0_282_0 : ∀ a, (![0, 282, 0] : Fin 3 → Nat) a + S1x1x4608.size a ≤ S1x544x4608.size a
  inb_S1x544x4608_S1x1x4608_0_283_0 : ∀ a, (![0, 283, 0] : Fin 3 → Nat) a + S1x1x4608.size a ≤ S1x544x4608.size a
  inb_S1x544x4608_S1x1x4608_0_284_0 : ∀ a, (![0, 284, 0] : Fin 3 → Nat) a + S1x1x4608.size a ≤ S1x544x4608.size a
  inb_S1x544x4608_S1x1x4608_0_285_0 : ∀ a, (![0, 285, 0] : Fin 3 → Nat) a + S1x1x4608.size a ≤ S1x544x4608.size a
  inb_S1x544x4608_S1x1x4608_0_286_0 : ∀ a, (![0, 286, 0] : Fin 3 → Nat) a + S1x1x4608.size a ≤ S1x544x4608.size a
  inb_S1x544x4608_S1x1x4608_0_287_0 : ∀ a, (![0, 287, 0] : Fin 3 → Nat) a + S1x1x4608.size a ≤ S1x544x4608.size a
  inb_S1x544x4608_S1x1x4608_0_288_0 : ∀ a, (![0, 288, 0] : Fin 3 → Nat) a + S1x1x4608.size a ≤ S1x544x4608.size a
  inb_S1x544x4608_S1x1x4608_0_289_0 : ∀ a, (![0, 289, 0] : Fin 3 → Nat) a + S1x1x4608.size a ≤ S1x544x4608.size a
  inb_S1x544x4608_S1x1x4608_0_290_0 : ∀ a, (![0, 290, 0] : Fin 3 → Nat) a + S1x1x4608.size a ≤ S1x544x4608.size a
  inb_S1x544x4608_S1x1x4608_0_291_0 : ∀ a, (![0, 291, 0] : Fin 3 → Nat) a + S1x1x4608.size a ≤ S1x544x4608.size a
  inb_S1x544x4608_S1x1x4608_0_292_0 : ∀ a, (![0, 292, 0] : Fin 3 → Nat) a + S1x1x4608.size a ≤ S1x544x4608.size a
  inb_S1x544x4608_S1x1x4608_0_293_0 : ∀ a, (![0, 293, 0] : Fin 3 → Nat) a + S1x1x4608.size a ≤ S1x544x4608.size a
  inb_S1x544x4608_S1x1x4608_0_294_0 : ∀ a, (![0, 294, 0] : Fin 3 → Nat) a + S1x1x4608.size a ≤ S1x544x4608.size a
  inb_S1x544x4608_S1x1x4608_0_295_0 : ∀ a, (![0, 295, 0] : Fin 3 → Nat) a + S1x1x4608.size a ≤ S1x544x4608.size a
  inb_S1x544x4608_S1x1x4608_0_296_0 : ∀ a, (![0, 296, 0] : Fin 3 → Nat) a + S1x1x4608.size a ≤ S1x544x4608.size a
  inb_S1x544x4608_S1x1x4608_0_297_0 : ∀ a, (![0, 297, 0] : Fin 3 → Nat) a + S1x1x4608.size a ≤ S1x544x4608.size a
  inb_S1x544x4608_S1x1x4608_0_298_0 : ∀ a, (![0, 298, 0] : Fin 3 → Nat) a + S1x1x4608.size a ≤ S1x544x4608.size a
  inb_S1x544x4608_S1x1x4608_0_299_0 : ∀ a, (![0, 299, 0] : Fin 3 → Nat) a + S1x1x4608.size a ≤ S1x544x4608.size a
  inb_S1x544x4608_S1x1x4608_0_300_0 : ∀ a, (![0, 300, 0] : Fin 3 → Nat) a + S1x1x4608.size a ≤ S1x544x4608.size a
  inb_S1x544x4608_S1x1x4608_0_301_0 : ∀ a, (![0, 301, 0] : Fin 3 → Nat) a + S1x1x4608.size a ≤ S1x544x4608.size a
  inb_S1x544x4608_S1x1x4608_0_302_0 : ∀ a, (![0, 302, 0] : Fin 3 → Nat) a + S1x1x4608.size a ≤ S1x544x4608.size a
  inb_S1x544x4608_S1x1x4608_0_303_0 : ∀ a, (![0, 303, 0] : Fin 3 → Nat) a + S1x1x4608.size a ≤ S1x544x4608.size a
  inb_S1x544x4608_S1x1x4608_0_304_0 : ∀ a, (![0, 304, 0] : Fin 3 → Nat) a + S1x1x4608.size a ≤ S1x544x4608.size a
  inb_S1x544x4608_S1x1x4608_0_305_0 : ∀ a, (![0, 305, 0] : Fin 3 → Nat) a + S1x1x4608.size a ≤ S1x544x4608.size a
  inb_S1x544x4608_S1x1x4608_0_306_0 : ∀ a, (![0, 306, 0] : Fin 3 → Nat) a + S1x1x4608.size a ≤ S1x544x4608.size a
  inb_S1x544x4608_S1x1x4608_0_307_0 : ∀ a, (![0, 307, 0] : Fin 3 → Nat) a + S1x1x4608.size a ≤ S1x544x4608.size a
  inb_S1x544x4608_S1x1x4608_0_308_0 : ∀ a, (![0, 308, 0] : Fin 3 → Nat) a + S1x1x4608.size a ≤ S1x544x4608.size a
  inb_S1x544x4608_S1x1x4608_0_309_0 : ∀ a, (![0, 309, 0] : Fin 3 → Nat) a + S1x1x4608.size a ≤ S1x544x4608.size a
  inb_S1x544x4608_S1x1x4608_0_310_0 : ∀ a, (![0, 310, 0] : Fin 3 → Nat) a + S1x1x4608.size a ≤ S1x544x4608.size a
  inb_S1x544x4608_S1x1x4608_0_311_0 : ∀ a, (![0, 311, 0] : Fin 3 → Nat) a + S1x1x4608.size a ≤ S1x544x4608.size a
  inb_S1x544x4608_S1x1x4608_0_312_0 : ∀ a, (![0, 312, 0] : Fin 3 → Nat) a + S1x1x4608.size a ≤ S1x544x4608.size a
  inb_S1x544x4608_S1x1x4608_0_313_0 : ∀ a, (![0, 313, 0] : Fin 3 → Nat) a + S1x1x4608.size a ≤ S1x544x4608.size a
  inb_S1x544x4608_S1x1x4608_0_314_0 : ∀ a, (![0, 314, 0] : Fin 3 → Nat) a + S1x1x4608.size a ≤ S1x544x4608.size a
  inb_S1x544x4608_S1x1x4608_0_315_0 : ∀ a, (![0, 315, 0] : Fin 3 → Nat) a + S1x1x4608.size a ≤ S1x544x4608.size a
  inb_S1x544x4608_S1x1x4608_0_316_0 : ∀ a, (![0, 316, 0] : Fin 3 → Nat) a + S1x1x4608.size a ≤ S1x544x4608.size a
  inb_S1x544x4608_S1x1x4608_0_317_0 : ∀ a, (![0, 317, 0] : Fin 3 → Nat) a + S1x1x4608.size a ≤ S1x544x4608.size a
  inb_S1x544x4608_S1x1x4608_0_318_0 : ∀ a, (![0, 318, 0] : Fin 3 → Nat) a + S1x1x4608.size a ≤ S1x544x4608.size a
  inb_S1x544x4608_S1x1x4608_0_319_0 : ∀ a, (![0, 319, 0] : Fin 3 → Nat) a + S1x1x4608.size a ≤ S1x544x4608.size a
  inb_S1x544x4608_S1x1x4608_0_320_0 : ∀ a, (![0, 320, 0] : Fin 3 → Nat) a + S1x1x4608.size a ≤ S1x544x4608.size a
  inb_S1x544x4608_S1x1x4608_0_321_0 : ∀ a, (![0, 321, 0] : Fin 3 → Nat) a + S1x1x4608.size a ≤ S1x544x4608.size a
  inb_S1x544x4608_S1x1x4608_0_322_0 : ∀ a, (![0, 322, 0] : Fin 3 → Nat) a + S1x1x4608.size a ≤ S1x544x4608.size a
  inb_S1x544x4608_S1x1x4608_0_323_0 : ∀ a, (![0, 323, 0] : Fin 3 → Nat) a + S1x1x4608.size a ≤ S1x544x4608.size a
  inb_S1x544x4608_S1x1x4608_0_324_0 : ∀ a, (![0, 324, 0] : Fin 3 → Nat) a + S1x1x4608.size a ≤ S1x544x4608.size a
  inb_S1x544x4608_S1x1x4608_0_325_0 : ∀ a, (![0, 325, 0] : Fin 3 → Nat) a + S1x1x4608.size a ≤ S1x544x4608.size a
  inb_S1x544x4608_S1x1x4608_0_326_0 : ∀ a, (![0, 326, 0] : Fin 3 → Nat) a + S1x1x4608.size a ≤ S1x544x4608.size a
  inb_S1x544x4608_S1x1x4608_0_327_0 : ∀ a, (![0, 327, 0] : Fin 3 → Nat) a + S1x1x4608.size a ≤ S1x544x4608.size a
  inb_S1x544x4608_S1x1x4608_0_328_0 : ∀ a, (![0, 328, 0] : Fin 3 → Nat) a + S1x1x4608.size a ≤ S1x544x4608.size a
  inb_S1x544x4608_S1x1x4608_0_329_0 : ∀ a, (![0, 329, 0] : Fin 3 → Nat) a + S1x1x4608.size a ≤ S1x544x4608.size a
  inb_S1x544x4608_S1x1x4608_0_330_0 : ∀ a, (![0, 330, 0] : Fin 3 → Nat) a + S1x1x4608.size a ≤ S1x544x4608.size a
  inb_S1x544x4608_S1x1x4608_0_331_0 : ∀ a, (![0, 331, 0] : Fin 3 → Nat) a + S1x1x4608.size a ≤ S1x544x4608.size a
  inb_S1x544x4608_S1x1x4608_0_332_0 : ∀ a, (![0, 332, 0] : Fin 3 → Nat) a + S1x1x4608.size a ≤ S1x544x4608.size a
  inb_S1x544x4608_S1x1x4608_0_333_0 : ∀ a, (![0, 333, 0] : Fin 3 → Nat) a + S1x1x4608.size a ≤ S1x544x4608.size a
  inb_S1x544x4608_S1x1x4608_0_334_0 : ∀ a, (![0, 334, 0] : Fin 3 → Nat) a + S1x1x4608.size a ≤ S1x544x4608.size a
  inb_S1x544x4608_S1x1x4608_0_335_0 : ∀ a, (![0, 335, 0] : Fin 3 → Nat) a + S1x1x4608.size a ≤ S1x544x4608.size a
  inb_S1x544x4608_S1x1x4608_0_336_0 : ∀ a, (![0, 336, 0] : Fin 3 → Nat) a + S1x1x4608.size a ≤ S1x544x4608.size a
  inb_S1x544x4608_S1x1x4608_0_337_0 : ∀ a, (![0, 337, 0] : Fin 3 → Nat) a + S1x1x4608.size a ≤ S1x544x4608.size a
  inb_S1x544x4608_S1x1x4608_0_338_0 : ∀ a, (![0, 338, 0] : Fin 3 → Nat) a + S1x1x4608.size a ≤ S1x544x4608.size a
  inb_S1x544x4608_S1x1x4608_0_339_0 : ∀ a, (![0, 339, 0] : Fin 3 → Nat) a + S1x1x4608.size a ≤ S1x544x4608.size a
  inb_S1x544x4608_S1x1x4608_0_340_0 : ∀ a, (![0, 340, 0] : Fin 3 → Nat) a + S1x1x4608.size a ≤ S1x544x4608.size a
  inb_S1x544x4608_S1x1x4608_0_341_0 : ∀ a, (![0, 341, 0] : Fin 3 → Nat) a + S1x1x4608.size a ≤ S1x544x4608.size a
  inb_S1x544x4608_S1x1x4608_0_342_0 : ∀ a, (![0, 342, 0] : Fin 3 → Nat) a + S1x1x4608.size a ≤ S1x544x4608.size a
  inb_S1x544x4608_S1x1x4608_0_343_0 : ∀ a, (![0, 343, 0] : Fin 3 → Nat) a + S1x1x4608.size a ≤ S1x544x4608.size a
  inb_S1x544x4608_S1x1x4608_0_344_0 : ∀ a, (![0, 344, 0] : Fin 3 → Nat) a + S1x1x4608.size a ≤ S1x544x4608.size a
  inb_S1x544x4608_S1x1x4608_0_345_0 : ∀ a, (![0, 345, 0] : Fin 3 → Nat) a + S1x1x4608.size a ≤ S1x544x4608.size a
  inb_S1x544x4608_S1x1x4608_0_346_0 : ∀ a, (![0, 346, 0] : Fin 3 → Nat) a + S1x1x4608.size a ≤ S1x544x4608.size a
  inb_S1x544x4608_S1x1x4608_0_347_0 : ∀ a, (![0, 347, 0] : Fin 3 → Nat) a + S1x1x4608.size a ≤ S1x544x4608.size a
  inb_S1x544x4608_S1x1x4608_0_348_0 : ∀ a, (![0, 348, 0] : Fin 3 → Nat) a + S1x1x4608.size a ≤ S1x544x4608.size a
  inb_S1x544x4608_S1x1x4608_0_349_0 : ∀ a, (![0, 349, 0] : Fin 3 → Nat) a + S1x1x4608.size a ≤ S1x544x4608.size a
  inb_S1x544x4608_S1x1x4608_0_350_0 : ∀ a, (![0, 350, 0] : Fin 3 → Nat) a + S1x1x4608.size a ≤ S1x544x4608.size a
  inb_S1x544x4608_S1x1x4608_0_351_0 : ∀ a, (![0, 351, 0] : Fin 3 → Nat) a + S1x1x4608.size a ≤ S1x544x4608.size a
  inb_S1x544x4608_S1x1x4608_0_352_0 : ∀ a, (![0, 352, 0] : Fin 3 → Nat) a + S1x1x4608.size a ≤ S1x544x4608.size a
  inb_S1x544x4608_S1x1x4608_0_353_0 : ∀ a, (![0, 353, 0] : Fin 3 → Nat) a + S1x1x4608.size a ≤ S1x544x4608.size a
  inb_S1x544x4608_S1x1x4608_0_354_0 : ∀ a, (![0, 354, 0] : Fin 3 → Nat) a + S1x1x4608.size a ≤ S1x544x4608.size a
  inb_S1x544x4608_S1x1x4608_0_355_0 : ∀ a, (![0, 355, 0] : Fin 3 → Nat) a + S1x1x4608.size a ≤ S1x544x4608.size a
  inb_S1x544x4608_S1x1x4608_0_356_0 : ∀ a, (![0, 356, 0] : Fin 3 → Nat) a + S1x1x4608.size a ≤ S1x544x4608.size a
  inb_S1x544x4608_S1x1x4608_0_357_0 : ∀ a, (![0, 357, 0] : Fin 3 → Nat) a + S1x1x4608.size a ≤ S1x544x4608.size a
  inb_S1x544x4608_S1x1x4608_0_358_0 : ∀ a, (![0, 358, 0] : Fin 3 → Nat) a + S1x1x4608.size a ≤ S1x544x4608.size a
  inb_S1x544x4608_S1x1x4608_0_359_0 : ∀ a, (![0, 359, 0] : Fin 3 → Nat) a + S1x1x4608.size a ≤ S1x544x4608.size a
  inb_S1x544x4608_S1x1x4608_0_360_0 : ∀ a, (![0, 360, 0] : Fin 3 → Nat) a + S1x1x4608.size a ≤ S1x544x4608.size a
  inb_S1x544x4608_S1x1x4608_0_361_0 : ∀ a, (![0, 361, 0] : Fin 3 → Nat) a + S1x1x4608.size a ≤ S1x544x4608.size a
  inb_S1x544x4608_S1x1x4608_0_362_0 : ∀ a, (![0, 362, 0] : Fin 3 → Nat) a + S1x1x4608.size a ≤ S1x544x4608.size a
  inb_S1x544x4608_S1x1x4608_0_363_0 : ∀ a, (![0, 363, 0] : Fin 3 → Nat) a + S1x1x4608.size a ≤ S1x544x4608.size a
  inb_S1x544x4608_S1x1x4608_0_364_0 : ∀ a, (![0, 364, 0] : Fin 3 → Nat) a + S1x1x4608.size a ≤ S1x544x4608.size a
  inb_S1x544x4608_S1x1x4608_0_365_0 : ∀ a, (![0, 365, 0] : Fin 3 → Nat) a + S1x1x4608.size a ≤ S1x544x4608.size a
  inb_S1x544x4608_S1x1x4608_0_366_0 : ∀ a, (![0, 366, 0] : Fin 3 → Nat) a + S1x1x4608.size a ≤ S1x544x4608.size a
  inb_S1x544x4608_S1x1x4608_0_367_0 : ∀ a, (![0, 367, 0] : Fin 3 → Nat) a + S1x1x4608.size a ≤ S1x544x4608.size a
  inb_S1x544x4608_S1x1x4608_0_368_0 : ∀ a, (![0, 368, 0] : Fin 3 → Nat) a + S1x1x4608.size a ≤ S1x544x4608.size a
  inb_S1x544x4608_S1x1x4608_0_369_0 : ∀ a, (![0, 369, 0] : Fin 3 → Nat) a + S1x1x4608.size a ≤ S1x544x4608.size a
  inb_S1x544x4608_S1x1x4608_0_370_0 : ∀ a, (![0, 370, 0] : Fin 3 → Nat) a + S1x1x4608.size a ≤ S1x544x4608.size a
  inb_S1x544x4608_S1x1x4608_0_371_0 : ∀ a, (![0, 371, 0] : Fin 3 → Nat) a + S1x1x4608.size a ≤ S1x544x4608.size a
  inb_S1x544x4608_S1x1x4608_0_372_0 : ∀ a, (![0, 372, 0] : Fin 3 → Nat) a + S1x1x4608.size a ≤ S1x544x4608.size a
  inb_S1x544x4608_S1x1x4608_0_373_0 : ∀ a, (![0, 373, 0] : Fin 3 → Nat) a + S1x1x4608.size a ≤ S1x544x4608.size a
  inb_S1x544x4608_S1x1x4608_0_374_0 : ∀ a, (![0, 374, 0] : Fin 3 → Nat) a + S1x1x4608.size a ≤ S1x544x4608.size a
  inb_S1x544x4608_S1x1x4608_0_375_0 : ∀ a, (![0, 375, 0] : Fin 3 → Nat) a + S1x1x4608.size a ≤ S1x544x4608.size a
  inb_S1x544x4608_S1x1x4608_0_376_0 : ∀ a, (![0, 376, 0] : Fin 3 → Nat) a + S1x1x4608.size a ≤ S1x544x4608.size a
  inb_S1x544x4608_S1x1x4608_0_377_0 : ∀ a, (![0, 377, 0] : Fin 3 → Nat) a + S1x1x4608.size a ≤ S1x544x4608.size a
  inb_S1x544x4608_S1x1x4608_0_378_0 : ∀ a, (![0, 378, 0] : Fin 3 → Nat) a + S1x1x4608.size a ≤ S1x544x4608.size a
  inb_S1x544x4608_S1x1x4608_0_379_0 : ∀ a, (![0, 379, 0] : Fin 3 → Nat) a + S1x1x4608.size a ≤ S1x544x4608.size a
  inb_S1x544x4608_S1x1x4608_0_380_0 : ∀ a, (![0, 380, 0] : Fin 3 → Nat) a + S1x1x4608.size a ≤ S1x544x4608.size a
  inb_S1x544x4608_S1x1x4608_0_381_0 : ∀ a, (![0, 381, 0] : Fin 3 → Nat) a + S1x1x4608.size a ≤ S1x544x4608.size a
  inb_S1x544x4608_S1x1x4608_0_382_0 : ∀ a, (![0, 382, 0] : Fin 3 → Nat) a + S1x1x4608.size a ≤ S1x544x4608.size a
  inb_S1x544x4608_S1x1x4608_0_383_0 : ∀ a, (![0, 383, 0] : Fin 3 → Nat) a + S1x1x4608.size a ≤ S1x544x4608.size a
  inb_S1x544x4608_S1x1x4608_0_384_0 : ∀ a, (![0, 384, 0] : Fin 3 → Nat) a + S1x1x4608.size a ≤ S1x544x4608.size a
  inb_S1x544x4608_S1x1x4608_0_385_0 : ∀ a, (![0, 385, 0] : Fin 3 → Nat) a + S1x1x4608.size a ≤ S1x544x4608.size a
  inb_S1x544x4608_S1x1x4608_0_386_0 : ∀ a, (![0, 386, 0] : Fin 3 → Nat) a + S1x1x4608.size a ≤ S1x544x4608.size a
  inb_S1x544x4608_S1x1x4608_0_387_0 : ∀ a, (![0, 387, 0] : Fin 3 → Nat) a + S1x1x4608.size a ≤ S1x544x4608.size a
  inb_S1x544x4608_S1x1x4608_0_388_0 : ∀ a, (![0, 388, 0] : Fin 3 → Nat) a + S1x1x4608.size a ≤ S1x544x4608.size a
  inb_S1x544x4608_S1x1x4608_0_389_0 : ∀ a, (![0, 389, 0] : Fin 3 → Nat) a + S1x1x4608.size a ≤ S1x544x4608.size a
  inb_S1x544x4608_S1x1x4608_0_390_0 : ∀ a, (![0, 390, 0] : Fin 3 → Nat) a + S1x1x4608.size a ≤ S1x544x4608.size a
  inb_S1x544x4608_S1x1x4608_0_391_0 : ∀ a, (![0, 391, 0] : Fin 3 → Nat) a + S1x1x4608.size a ≤ S1x544x4608.size a
  inb_S1x544x4608_S1x1x4608_0_392_0 : ∀ a, (![0, 392, 0] : Fin 3 → Nat) a + S1x1x4608.size a ≤ S1x544x4608.size a
  inb_S1x544x4608_S1x1x4608_0_393_0 : ∀ a, (![0, 393, 0] : Fin 3 → Nat) a + S1x1x4608.size a ≤ S1x544x4608.size a
  inb_S1x544x4608_S1x1x4608_0_394_0 : ∀ a, (![0, 394, 0] : Fin 3 → Nat) a + S1x1x4608.size a ≤ S1x544x4608.size a
  inb_S1x544x4608_S1x1x4608_0_395_0 : ∀ a, (![0, 395, 0] : Fin 3 → Nat) a + S1x1x4608.size a ≤ S1x544x4608.size a
  inb_S1x544x4608_S1x1x4608_0_396_0 : ∀ a, (![0, 396, 0] : Fin 3 → Nat) a + S1x1x4608.size a ≤ S1x544x4608.size a
  inb_S1x544x4608_S1x1x4608_0_397_0 : ∀ a, (![0, 397, 0] : Fin 3 → Nat) a + S1x1x4608.size a ≤ S1x544x4608.size a
  inb_S1x544x4608_S1x1x4608_0_398_0 : ∀ a, (![0, 398, 0] : Fin 3 → Nat) a + S1x1x4608.size a ≤ S1x544x4608.size a
  inb_S1x544x4608_S1x1x4608_0_399_0 : ∀ a, (![0, 399, 0] : Fin 3 → Nat) a + S1x1x4608.size a ≤ S1x544x4608.size a
  inb_S1x544x4608_S1x1x4608_0_400_0 : ∀ a, (![0, 400, 0] : Fin 3 → Nat) a + S1x1x4608.size a ≤ S1x544x4608.size a
  inb_S1x544x4608_S1x1x4608_0_401_0 : ∀ a, (![0, 401, 0] : Fin 3 → Nat) a + S1x1x4608.size a ≤ S1x544x4608.size a
  inb_S1x544x4608_S1x1x4608_0_402_0 : ∀ a, (![0, 402, 0] : Fin 3 → Nat) a + S1x1x4608.size a ≤ S1x544x4608.size a
  inb_S1x544x4608_S1x1x4608_0_403_0 : ∀ a, (![0, 403, 0] : Fin 3 → Nat) a + S1x1x4608.size a ≤ S1x544x4608.size a
  inb_S1x544x4608_S1x1x4608_0_404_0 : ∀ a, (![0, 404, 0] : Fin 3 → Nat) a + S1x1x4608.size a ≤ S1x544x4608.size a
  inb_S1x544x4608_S1x1x4608_0_405_0 : ∀ a, (![0, 405, 0] : Fin 3 → Nat) a + S1x1x4608.size a ≤ S1x544x4608.size a
  inb_S1x544x4608_S1x1x4608_0_406_0 : ∀ a, (![0, 406, 0] : Fin 3 → Nat) a + S1x1x4608.size a ≤ S1x544x4608.size a
  inb_S1x544x4608_S1x1x4608_0_407_0 : ∀ a, (![0, 407, 0] : Fin 3 → Nat) a + S1x1x4608.size a ≤ S1x544x4608.size a
  inb_S1x16x4x4608_S1x16x1x4608_0_0_3_0 : ∀ a, (![0, 0, 3, 0] : Fin 4 → Nat) a + S1x16x1x4608.size a ≤ S1x16x4x4608.size a
  inb_S1x544x4608_S1x1x4608_0_408_0 : ∀ a, (![0, 408, 0] : Fin 3 → Nat) a + S1x1x4608.size a ≤ S1x544x4608.size a
  inb_S1x544x4608_S1x1x4608_0_409_0 : ∀ a, (![0, 409, 0] : Fin 3 → Nat) a + S1x1x4608.size a ≤ S1x544x4608.size a
  inb_S1x544x4608_S1x1x4608_0_410_0 : ∀ a, (![0, 410, 0] : Fin 3 → Nat) a + S1x1x4608.size a ≤ S1x544x4608.size a
  inb_S1x544x4608_S1x1x4608_0_411_0 : ∀ a, (![0, 411, 0] : Fin 3 → Nat) a + S1x1x4608.size a ≤ S1x544x4608.size a
  inb_S1x544x4608_S1x1x4608_0_412_0 : ∀ a, (![0, 412, 0] : Fin 3 → Nat) a + S1x1x4608.size a ≤ S1x544x4608.size a
  inb_S1x544x4608_S1x1x4608_0_413_0 : ∀ a, (![0, 413, 0] : Fin 3 → Nat) a + S1x1x4608.size a ≤ S1x544x4608.size a
  inb_S1x544x4608_S1x1x4608_0_414_0 : ∀ a, (![0, 414, 0] : Fin 3 → Nat) a + S1x1x4608.size a ≤ S1x544x4608.size a
  inb_S1x544x4608_S1x1x4608_0_415_0 : ∀ a, (![0, 415, 0] : Fin 3 → Nat) a + S1x1x4608.size a ≤ S1x544x4608.size a
  inb_S1x544x4608_S1x1x4608_0_416_0 : ∀ a, (![0, 416, 0] : Fin 3 → Nat) a + S1x1x4608.size a ≤ S1x544x4608.size a
  inb_S1x544x4608_S1x1x4608_0_417_0 : ∀ a, (![0, 417, 0] : Fin 3 → Nat) a + S1x1x4608.size a ≤ S1x544x4608.size a
  inb_S1x544x4608_S1x1x4608_0_418_0 : ∀ a, (![0, 418, 0] : Fin 3 → Nat) a + S1x1x4608.size a ≤ S1x544x4608.size a
  inb_S1x544x4608_S1x1x4608_0_419_0 : ∀ a, (![0, 419, 0] : Fin 3 → Nat) a + S1x1x4608.size a ≤ S1x544x4608.size a
  inb_S1x544x4608_S1x1x4608_0_420_0 : ∀ a, (![0, 420, 0] : Fin 3 → Nat) a + S1x1x4608.size a ≤ S1x544x4608.size a
  inb_S1x544x4608_S1x1x4608_0_421_0 : ∀ a, (![0, 421, 0] : Fin 3 → Nat) a + S1x1x4608.size a ≤ S1x544x4608.size a
  inb_S1x544x4608_S1x1x4608_0_422_0 : ∀ a, (![0, 422, 0] : Fin 3 → Nat) a + S1x1x4608.size a ≤ S1x544x4608.size a
  inb_S1x544x4608_S1x1x4608_0_423_0 : ∀ a, (![0, 423, 0] : Fin 3 → Nat) a + S1x1x4608.size a ≤ S1x544x4608.size a
  inb_S1x544x4608_S1x1x4608_0_424_0 : ∀ a, (![0, 424, 0] : Fin 3 → Nat) a + S1x1x4608.size a ≤ S1x544x4608.size a
  inb_S1x544x4608_S1x1x4608_0_425_0 : ∀ a, (![0, 425, 0] : Fin 3 → Nat) a + S1x1x4608.size a ≤ S1x544x4608.size a
  inb_S1x544x4608_S1x1x4608_0_426_0 : ∀ a, (![0, 426, 0] : Fin 3 → Nat) a + S1x1x4608.size a ≤ S1x544x4608.size a
  inb_S1x544x4608_S1x1x4608_0_427_0 : ∀ a, (![0, 427, 0] : Fin 3 → Nat) a + S1x1x4608.size a ≤ S1x544x4608.size a
  inb_S1x544x4608_S1x1x4608_0_428_0 : ∀ a, (![0, 428, 0] : Fin 3 → Nat) a + S1x1x4608.size a ≤ S1x544x4608.size a
  inb_S1x544x4608_S1x1x4608_0_429_0 : ∀ a, (![0, 429, 0] : Fin 3 → Nat) a + S1x1x4608.size a ≤ S1x544x4608.size a
  inb_S1x544x4608_S1x1x4608_0_430_0 : ∀ a, (![0, 430, 0] : Fin 3 → Nat) a + S1x1x4608.size a ≤ S1x544x4608.size a
  inb_S1x544x4608_S1x1x4608_0_431_0 : ∀ a, (![0, 431, 0] : Fin 3 → Nat) a + S1x1x4608.size a ≤ S1x544x4608.size a
  inb_S1x544x4608_S1x1x4608_0_432_0 : ∀ a, (![0, 432, 0] : Fin 3 → Nat) a + S1x1x4608.size a ≤ S1x544x4608.size a
  inb_S1x544x4608_S1x1x4608_0_433_0 : ∀ a, (![0, 433, 0] : Fin 3 → Nat) a + S1x1x4608.size a ≤ S1x544x4608.size a
  inb_S1x544x4608_S1x1x4608_0_434_0 : ∀ a, (![0, 434, 0] : Fin 3 → Nat) a + S1x1x4608.size a ≤ S1x544x4608.size a
  inb_S1x544x4608_S1x1x4608_0_435_0 : ∀ a, (![0, 435, 0] : Fin 3 → Nat) a + S1x1x4608.size a ≤ S1x544x4608.size a
  inb_S1x544x4608_S1x1x4608_0_436_0 : ∀ a, (![0, 436, 0] : Fin 3 → Nat) a + S1x1x4608.size a ≤ S1x544x4608.size a
  inb_S1x544x4608_S1x1x4608_0_437_0 : ∀ a, (![0, 437, 0] : Fin 3 → Nat) a + S1x1x4608.size a ≤ S1x544x4608.size a
  inb_S1x544x4608_S1x1x4608_0_438_0 : ∀ a, (![0, 438, 0] : Fin 3 → Nat) a + S1x1x4608.size a ≤ S1x544x4608.size a
  inb_S1x544x4608_S1x1x4608_0_439_0 : ∀ a, (![0, 439, 0] : Fin 3 → Nat) a + S1x1x4608.size a ≤ S1x544x4608.size a
  inb_S1x544x4608_S1x1x4608_0_440_0 : ∀ a, (![0, 440, 0] : Fin 3 → Nat) a + S1x1x4608.size a ≤ S1x544x4608.size a
  inb_S1x544x4608_S1x1x4608_0_441_0 : ∀ a, (![0, 441, 0] : Fin 3 → Nat) a + S1x1x4608.size a ≤ S1x544x4608.size a
  inb_S1x544x4608_S1x1x4608_0_442_0 : ∀ a, (![0, 442, 0] : Fin 3 → Nat) a + S1x1x4608.size a ≤ S1x544x4608.size a
  inb_S1x544x4608_S1x1x4608_0_443_0 : ∀ a, (![0, 443, 0] : Fin 3 → Nat) a + S1x1x4608.size a ≤ S1x544x4608.size a
  inb_S1x544x4608_S1x1x4608_0_444_0 : ∀ a, (![0, 444, 0] : Fin 3 → Nat) a + S1x1x4608.size a ≤ S1x544x4608.size a
  inb_S1x544x4608_S1x1x4608_0_445_0 : ∀ a, (![0, 445, 0] : Fin 3 → Nat) a + S1x1x4608.size a ≤ S1x544x4608.size a
  inb_S1x544x4608_S1x1x4608_0_446_0 : ∀ a, (![0, 446, 0] : Fin 3 → Nat) a + S1x1x4608.size a ≤ S1x544x4608.size a
  inb_S1x544x4608_S1x1x4608_0_447_0 : ∀ a, (![0, 447, 0] : Fin 3 → Nat) a + S1x1x4608.size a ≤ S1x544x4608.size a
  inb_S1x544x4608_S1x1x4608_0_448_0 : ∀ a, (![0, 448, 0] : Fin 3 → Nat) a + S1x1x4608.size a ≤ S1x544x4608.size a
  inb_S1x544x4608_S1x1x4608_0_449_0 : ∀ a, (![0, 449, 0] : Fin 3 → Nat) a + S1x1x4608.size a ≤ S1x544x4608.size a
  inb_S1x544x4608_S1x1x4608_0_450_0 : ∀ a, (![0, 450, 0] : Fin 3 → Nat) a + S1x1x4608.size a ≤ S1x544x4608.size a
  inb_S1x544x4608_S1x1x4608_0_451_0 : ∀ a, (![0, 451, 0] : Fin 3 → Nat) a + S1x1x4608.size a ≤ S1x544x4608.size a
  inb_S1x544x4608_S1x1x4608_0_452_0 : ∀ a, (![0, 452, 0] : Fin 3 → Nat) a + S1x1x4608.size a ≤ S1x544x4608.size a
  inb_S1x544x4608_S1x1x4608_0_453_0 : ∀ a, (![0, 453, 0] : Fin 3 → Nat) a + S1x1x4608.size a ≤ S1x544x4608.size a
  inb_S1x544x4608_S1x1x4608_0_454_0 : ∀ a, (![0, 454, 0] : Fin 3 → Nat) a + S1x1x4608.size a ≤ S1x544x4608.size a
  inb_S1x544x4608_S1x1x4608_0_455_0 : ∀ a, (![0, 455, 0] : Fin 3 → Nat) a + S1x1x4608.size a ≤ S1x544x4608.size a
  inb_S1x544x4608_S1x1x4608_0_456_0 : ∀ a, (![0, 456, 0] : Fin 3 → Nat) a + S1x1x4608.size a ≤ S1x544x4608.size a
  inb_S1x544x4608_S1x1x4608_0_457_0 : ∀ a, (![0, 457, 0] : Fin 3 → Nat) a + S1x1x4608.size a ≤ S1x544x4608.size a
  inb_S1x544x4608_S1x1x4608_0_458_0 : ∀ a, (![0, 458, 0] : Fin 3 → Nat) a + S1x1x4608.size a ≤ S1x544x4608.size a
  inb_S1x544x4608_S1x1x4608_0_459_0 : ∀ a, (![0, 459, 0] : Fin 3 → Nat) a + S1x1x4608.size a ≤ S1x544x4608.size a
  inb_S1x544x4608_S1x1x4608_0_460_0 : ∀ a, (![0, 460, 0] : Fin 3 → Nat) a + S1x1x4608.size a ≤ S1x544x4608.size a
  inb_S1x544x4608_S1x1x4608_0_461_0 : ∀ a, (![0, 461, 0] : Fin 3 → Nat) a + S1x1x4608.size a ≤ S1x544x4608.size a
  inb_S1x544x4608_S1x1x4608_0_462_0 : ∀ a, (![0, 462, 0] : Fin 3 → Nat) a + S1x1x4608.size a ≤ S1x544x4608.size a
  inb_S1x544x4608_S1x1x4608_0_463_0 : ∀ a, (![0, 463, 0] : Fin 3 → Nat) a + S1x1x4608.size a ≤ S1x544x4608.size a
  inb_S1x544x4608_S1x1x4608_0_464_0 : ∀ a, (![0, 464, 0] : Fin 3 → Nat) a + S1x1x4608.size a ≤ S1x544x4608.size a
  inb_S1x544x4608_S1x1x4608_0_465_0 : ∀ a, (![0, 465, 0] : Fin 3 → Nat) a + S1x1x4608.size a ≤ S1x544x4608.size a
  inb_S1x544x4608_S1x1x4608_0_466_0 : ∀ a, (![0, 466, 0] : Fin 3 → Nat) a + S1x1x4608.size a ≤ S1x544x4608.size a
  inb_S1x544x4608_S1x1x4608_0_467_0 : ∀ a, (![0, 467, 0] : Fin 3 → Nat) a + S1x1x4608.size a ≤ S1x544x4608.size a
  inb_S1x544x4608_S1x1x4608_0_468_0 : ∀ a, (![0, 468, 0] : Fin 3 → Nat) a + S1x1x4608.size a ≤ S1x544x4608.size a
  inb_S1x544x4608_S1x1x4608_0_469_0 : ∀ a, (![0, 469, 0] : Fin 3 → Nat) a + S1x1x4608.size a ≤ S1x544x4608.size a
  inb_S1x544x4608_S1x1x4608_0_470_0 : ∀ a, (![0, 470, 0] : Fin 3 → Nat) a + S1x1x4608.size a ≤ S1x544x4608.size a
  inb_S1x544x4608_S1x1x4608_0_471_0 : ∀ a, (![0, 471, 0] : Fin 3 → Nat) a + S1x1x4608.size a ≤ S1x544x4608.size a
  inb_S1x544x4608_S1x1x4608_0_472_0 : ∀ a, (![0, 472, 0] : Fin 3 → Nat) a + S1x1x4608.size a ≤ S1x544x4608.size a
  inb_S1x544x4608_S1x1x4608_0_473_0 : ∀ a, (![0, 473, 0] : Fin 3 → Nat) a + S1x1x4608.size a ≤ S1x544x4608.size a
  inb_S1x544x4608_S1x1x4608_0_474_0 : ∀ a, (![0, 474, 0] : Fin 3 → Nat) a + S1x1x4608.size a ≤ S1x544x4608.size a
  inb_S1x544x4608_S1x1x4608_0_475_0 : ∀ a, (![0, 475, 0] : Fin 3 → Nat) a + S1x1x4608.size a ≤ S1x544x4608.size a
  inb_S1x544x4608_S1x1x4608_0_476_0 : ∀ a, (![0, 476, 0] : Fin 3 → Nat) a + S1x1x4608.size a ≤ S1x544x4608.size a
  inb_S1x544x4608_S1x1x4608_0_477_0 : ∀ a, (![0, 477, 0] : Fin 3 → Nat) a + S1x1x4608.size a ≤ S1x544x4608.size a
  inb_S1x544x4608_S1x1x4608_0_478_0 : ∀ a, (![0, 478, 0] : Fin 3 → Nat) a + S1x1x4608.size a ≤ S1x544x4608.size a
  inb_S1x544x4608_S1x1x4608_0_479_0 : ∀ a, (![0, 479, 0] : Fin 3 → Nat) a + S1x1x4608.size a ≤ S1x544x4608.size a
  inb_S1x544x4608_S1x1x4608_0_480_0 : ∀ a, (![0, 480, 0] : Fin 3 → Nat) a + S1x1x4608.size a ≤ S1x544x4608.size a
  inb_S1x544x4608_S1x1x4608_0_481_0 : ∀ a, (![0, 481, 0] : Fin 3 → Nat) a + S1x1x4608.size a ≤ S1x544x4608.size a
  inb_S1x544x4608_S1x1x4608_0_482_0 : ∀ a, (![0, 482, 0] : Fin 3 → Nat) a + S1x1x4608.size a ≤ S1x544x4608.size a
  inb_S1x544x4608_S1x1x4608_0_483_0 : ∀ a, (![0, 483, 0] : Fin 3 → Nat) a + S1x1x4608.size a ≤ S1x544x4608.size a
  inb_S1x544x4608_S1x1x4608_0_484_0 : ∀ a, (![0, 484, 0] : Fin 3 → Nat) a + S1x1x4608.size a ≤ S1x544x4608.size a
  inb_S1x544x4608_S1x1x4608_0_485_0 : ∀ a, (![0, 485, 0] : Fin 3 → Nat) a + S1x1x4608.size a ≤ S1x544x4608.size a
  inb_S1x544x4608_S1x1x4608_0_486_0 : ∀ a, (![0, 486, 0] : Fin 3 → Nat) a + S1x1x4608.size a ≤ S1x544x4608.size a
  inb_S1x544x4608_S1x1x4608_0_487_0 : ∀ a, (![0, 487, 0] : Fin 3 → Nat) a + S1x1x4608.size a ≤ S1x544x4608.size a
  inb_S1x544x4608_S1x1x4608_0_488_0 : ∀ a, (![0, 488, 0] : Fin 3 → Nat) a + S1x1x4608.size a ≤ S1x544x4608.size a
  inb_S1x544x4608_S1x1x4608_0_489_0 : ∀ a, (![0, 489, 0] : Fin 3 → Nat) a + S1x1x4608.size a ≤ S1x544x4608.size a
  inb_S1x544x4608_S1x1x4608_0_490_0 : ∀ a, (![0, 490, 0] : Fin 3 → Nat) a + S1x1x4608.size a ≤ S1x544x4608.size a
  inb_S1x544x4608_S1x1x4608_0_491_0 : ∀ a, (![0, 491, 0] : Fin 3 → Nat) a + S1x1x4608.size a ≤ S1x544x4608.size a
  inb_S1x544x4608_S1x1x4608_0_492_0 : ∀ a, (![0, 492, 0] : Fin 3 → Nat) a + S1x1x4608.size a ≤ S1x544x4608.size a
  inb_S1x544x4608_S1x1x4608_0_493_0 : ∀ a, (![0, 493, 0] : Fin 3 → Nat) a + S1x1x4608.size a ≤ S1x544x4608.size a
  inb_S1x544x4608_S1x1x4608_0_494_0 : ∀ a, (![0, 494, 0] : Fin 3 → Nat) a + S1x1x4608.size a ≤ S1x544x4608.size a
  inb_S1x544x4608_S1x1x4608_0_495_0 : ∀ a, (![0, 495, 0] : Fin 3 → Nat) a + S1x1x4608.size a ≤ S1x544x4608.size a
  inb_S1x544x4608_S1x1x4608_0_496_0 : ∀ a, (![0, 496, 0] : Fin 3 → Nat) a + S1x1x4608.size a ≤ S1x544x4608.size a
  inb_S1x544x4608_S1x1x4608_0_497_0 : ∀ a, (![0, 497, 0] : Fin 3 → Nat) a + S1x1x4608.size a ≤ S1x544x4608.size a
  inb_S1x544x4608_S1x1x4608_0_498_0 : ∀ a, (![0, 498, 0] : Fin 3 → Nat) a + S1x1x4608.size a ≤ S1x544x4608.size a
  inb_S1x544x4608_S1x1x4608_0_499_0 : ∀ a, (![0, 499, 0] : Fin 3 → Nat) a + S1x1x4608.size a ≤ S1x544x4608.size a
  inb_S1x544x4608_S1x1x4608_0_500_0 : ∀ a, (![0, 500, 0] : Fin 3 → Nat) a + S1x1x4608.size a ≤ S1x544x4608.size a
  inb_S1x544x4608_S1x1x4608_0_501_0 : ∀ a, (![0, 501, 0] : Fin 3 → Nat) a + S1x1x4608.size a ≤ S1x544x4608.size a
  inb_S1x544x4608_S1x1x4608_0_502_0 : ∀ a, (![0, 502, 0] : Fin 3 → Nat) a + S1x1x4608.size a ≤ S1x544x4608.size a
  inb_S1x544x4608_S1x1x4608_0_503_0 : ∀ a, (![0, 503, 0] : Fin 3 → Nat) a + S1x1x4608.size a ≤ S1x544x4608.size a
  inb_S1x544x4608_S1x1x4608_0_504_0 : ∀ a, (![0, 504, 0] : Fin 3 → Nat) a + S1x1x4608.size a ≤ S1x544x4608.size a
  inb_S1x544x4608_S1x1x4608_0_505_0 : ∀ a, (![0, 505, 0] : Fin 3 → Nat) a + S1x1x4608.size a ≤ S1x544x4608.size a
  inb_S1x544x4608_S1x1x4608_0_506_0 : ∀ a, (![0, 506, 0] : Fin 3 → Nat) a + S1x1x4608.size a ≤ S1x544x4608.size a
  inb_S1x544x4608_S1x1x4608_0_507_0 : ∀ a, (![0, 507, 0] : Fin 3 → Nat) a + S1x1x4608.size a ≤ S1x544x4608.size a
  inb_S1x544x4608_S1x1x4608_0_508_0 : ∀ a, (![0, 508, 0] : Fin 3 → Nat) a + S1x1x4608.size a ≤ S1x544x4608.size a
  inb_S1x544x4608_S1x1x4608_0_509_0 : ∀ a, (![0, 509, 0] : Fin 3 → Nat) a + S1x1x4608.size a ≤ S1x544x4608.size a
  inb_S1x544x4608_S1x1x4608_0_510_0 : ∀ a, (![0, 510, 0] : Fin 3 → Nat) a + S1x1x4608.size a ≤ S1x544x4608.size a
  inb_S1x544x4608_S1x1x4608_0_511_0 : ∀ a, (![0, 511, 0] : Fin 3 → Nat) a + S1x1x4608.size a ≤ S1x544x4608.size a
  inb_S1x544x4608_S1x1x4608_0_512_0 : ∀ a, (![0, 512, 0] : Fin 3 → Nat) a + S1x1x4608.size a ≤ S1x544x4608.size a
  inb_S1x544x4608_S1x1x4608_0_513_0 : ∀ a, (![0, 513, 0] : Fin 3 → Nat) a + S1x1x4608.size a ≤ S1x544x4608.size a
  inb_S1x544x4608_S1x1x4608_0_514_0 : ∀ a, (![0, 514, 0] : Fin 3 → Nat) a + S1x1x4608.size a ≤ S1x544x4608.size a
  inb_S1x544x4608_S1x1x4608_0_515_0 : ∀ a, (![0, 515, 0] : Fin 3 → Nat) a + S1x1x4608.size a ≤ S1x544x4608.size a
  inb_S1x544x4608_S1x1x4608_0_516_0 : ∀ a, (![0, 516, 0] : Fin 3 → Nat) a + S1x1x4608.size a ≤ S1x544x4608.size a
  inb_S1x544x4608_S1x1x4608_0_517_0 : ∀ a, (![0, 517, 0] : Fin 3 → Nat) a + S1x1x4608.size a ≤ S1x544x4608.size a
  inb_S1x544x4608_S1x1x4608_0_518_0 : ∀ a, (![0, 518, 0] : Fin 3 → Nat) a + S1x1x4608.size a ≤ S1x544x4608.size a
  inb_S1x544x4608_S1x1x4608_0_519_0 : ∀ a, (![0, 519, 0] : Fin 3 → Nat) a + S1x1x4608.size a ≤ S1x544x4608.size a
  inb_S1x544x4608_S1x1x4608_0_520_0 : ∀ a, (![0, 520, 0] : Fin 3 → Nat) a + S1x1x4608.size a ≤ S1x544x4608.size a
  inb_S1x544x4608_S1x1x4608_0_521_0 : ∀ a, (![0, 521, 0] : Fin 3 → Nat) a + S1x1x4608.size a ≤ S1x544x4608.size a
  inb_S1x544x4608_S1x1x4608_0_522_0 : ∀ a, (![0, 522, 0] : Fin 3 → Nat) a + S1x1x4608.size a ≤ S1x544x4608.size a
  inb_S1x544x4608_S1x1x4608_0_523_0 : ∀ a, (![0, 523, 0] : Fin 3 → Nat) a + S1x1x4608.size a ≤ S1x544x4608.size a
  inb_S1x544x4608_S1x1x4608_0_524_0 : ∀ a, (![0, 524, 0] : Fin 3 → Nat) a + S1x1x4608.size a ≤ S1x544x4608.size a
  inb_S1x544x4608_S1x1x4608_0_525_0 : ∀ a, (![0, 525, 0] : Fin 3 → Nat) a + S1x1x4608.size a ≤ S1x544x4608.size a
  inb_S1x544x4608_S1x1x4608_0_526_0 : ∀ a, (![0, 526, 0] : Fin 3 → Nat) a + S1x1x4608.size a ≤ S1x544x4608.size a
  inb_S1x544x4608_S1x1x4608_0_527_0 : ∀ a, (![0, 527, 0] : Fin 3 → Nat) a + S1x1x4608.size a ≤ S1x544x4608.size a
  inb_S1x544x4608_S1x1x4608_0_528_0 : ∀ a, (![0, 528, 0] : Fin 3 → Nat) a + S1x1x4608.size a ≤ S1x544x4608.size a
  inb_S1x544x4608_S1x1x4608_0_529_0 : ∀ a, (![0, 529, 0] : Fin 3 → Nat) a + S1x1x4608.size a ≤ S1x544x4608.size a
  inb_S1x544x4608_S1x1x4608_0_530_0 : ∀ a, (![0, 530, 0] : Fin 3 → Nat) a + S1x1x4608.size a ≤ S1x544x4608.size a
  inb_S1x544x4608_S1x1x4608_0_531_0 : ∀ a, (![0, 531, 0] : Fin 3 → Nat) a + S1x1x4608.size a ≤ S1x544x4608.size a
  inb_S1x544x4608_S1x1x4608_0_532_0 : ∀ a, (![0, 532, 0] : Fin 3 → Nat) a + S1x1x4608.size a ≤ S1x544x4608.size a
  inb_S1x544x4608_S1x1x4608_0_533_0 : ∀ a, (![0, 533, 0] : Fin 3 → Nat) a + S1x1x4608.size a ≤ S1x544x4608.size a
  inb_S1x544x4608_S1x1x4608_0_534_0 : ∀ a, (![0, 534, 0] : Fin 3 → Nat) a + S1x1x4608.size a ≤ S1x544x4608.size a
  inb_S1x544x4608_S1x1x4608_0_535_0 : ∀ a, (![0, 535, 0] : Fin 3 → Nat) a + S1x1x4608.size a ≤ S1x544x4608.size a
  inb_S1x544x4608_S1x1x4608_0_536_0 : ∀ a, (![0, 536, 0] : Fin 3 → Nat) a + S1x1x4608.size a ≤ S1x544x4608.size a
  inb_S1x544x4608_S1x1x4608_0_537_0 : ∀ a, (![0, 537, 0] : Fin 3 → Nat) a + S1x1x4608.size a ≤ S1x544x4608.size a
  inb_S1x544x4608_S1x1x4608_0_538_0 : ∀ a, (![0, 538, 0] : Fin 3 → Nat) a + S1x1x4608.size a ≤ S1x544x4608.size a
  inb_S1x544x4608_S1x1x4608_0_539_0 : ∀ a, (![0, 539, 0] : Fin 3 → Nat) a + S1x1x4608.size a ≤ S1x544x4608.size a
  inb_S1x544x4608_S1x1x4608_0_540_0 : ∀ a, (![0, 540, 0] : Fin 3 → Nat) a + S1x1x4608.size a ≤ S1x544x4608.size a
  inb_S1x544x4608_S1x1x4608_0_541_0 : ∀ a, (![0, 541, 0] : Fin 3 → Nat) a + S1x1x4608.size a ≤ S1x544x4608.size a
  inb_S1x544x4608_S1x1x4608_0_542_0 : ∀ a, (![0, 542, 0] : Fin 3 → Nat) a + S1x1x4608.size a ≤ S1x544x4608.size a
  inb_S1x544x4608_S1x1x4608_0_543_0 : ∀ a, (![0, 543, 0] : Fin 3 → Nat) a + S1x1x4608.size a ≤ S1x544x4608.size a
  shapeCasts_S16x544x9216_S16x544x96x96 : S16x544x9216.ShapeCasts S16x544x96x96
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x4x4608.size a ≤ S16x16x4x9216.size a
  hwx0_0 : ∀ i : grid0.Coords, EltTy.bits .f32 = 32 ∨ (Rect.block (s := S16x16x4x9216) S1x16x4x4608.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x544x4608.size a ≤ S16x544x9216.size a
  hwx0_1 : ∀ i : grid0.Coords, EltTy.bits .f32 = 32 ∨ (Rect.block (s := S16x544x9216) S1x544x4608.size (cc0_transform_1 i) (hinb0_1 i)).WholeWords (EltTy.packing .f32)

variable [Facts₀]

abbrev win0_0 : Pipeline.Window sig grid0 :=
  Pipeline.Window.ofSpec (Memref.whole main_v0) S1x16x4x4608.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x544x4608.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x96x96 : Shape := ⟨4, ![16, 64, 96, 96]⟩
abbrev S16x16x4x96x96 : Shape := ⟨5, ![16, 16, 4, 96, 96]⟩
abbrev S16x4x16x96x96 : Shape := ⟨5, ![16, 4, 16, 96, 96]⟩
abbrev S16x64x9216 : Shape := ⟨3, ![16, 64, 9216]⟩
abbrev S16x9216x64 : Shape := ⟨3, ![16, 9216, 64]⟩
abbrev S16x9216x4x16 : Shape := ⟨4, ![16, 9216, 4, 16]⟩
abbrev S_ : Shape := ⟨0, ![]⟩
abbrev S16x16 : Shape := ⟨2, ![16, 16]⟩
abbrev S256 : Shape := ⟨1, ![256]⟩
abbrev S136 : Shape := ⟨1, ![136]⟩
abbrev S256x1 : Shape := ⟨2, ![256, 1]⟩
abbrev S136x1 : Shape := ⟨2, ![136, 1]⟩
abbrev S16x9216x4x136 : Shape := ⟨4, ![16, 9216, 4, 136]⟩
abbrev S16x9216x544 : Shape := ⟨3, ![16, 9216, 544]⟩
abbrev S16x544x9216 : Shape := ⟨3, ![16, 544, 9216]⟩
abbrev S16x544x96x96 : Shape := ⟨4, ![16, 544, 96, 96]⟩

abbrev nBuf : Space → Nat
  | .hbm => 146
  | .vmem => 0
  | .smem => 0
  | _ => 0

abbrev hbmTy0_0 (i : Nat) : BufTy := match i % 128 with
  | 0 => ⟨S16x64x96x96, .f32⟩
  | 1 => ⟨S16x16x4x96x96, .f32⟩
  | 2 => ⟨S16x4x16x96x96, .f32⟩
  | 3 => ⟨S16x64x96x96, .f32⟩
  | 4 => ⟨S16x64x9216, .f32⟩
  | 5 => ⟨S16x9216x64, .f32⟩
  | 6 => ⟨S16x9216x4x16, .f32⟩
  | 7 => ⟨S_, .f32⟩
  | 8 => ⟨S16x16, .f32⟩
  | 9 => ⟨S16x16, .i32⟩
  | 10 => ⟨S_, .i32⟩
  | 11 => ⟨S16x16, .i32⟩
  | 12 => ⟨S16x16, .i32⟩
  | 13 => ⟨S16x16, .i32⟩
  | 14 => ⟨S16x16, .i1⟩
  | 15 => ⟨S_, .f32⟩
  | 16 => ⟨S16x16, .f32⟩
  | 17 => ⟨S16x16, .f32⟩
  | 18 => ⟨S_, .f32⟩
  | 19 => ⟨S16x16, .f32⟩
  | 20 => ⟨S16x16, .i1⟩
  | 21 => ⟨S256, .i1⟩
  | 22 => ⟨S256, .i32⟩
  | 23 => ⟨S_, .i32⟩
  | 24 => ⟨S_, .i32⟩
  | 25 => ⟨S256, .i32⟩
  | 26 => ⟨S_, .i32⟩
  | 27 => ⟨S136, .i32⟩
  | 28 => ⟨S_, .i32⟩
  | 29 => ⟨S_, .i32⟩
  | 30 => ⟨S256, .i32⟩
  | 31 => ⟨S256, .i32⟩
  | 32 => ⟨S_, .i32⟩
  | 33 => ⟨S256, .i32⟩
  | 34 => ⟨S256, .i1⟩
  | 35 => ⟨S_, .i32⟩
  | 36 => ⟨S256, .i32⟩
  | 37 => ⟨S256, .i32⟩
  | 38 => ⟨S256, .i32⟩
  | 39 => ⟨S256x1, .i32⟩
  | 40 => ⟨S_, .i32⟩
  | 41 => ⟨S256, .i32⟩
  | 42 => ⟨S136, .i32⟩
  | 43 => ⟨S_, .i32⟩
  | 44 => ⟨S_, .i32⟩
  | 45 => ⟨S136, .i32⟩
  | 46 => ⟨S_, .i32⟩
  | 47 => ⟨S136, .i32⟩
  | 48 => ⟨S136, .i32⟩
  | 49 => ⟨S136, .i32⟩
  | 50 => ⟨S_, .i32⟩
  | 51 => ⟨S136, .i32⟩
  | 52 => ⟨S136, .i1⟩
  | 53 => ⟨S136, .i32⟩
  | 54 => ⟨S136, .i32⟩
  | 55 => ⟨S_, .i32⟩
  | 56 => ⟨S136, .i32⟩
  | 57 => ⟨S136, .i1⟩
  | 58 => ⟨S136, .i1⟩
  | 59 => ⟨S_, .i32⟩
  | 60 => ⟨S136, .i32⟩
  | 61 => ⟨S136, .i32⟩
  | 62 => ⟨S136, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S136, .i32⟩
  | 70 => ⟨S136, .i32⟩
  | 71 => ⟨S_, .i32⟩
  | 72 => ⟨S136, .i32⟩
  | 73 => ⟨S136, .i1⟩
  | 74 => ⟨S_, .i32⟩
  | 75 => ⟨S136, .i32⟩
  | 76 => ⟨S136, .i1⟩
  | 77 => ⟨S_, .i32⟩
  | 78 => ⟨S_, .i1⟩
  | 79 => ⟨S136, .i1⟩
  | 80 => ⟨S136, .i1⟩
  | 81 => ⟨S136, .i1⟩
  | 82 => ⟨S136, .i32⟩
  | 83 => ⟨S136, .i32⟩
  | 84 => ⟨S136, .i32⟩
  | 85 => ⟨S_, .i32⟩
  | 86 => ⟨S136, .i32⟩
  | 87 => ⟨S136, .i32⟩
  | 88 => ⟨S136, .i32⟩
  | 89 => ⟨S_, .i32⟩
  | 90 => ⟨S136, .i32⟩
  | 91 => ⟨S136, .i1⟩
  | 92 => ⟨S136, .i32⟩
  | 93 => ⟨S136, .i32⟩
  | 94 => ⟨S_, .i32⟩
  | 95 => ⟨S136, .i32⟩
  | 96 => ⟨S136, .i1⟩
  | 97 => ⟨S136, .i1⟩
  | 98 => ⟨S_, .i32⟩
  | 99 => ⟨S136, .i32⟩
  | 100 => ⟨S136, .i32⟩
  | 101 => ⟨S136, .i32⟩
  | 102 => ⟨S_, .i32⟩
  | 103 => ⟨S_, .i32⟩
  | 104 => ⟨S_, .i32⟩
  | 105 => ⟨S_, .i1⟩
  | 106 => ⟨S_, .i32⟩
  | 107 => ⟨S_, .i32⟩
  | 108 => ⟨S136, .i32⟩
  | 109 => ⟨S136, .i32⟩
  | 110 => ⟨S_, .i32⟩
  | 111 => ⟨S136, .i32⟩
  | 112 => ⟨S136, .i1⟩
  | 113 => ⟨S_, .i32⟩
  | 114 => ⟨S136, .i32⟩
  | 115 => ⟨S136, .i1⟩
  | 116 => ⟨S_, .i32⟩
  | 117 => ⟨S_, .i1⟩
  | 118 => ⟨S136, .i1⟩
  | 119 => ⟨S136, .i1⟩
  | 120 => ⟨S136, .i1⟩
  | 121 => ⟨S136, .i32⟩
  | 122 => ⟨S136, .i32⟩
  | 123 => ⟨S136, .i32⟩
  | 124 => ⟨S_, .i32⟩
  | 125 => ⟨S136, .i32⟩
  | 126 => ⟨S136, .i1⟩
  | 127 => ⟨S_, .i32⟩
  | _ => ⟨S16x64x96x96, .f32⟩

abbrev hbmTy0_1 (i : Nat) : BufTy := match i % 128 with
  | 0 => ⟨S136, .i32⟩
  | 1 => ⟨S136, .i32⟩
  | 2 => ⟨S136, .i32⟩
  | 3 => ⟨S136x1, .i32⟩
  | 4 => ⟨S16x9216x4x136, .f32⟩
  | 5 => ⟨S_, .i32⟩
  | 6 => ⟨S136, .i32⟩
  | 7 => ⟨S136, .i1⟩
  | 8 => ⟨S_, .i32⟩
  | 9 => ⟨S136, .i32⟩
  | 10 => ⟨S136, .i32⟩
  | 11 => ⟨S136, .i32⟩
  | 12 => ⟨S136x1, .i32⟩
  | 13 => ⟨S16x9216x4x136, .f32⟩
  | 14 => ⟨S16x9216x4x136, .f32⟩
  | 15 => ⟨S16x9216x544, .f32⟩
  | 16 => ⟨S16x544x9216, .f32⟩
  | 17 => ⟨S16x544x96x96, .f32⟩
  | _ => ⟨S16x64x96x96, .f32⟩

abbrev hbmTy (i : Nat) : BufTy := match i / 128 with
  | 0 => hbmTy0_0 i
  | 1 => hbmTy0_1 i
  | _ => ⟨S16x64x96x96, .f32⟩

abbrev bufTy : (tb : Table) → Fin (tcTables nBuf tb) → BufTy
  | .hbm, ⟨i, _⟩ => hbmTy i
  | _, _ => ⟨S16x64x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_cst : Ref sig .tc := ⟨.hbm, 7, rfl⟩
abbrev main_v6 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_call1_v0 : Ref sig .tc := ⟨.hbm, 21, rfl⟩
abbrev main_call1_v1 : Ref sig .tc := ⟨.hbm, 22, rfl⟩
abbrev main_call1_call0_c : Ref sig .tc := ⟨.hbm, 23, rfl⟩
abbrev main_call1_call0_v0 : Ref sig .tc := ⟨.hbm, 24, rfl⟩
abbrev main_v10 : Ref sig .tc := ⟨.hbm, 25, rfl⟩
abbrev main_c : Ref sig .tc := ⟨.hbm, 26, rfl⟩
abbrev main_v11 : Ref sig .tc := ⟨.hbm, 27, rfl⟩
abbrev main_c_1 : Ref sig .tc := ⟨.hbm, 28, rfl⟩
abbrev main_call2_v0 : Ref sig .tc := ⟨.hbm, 29, rfl⟩
abbrev main_call2_v1 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_c_4 : Ref sig .tc := ⟨.hbm, 40, rfl⟩
abbrev main_v19 : Ref sig .tc := ⟨.hbm, 41, rfl⟩
abbrev main_v20 : Ref sig .tc := ⟨.hbm, 42, rfl⟩
abbrev main_call3_call0_c : Ref sig .tc := ⟨.hbm, 43, rfl⟩
abbrev main_call3_call0_v0 : Ref sig .tc := ⟨.hbm, 44, rfl⟩
abbrev main_v21 : Ref sig .tc := ⟨.hbm, 45, rfl⟩
abbrev main_c_5 : Ref sig .tc := ⟨.hbm, 46, rfl⟩
abbrev main_call4_v0 : Ref sig .tc := ⟨.hbm, 47, rfl⟩
abbrev main_call4_v1 : Ref sig .tc := ⟨.hbm, 48, rfl⟩
abbrev main_call4_v2 : Ref sig .tc := ⟨.hbm, 49, rfl⟩
abbrev main_call4_v3 : Ref sig .tc := ⟨.hbm, 50, rfl⟩
abbrev main_call4_v4 : Ref sig .tc := ⟨.hbm, 51, rfl⟩
abbrev main_call4_v5 : Ref sig .tc := ⟨.hbm, 52, rfl⟩
abbrev main_call4_v6 : Ref sig .tc := ⟨.hbm, 53, rfl⟩
abbrev main_call4_v7 : Ref sig .tc := ⟨.hbm, 54, rfl⟩
abbrev main_call4_c : Ref sig .tc := ⟨.hbm, 55, rfl⟩
abbrev main_call4_v8 : Ref sig .tc := ⟨.hbm, 56, rfl⟩
abbrev main_call4_v9 : Ref sig .tc := ⟨.hbm, 57, rfl⟩
abbrev main_call4_v10 : Ref sig .tc := ⟨.hbm, 58, rfl⟩
abbrev main_call4_c_0 : Ref sig .tc := ⟨.hbm, 59, rfl⟩
abbrev main_call4_v11 : Ref sig .tc := ⟨.hbm, 60, rfl⟩
abbrev main_call4_v12 : Ref sig .tc := ⟨.hbm, 61, rfl⟩
abbrev main_v22 : Ref sig .tc := ⟨.hbm, 62, rfl⟩
abbrev main_c_6 : Ref sig .tc := ⟨.hbm, 63, rfl⟩
abbrev main_call5_v0 : Ref sig .tc := ⟨.hbm, 64, rfl⟩
abbrev main_call5_c : Ref sig .tc := ⟨.hbm, 65, rfl⟩
abbrev main_call5_v1 : Ref sig .tc := ⟨.hbm, 66, rfl⟩
abbrev main_call5_c_0 : Ref sig .tc := ⟨.hbm, 67, rfl⟩
abbrev main_call5_v2 : Ref sig .tc := ⟨.hbm, 68, rfl⟩
abbrev main_call5_v3 : Ref sig .tc := ⟨.hbm, 69, rfl⟩
abbrev main_call5_v4 : Ref sig .tc := ⟨.hbm, 70, rfl⟩
abbrev main_call5_c_1 : Ref sig .tc := ⟨.hbm, 71, rfl⟩
abbrev main_call5_v5 : Ref sig .tc := ⟨.hbm, 72, rfl⟩
abbrev main_call5_v6 : Ref sig .tc := ⟨.hbm, 73, rfl⟩
abbrev main_call5_c_2 : Ref sig .tc := ⟨.hbm, 74, rfl⟩
abbrev main_call5_v7 : Ref sig .tc := ⟨.hbm, 75, rfl⟩
abbrev main_call5_v8 : Ref sig .tc := ⟨.hbm, 76, rfl⟩
abbrev main_call5_c_3 : Ref sig .tc := ⟨.hbm, 77, rfl⟩
abbrev main_call5_v9 : Ref sig .tc := ⟨.hbm, 78, rfl⟩
abbrev main_call5_v10 : Ref sig .tc := ⟨.hbm, 79, rfl⟩
abbrev main_call5_v11 : Ref sig .tc := ⟨.hbm, 80, rfl⟩
abbrev main_call5_v12 : Ref sig .tc := ⟨.hbm, 81, rfl⟩
abbrev main_call5_v13 : Ref sig .tc := ⟨.hbm, 82, rfl⟩
abbrev main_call5_v14 : Ref sig .tc := ⟨.hbm, 83, rfl⟩
abbrev main_v23 : Ref sig .tc := ⟨.hbm, 84, rfl⟩
abbrev main_c_7 : Ref sig .tc := ⟨.hbm, 85, rfl⟩
abbrev main_call6_v0 : Ref sig .tc := ⟨.hbm, 86, rfl⟩
abbrev main_call6_v1 : Ref sig .tc := ⟨.hbm, 87, rfl⟩
abbrev main_call6_v2 : Ref sig .tc := ⟨.hbm, 88, rfl⟩
abbrev main_call6_v3 : Ref sig .tc := ⟨.hbm, 89, rfl⟩
abbrev main_call6_v4 : Ref sig .tc := ⟨.hbm, 90, rfl⟩
abbrev main_call6_v5 : Ref sig .tc := ⟨.hbm, 91, rfl⟩
abbrev main_call6_v6 : Ref sig .tc := ⟨.hbm, 92, rfl⟩
abbrev main_call6_v7 : Ref sig .tc := ⟨.hbm, 93, rfl⟩
abbrev main_call6_c : Ref sig .tc := ⟨.hbm, 94, rfl⟩
abbrev main_call6_v8 : Ref sig .tc := ⟨.hbm, 95, rfl⟩
abbrev main_call6_v9 : Ref sig .tc := ⟨.hbm, 96, rfl⟩
abbrev main_call6_v10 : Ref sig .tc := ⟨.hbm, 97, rfl⟩
abbrev main_call6_c_0 : Ref sig .tc := ⟨.hbm, 98, rfl⟩
abbrev main_call6_v11 : Ref sig .tc := ⟨.hbm, 99, rfl⟩
abbrev main_call6_v12 : Ref sig .tc := ⟨.hbm, 100, rfl⟩
abbrev main_v24 : Ref sig .tc := ⟨.hbm, 101, rfl⟩
abbrev main_c_8 : Ref sig .tc := ⟨.hbm, 102, rfl⟩
abbrev main_call7_v0 : Ref sig .tc := ⟨.hbm, 103, rfl⟩
abbrev main_call7_c : Ref sig .tc := ⟨.hbm, 104, rfl⟩
abbrev main_call7_v1 : Ref sig .tc := ⟨.hbm, 105, rfl⟩
abbrev main_call7_c_0 : Ref sig .tc := ⟨.hbm, 106, rfl⟩
abbrev main_call7_v2 : Ref sig .tc := ⟨.hbm, 107, rfl⟩
abbrev main_call7_v3 : Ref sig .tc := ⟨.hbm, 108, rfl⟩
abbrev main_call7_v4 : Ref sig .tc := ⟨.hbm, 109, rfl⟩
abbrev main_call7_c_1 : Ref sig .tc := ⟨.hbm, 110, rfl⟩
abbrev main_call7_v5 : Ref sig .tc := ⟨.hbm, 111, rfl⟩
abbrev main_call7_v6 : Ref sig .tc := ⟨.hbm, 112, rfl⟩
abbrev main_call7_c_2 : Ref sig .tc := ⟨.hbm, 113, rfl⟩
abbrev main_call7_v7 : Ref sig .tc := ⟨.hbm, 114, rfl⟩
abbrev main_call7_v8 : Ref sig .tc := ⟨.hbm, 115, rfl⟩
abbrev main_call7_c_3 : Ref sig .tc := ⟨.hbm, 116, rfl⟩
abbrev main_call7_v9 : Ref sig .tc := ⟨.hbm, 117, rfl⟩
abbrev main_call7_v10 : Ref sig .tc := ⟨.hbm, 118, rfl⟩
abbrev main_call7_v11 : Ref sig .tc := ⟨.hbm, 119, rfl⟩
abbrev main_call7_v12 : Ref sig .tc := ⟨.hbm, 120, rfl⟩
abbrev main_call7_v13 : Ref sig .tc := ⟨.hbm, 121, rfl⟩
abbrev main_call7_v14 : Ref sig .tc := ⟨.hbm, 122, rfl⟩
abbrev main_v25 : Ref sig .tc := ⟨.hbm, 123, rfl⟩
abbrev main_c_9 : Ref sig .tc := ⟨.hbm, 124, rfl⟩
abbrev main_v26 : Ref sig .tc := ⟨.hbm, 125, rfl⟩
abbrev main_v27 : Ref sig .tc := ⟨.hbm, 126, rfl⟩
abbrev main_c_10 : Ref sig .tc := ⟨.hbm, 127, rfl⟩
abbrev main_v28 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_v32 : Ref sig .tc := ⟨.hbm, 132, rfl⟩
abbrev main_c_11 : Ref sig .tc := ⟨.hbm, 133, rfl⟩
abbrev main_v33 : Ref sig .tc := ⟨.hbm, 134, rfl⟩
abbrev main_v34 : Ref sig .tc := ⟨.hbm, 135, rfl⟩
abbrev main_c_12 : Ref sig .tc := ⟨.hbm, 136, rfl⟩
abbrev main_v35 : Ref sig .tc := ⟨.hbm, 137, rfl⟩
abbrev main_v36 : Ref sig .tc := ⟨.hbm, 138, rfl⟩
abbrev main_v37 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩

abbrev nD : Nat := 1
abbrev τ : Topo := Topo.v7x

variable {F : FTy → Type} [FloatOps F]

class Facts₀ : Prop where
  shapeCasts_S16x64x96x96_S16x16x4x96x96 : S16x64x96x96.ShapeCasts S16x16x4x96x96
  transposes_S16x16x4x96x96_S16x4x16x96x96_0_2_1_3_4 : S16x16x4x96x96.Transposes [0, 2, 1, 3, 4] S16x4x16x96x96
  shapeCasts_S16x4x16x96x96_S16x64x96x96 : S16x4x16x96x96.ShapeCasts S16x64x96x96
  shapeCasts_S16x64x96x96_S16x64x9216 : S16x64x96x96.ShapeCasts S16x64x9216
  transposes_S16x64x9216_S16x9216x64_0_2_1 : S16x64x9216.Transposes [0, 2, 1] S16x9216x64
  shapeCasts_S16x9216x64_S16x9216x4x16 : S16x9216x64.ShapeCasts S16x9216x4x16
  bcast_S_S16x16 : S_.BroadcastsInDim S16x16 (![] : Fin 0 → Fin S16x16.rank)
  shapeCasts_S16x16_S256 : S16x16.ShapeCasts S256
  natLt_1_32 : 1 < 32
  bcast_S_S_ : S_.BroadcastsInDim S_ (![] : Fin 0 → Fin S_.rank)
  reduceWindows_S256_S256_w256s1p255_0 : S256.ReduceWindows (![256] : Fin 1 → Nat) ![1] ![255] ![0] S256
  h_S_ : 0 < S_.numel
  bcast_S_S136 : S_.BroadcastsInDim S136 (![] : Fin 0 → Fin S136.rank)
  bcast_S_S256 : S_.BroadcastsInDim S256 (![] : Fin 0 → Fin S256.rank)
  bcast_S256_S256x1_0 : S256.BroadcastsInDim S256x1 (![0] : Fin 1 → Fin S256x1.rank)
  reduceWindows_S136_S136_w136s1p135_0 : S136.ReduceWindows (![136] : Fin 1 → Nat) ![1] ![135] ![0] S136
  bcast_S136_S136x1_0 : S136.BroadcastsInDim S136x1 (![0] : Fin 1 → Fin S136x1.rank)
  shapeCasts_S16x9216x4x136_S16x9216x544 : S16x9216x4x136.ShapeCasts S16x9216x544
  transposes_S16x9216x544_S16x544x9216_0_2_1 : S16x9216x544.Transposes [0, 2, 1] S16x544x9216
  shapeCasts_S16x544x9216_S16x544x96x96 : S16x544x9216.ShapeCasts S16x544x96x96
  scatter_S136_S256x1_S256_n_0_0_1_wf : ScatterDims.WF S136 S256x1 S256 [] [0] [0] 1
  gather_S16x9216x4x16_S136x1_S16x9216x4x136_012_3_n_n_3_1_16921641_wf : GatherDims.WF S16x9216x4x16 S136x1 S16x9216x4x136 [0, 1, 2] [3] [] [3] [] 1 ![16, 9216, 4, 1]

variable [Facts₀]

def scatter_S136_S256x1_S256_n_0_0_1 : ScatterDims S136 S256x1 S256 where
  updateWindowDims := []
  insertedWindowDims := [0]
  scatterDimsToOperandDims := [0]
  indexVectorDim := 1
  wf := scatter_S136_S256x1_S256_n_0_0_1_wf
def gather_S16x9216x4x16_S136x1_S16x9216x4x136_012_3_n_n_3_1_16921641 : GatherDims S16x9216x4x16 S136x1 S16x9216x4x136 where
  offsetDims := [0, 1, 2]
  collapsedSliceDims := [3]
  operandBatchingDims := []
  startIndicesBatchingDims := []
  startIndexMap := [3]
  indexVectorDim := 1
  sliceSizes := ![16, 9216, 4, 1]
  wf := gather_S16x9216x4x16_S136x1_S16x9216x4x136_012_3_n_n_3_1_16921641_wf

class Facts : Prop extends Facts₀ where

variable [Facts]
-- ==== Proof.Pairs.lean ====
/-
  The upper-triangular pairs of sixteen channels.

  Both programs produce, for each head, the 136 products `v i * v j` with `i ≤ j < 16`, listed row by row:
  (0,0), (0,1), …, (0,15), (1,1), …, (15,15).  This module names that list once, as a computable table, so that
  the kernel's literal rows and the reference's computed index vectors can both be compared with it.
-/
import Mathlib.Data.List.Range
import Mathlib.Data.Fin.Basic

namespace Cert.Pairs

/-- The pairs `(i, j)` with `i ≤ j`, rows first. -/
def pairList : List (Fin 16 × Fin 16) :=
  (List.finRange 16).flatMap fun i => ((List.finRange 16).filter fun j => i ≤ j).map fun j => (i, j)

/-- There are `16 · 17 / 2 = 136` of them. -/
theorem pairList_length : pairList.length = 136 := by decide

/-- The `t`-th pair. -/
def pair (t : Fin 136) : Fin 16 × Fin 16 := pairList.get (t.cast pairList_length.symm)

/-- Every listed pair lies on or above the diagonal. -/
theorem pair_le (t : Fin 136) : (pair t).1 ≤ (pair t).2 := by
  revert t; decide

/-- The list has no repetition: distinct positions name distinct pairs. -/
theorem pair_injective : Function.Injective pair := by
  intro a b; revert a b; decide +kernel

end Cert.Pairs
-- ==== Proof.Spec.lean ====
/-
  The function both programs compute.

  The input is `x : [16, 64, 96, 96]`. Its 64 channels are sixteen groups of four: channel `4·i + h` is entry `i` of
  head `h`. The output has `4 · 136 = 544` channels: channel `136·h + t` holds, at every batch entry and every
  position of the 96 × 96 plane, the product of entries `i` and `j` of head `h`, where `(i, j)` is the `t`-th pair with
  `i ≤ j < 16` (Pairs.lean). Each output element is ONE product of two input elements: no sum, no constant.
-/
import proofs.«108151_j54528904790278_2_alg».proof.Proof.Pairs
import Idealize.ShloMosaic.PureOps.Ideal
import Idealize.ShloMosaic.Lib.ValueIdx

noncomputable section

namespace Cert.Spec

open Idealize.ShloMosaic Idealize.ShloMosaic.ValueIdx Cert.Pairs

/-- Entry `i` of head `h` is channel `4·i + h`. -/
def chan (i : Fin 16) (h : Fin 4) : Fin 64 := ⟨4 * i.val + h.val, by omega⟩

/-- Output channel `c = 136·h + t` belongs to head `h = c / 136` … -/
def head (c : Fin 544) : Fin 4 := ⟨c.val / 136, by omega⟩

/-- … and is its `t = c % 136`-th product. -/
def slot (c : Fin 544) : Fin 136 := ⟨c.val % 136, Nat.mod_lt _ (by decide)⟩

/-- The two input channels whose product is output channel `c`. -/
def left (c : Fin 544) : Fin 64 := chan (pair (slot c)).1 (head c)
def right (c : Fin 544) : Fin 64 := chan (pair (slot c)).2 (head c)

/-- The result as one function of the argument array, index by index. -/
def G (x : FVec Ideal ⟨4, ![16, 64, 96, 96]⟩ .f32) : FVec Ideal ⟨4, ![16, 544, 96, 96]⟩ .f32 :=
  fun j => x (ix4 (j 0) (left (j 1)) (j 2) (j 3)) * x (ix4 (j 0) (right (j 1)) (j 2) (j 3))

theorem G_apply (x : FVec Ideal ⟨4, ![16, 64, 96, 96]⟩ .f32) (b : Fin 16) (c : Fin 544) (p : Fin 96) (q : Fin 96) :
    G x (ix4 b c p q) = x (ix4 b (left c) p q) * x (ix4 b (right c) p q) := rfl

end Cert.Spec

end
-- ==== Proof.KernelBlock.lean ====
/-
  The body's result block as one function of its input block.

  The body loads, for each head h < 4, the slab [1, 16, 1, 4608] of its input block [1, 16, 4, 4608] at (0, 0, h, 0),
  drops the two unit axes, and stores 136 rows of the result block [1, 544, 4608]: row 136·h + t is the product, entry by
  entry, of rows i and j of the slab, (i, j) the t-th pair with i ≤ j < 16. Every one of the 544 stores has the same form,
  with literal row offsets; one lemma reads that form at an index (`piece_ok`), each store is an instance of it, and the
  stores' rectangles tile the block, so the block is the function `Gblk` everywhere.
-/
import proofs.«108151_j54528904790278_2_alg».proof.Proof.KernelIdealFrameP
import proofs.«108151_j54528904790278_2_alg».proof.Proof.Spec
import Idealize.ShloMosaic.Lib.ValueLayout
import Idealize.ShloMosaic.Lib.Pipeline.Value
import Idealize.ShloMosaic.PureOps.Ideal

noncomputable section

namespace Cert.KernelIdeal.KValue

open Idealize.ShloMosaic Idealize.ShloMosaic.ValueIdx Cert.KernelIdeal Cert.KernelIdeal.Gen Cert.Pairs Cert.Spec

/-- Two rows of a [16, 4608] array, multiplied entry by entry and given two leading unit axes, read at an index. -/
theorem prod_rows_apply (v : FVec Ideal S16x4608 .f32) (o₁ o₂ : Nat)
    (h₁ : S16x4608.Slices ![o₁, 0] S1x4608) (h₂ : S16x4608.Slices ![o₂, 0] S1x4608)
    (c₁ c₁' : S1x4608.ShapeCasts S4608) (c₂ : S4608.ShapeCasts S1x1x4608)
    (i₁ i₂ : Fin 16) (e₁ : i₁.val = o₁) (e₂ : i₂.val = o₂) (u u' : Fin 1) (l : Fin 4608) :
    shapeCast S1x1x4608 (mulf (shapeCast S4608 (extractStridedSlice S1x4608 ![o₁, 0] v h₁) c₁)
        (shapeCast S4608 (extractStridedSlice S1x4608 ![o₂, 0] v h₂) c₁')) c₂ (ix3 u u' l)
      = v (ix2 i₁ l) * v (ix2 i₂ l) := by
  refine (shapeCast_apply _ c₂ (ix3 u u' l) (ix1 l) ?_).trans ?_
  · rw [Shape.rowMajor_val_one, Shape.rowMajor_val_three]
    show l.val = (u.val * 1 + u'.val) * 4608 + l.val
    omega
  · rw [mulf_apply, shapeCast_1a_a_apply, shapeCast_1a_a_apply,
      slice2_axis0_apply o₁ v h₁ 0 l i₁ (by rw [e₁]; rfl), slice2_axis0_apply o₂ v h₂ 0 l i₂ (by rw [e₂]; rfl)]

/-- The slab of head `hd` of the input block, with its two unit axes dropped, read at (entry, position). -/
theorem slab_apply (x0 : Vec Ideal S1x16x4x4608 .f32) (hd : Nat)
    (inbL : ∀ a, (![0, 0, hd, 0] : Fin 4 → Nat) a + S1x16x1x4608.size a ≤ S1x16x4x4608.size a)
    (sc : S1x16x1x4608.ShapeCasts S16x4608) (h : Fin 4) (hh : h.val = hd) (i : Fin 16) (l : Fin 4608) :
    (shapeCast S16x4608 (View.ld (Val := Elt Ideal) (e' := .f32) x0 (Rect.unit (s := S1x16x4x4608) ![0, 0, hd, 0] S1x16x1x4608.size inbL)) sc : FVec Ideal S16x4608 .f32) (ix2 i l)
      = x0 (ix4 0 i h l) := by
  refine (shapeCast_apply _ sc (ix2 i l) (ix4 (0 : Fin 1) i (0 : Fin 1) l) ?_).trans ?_
  · rw [Shape.rowMajor_val_four, Shape.rowMajor_val_two]
    show (((0 : Fin 1).val * 16 + i.val) * 1 + (0 : Fin 1).val) * 4608 + l.val = i.val * 4608 + l.val
    simp
  · show x0 _ = x0 _
    refine congrArg x0 (funext fun a => Fin.ext ?_)
    match a with
    | ⟨0, _⟩ => show 0 + 1 * 0 = 0; rfl
    | ⟨1, _⟩ => show 0 + 1 * i.val = i.val; omega
    | ⟨2, _⟩ => show hd + 1 * 0 = h.val; omega
    | ⟨3, _⟩ => show 0 + 1 * l.val = l.val; omega

/-- The body's result block as one function of the input block. -/
def Gblk (x0 : Vec Ideal S1x16x4x4608 .f32) : Vec Ideal S1x544x4608 .f32 :=
  fun y => x0 (ix4 0 (pair (slot (y 1))).1 (head (y 1)) (y 2)) * x0 (ix4 0 (pair (slot (y 1))).2 (head (y 1)) (y 2))

/-- One stored row: the product of two rows of the head's slab, stored at row `c` of the result block, is the block
    function on that row. -/
theorem piece_ok (x0 : Vec Ideal S1x16x4x4608 .f32) (hd c o₁ o₂ : Nat)
    (inbL : ∀ a, (![0, 0, hd, 0] : Fin 4 → Nat) a + S1x16x1x4608.size a ≤ S1x16x4x4608.size a)
    (inbS : ∀ a, (![0, c, 0] : Fin 3 → Nat) a + S1x1x4608.size a ≤ S1x544x4608.size a)
    (sc : S1x16x1x4608.ShapeCasts S16x4608)
    (h₁ : S16x4608.Slices ![o₁, 0] S1x4608) (h₂ : S16x4608.Slices ![o₂, 0] S1x4608)
    (c₁ c₁' : S1x4608.ShapeCasts S4608) (c₂ : S4608.ShapeCasts S1x1x4608)
    (hc : c < 544)
    (hh : (head ⟨c, hc⟩).val = hd) (hi : (pair (slot ⟨c, hc⟩)).1.val = o₁) (hj : (pair (slot ⟨c, hc⟩)).2.val = o₂) :
    ∀ x : (Rect.unit (s := S1x544x4608) ![0, c, 0] S1x1x4608.size inbS).shape.Idx,
      (shapeCast S1x1x4608 (mulf (F := Ideal) (φ := .f32)
        (shapeCast S4608 (extractStridedSlice S1x4608 ![o₁, 0]
          (shapeCast S16x4608 (View.ld (Val := Elt Ideal) (e' := .f32) x0 (Rect.unit (s := S1x16x4x4608) ![0, 0, hd, 0] S1x16x1x4608.size inbL)) sc : FVec Ideal S16x4608 .f32) h₁) c₁)
        (shapeCast S4608 (extractStridedSlice S1x4608 ![o₂, 0]
          (shapeCast S16x4608 (View.ld (Val := Elt Ideal) (e' := .f32) x0 (Rect.unit (s := S1x16x4x4608) ![0, 0, hd, 0] S1x16x1x4608.size inbL)) sc : FVec Ideal S16x4608 .f32) h₂) c₁')) c₂ : FVec Ideal S1x1x4608 .f32) x
      = Gblk x0 ((Rect.unit (s := S1x544x4608) ![0, c, 0] S1x1x4608.size inbS).emb x) := by
  intro x
  obtain ⟨u, u', l, rfl⟩ : ∃ (u u' : Fin 1) (l : Fin 4608), x = ix3 u u' l := ⟨x 0, x 1, x 2, eq_ix3 x⟩
  refine (prod_rows_apply _ o₁ o₂ h₁ h₂ c₁ c₁' c₂ _ _ hi hj u u' l).trans ?_
  rw [slab_apply x0 hd inbL sc _ hh, slab_apply x0 hd inbL sc _ hh]
  have he : (Rect.unit (s := S1x544x4608) ![0, c, 0] S1x1x4608.size inbS).emb (ix3 u u' l) = ix3 (0 : Fin 1) (⟨c, hc⟩ : Fin 544) l := by
    funext a; apply Fin.ext
    match a with
    | ⟨0, _⟩ => show 0 + 1 * u.val = 0; omega
    | ⟨1, _⟩ => show c + 1 * u'.val = c; omega
    | ⟨2, _⟩ => show 0 + 1 * l.val = l.val; omega
  rw [he]
  rfl

/-- The result block is `Gblk` of the input block: each store's payload is `Gblk` on the store's row, and the
    rows tile the block. -/
theorem out_eq (x0 : Vec Ideal S1x16x4x4608 .f32) (y : S1x544x4608.Idx) :
    GenP.out0_1 (F := Ideal) x0 y = Gblk x0 y := by
  unfold GenP.out0_1
  refine View.canon_apply_of_pieces (Gblk x0) _ ?_ y (GenP.cover0_1 _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ y)
  repeat (first
    | exact List.forall_mem_nil _
    | (refine List.forall_mem_cons.mpr ⟨?_, ?_⟩
       · exact piece_ok x0 _ _ _ _ (by decide) (by decide) shapeCasts_S1x16x1x4608_S16x4608 (by decide) (by decide) shapeCasts_S1x4608_S4608 shapeCasts_S1x4608_S4608 shapeCasts_S4608_S1x1x4608 (by decide) (by decide) (by decide) (by decide)))

/-- Row `c` of the result block at position `l`: the product of entries `i` and `j` of head `c / 136` of the input
    block there, `(i, j)` the `c % 136`-th pair. -/
theorem out_apply (x0 : Vec Ideal S1x16x4x4608 .f32) (c : Fin 544) (l : Fin 4608) :
    GenP.out0_1 (F := Ideal) x0 (ix3 0 c l)
      = x0 (ix4 0 (pair (slot c)).1 (head c) l) * x0 (ix4 0 (pair (slot c)).2 (head c) l) :=
  out_eq x0 (ix3 0 c l)

end Cert.KernelIdeal.KValue

end
-- ==== Proof.KernelArray.lean ====
/-
  The idealized kernel's value.

  The program reshapes the argument [16, 64, 96, 96] to [16, 16, 4, 9216] (channel 4·i + h becomes (i, h); the plane
  becomes one axis), runs the body over the 32 grid points (b, lt) — each point reads the block [1, 16, 4, 4608] at
  (b, 0, 0, lt) and writes the block [1, 544, 4608] at (b, 0, lt) of a [16, 544, 9216] array — and reshapes that array to
  [16, 544, 96, 96]. The body's result block is one function of its input block (KernelBlock.lean); here the blocks are
  put together: the written array is one function of the reshaped argument, and read through the two reshapes it is the
  common function `Cert.Spec.G` of the argument.
-/
import proofs.«108151_j54528904790278_2_alg».proof.Proof.KernelBlock
import Idealize.ShloMosaic.Lib.Pipeline.Value
import Idealize.ShloMosaic.Lib.ValueLayout

noncomputable section

namespace Cert.KernelIdeal.KValue

open Cert.KernelIdeal Cert.KernelIdeal.Gen Idealize.ShloMosaic Idealize.ShloMosaic.TcCoe Idealize.SL.Sem
open Idealize.ShloMosaic.ValueIdx Cert.Pairs Cert.Spec
open Idealize.ShloMosaic.Pipeline (Dat)

variable (m : (ℓ : Loc nD τ sig) → Buf (Elt Ideal) ℓ) (ρ : Dev nD → PrngReg)

/-! ## The array the input window reads: the argument, reshaped -/

/-- The first reshape's result, as the region finds it. -/
theorem V_main_v0 (c : Dev nD) :
    (GenP.V m c main_v0 : S16x16x4x9216.Idx → Elt Ideal .f32)
      = shapeCast S16x16x4x9216 (m ((c.tc : Thread nD τ).loc main_arg0) : S16x64x96x96.Idx → Elt Ideal .f32)
          shapeCasts_S16x64x96x96_S16x16x4x9216 := by
  show StableHlo.after hostOps0 (fun b => m (c, b)) (Proc.devRef .tc main_v0) = _
  after_results
  rfl

/-! ## The written array as one function of the array read -/

/-- Row `c` of the written array at batch entry `b` and position `p`: the product of entries `i`, `j` of head `h`. -/
def G1 (a : S16x16x4x9216.Idx → Elt Ideal .f32) : S16x544x9216.Idx → Elt Ideal .f32 :=
  fun y => a (ix4 (y 0) (pair (slot (y 1))).1 (head (y 1)) (y 2)) * a (ix4 (y 0) (pair (slot (y 1))).2 (head (y 1)) (y 2))

/-- The index maps over the 32 grid points: both windows move together along the batch axis and the position axis,
    and stay at block 0 on the others. -/
theorem idx_facts : ∀ t : Fin cfg0.N,
    win0_0.index t (0 : Fin 4) = win0_1.index t (0 : Fin 3) ∧ win0_0.index t (1 : Fin 4) = 0 ∧ win0_0.index t (2 : Fin 4) = 0
    ∧ win0_0.index t (3 : Fin 4) = win0_1.index t (2 : Fin 3) ∧ win0_1.index t (1 : Fin 3) = 0
    ∧ win0_1.index t (0 : Fin 3) < 16 ∧ win0_1.index t (2 : Fin 3) < 2 :=
  (by decide +kernel : ∀ t : Fin grid0.N, _)

/-- Every (batch entry, half of the position axis) is some point's block. -/
theorem idx_onto : ∀ (q0 : Fin 16) (q2 : Fin 2), ∃ t : Fin cfg0.N, win0_1.index t = ![q0.val, 0, q2.val] :=
  (by decide +kernel : ∀ (q0 : Fin 16) (q2 : Fin 2), ∃ t : Fin grid0.N, win0_1.index t = ![q0.val, 0, q2.val])

/-- The input block at a point, read at an index, is the array read at the block's place. -/
theorem iblk_apply (c : Dev nD) (t : Fin cfg0.N) (i : Fin 16) (h : Fin 4) (l : Fin 4608) (b : Fin 16) (p : Fin 9216)
    (hb : b.val = win0_1.index t (0 : Fin 3)) (hp : p.val = win0_1.index t (2 : Fin 3) * 4608 + l.val) :
    (GenP.iblk m c 0 t : S1x16x4x4608.Idx → Elt Ideal .f32) (ix4 0 i h l)
      = (GenP.V m c main_v0 : S16x16x4x9216.Idx → Elt Ideal .f32) (ix4 b i h p) := by
  obtain ⟨e0, e1, e2, e3, -, -, -⟩ := idx_facts t
  show GenP.V m c main_v0 (((cfg0.win 0).blk t).view.emb (ix4 0 i h l)) = _
  refine congrArg (GenP.V m c main_v0) (funext fun a => Fin.ext ?_)
  match a with
  | ⟨0, _⟩ => show win0_0.index t (0 : Fin 4) * 1 + 1 * 0 = b.val; omega
  | ⟨1, _⟩ => show win0_0.index t (1 : Fin 4) * 16 + 1 * i.val = i.val; omega
  | ⟨2, _⟩ => show win0_0.index t (2 : Fin 4) * 4 + 1 * h.val = h.val; omega
  | ⟨3, _⟩ => show win0_0.index t (3 : Fin 4) * 4608 + 1 * l.val = p.val; omega

/-- WHAT POINT `t` WRITES BACK is block `t` of `G1` of the array read. -/
theorem flushed_eq (c : Dev nD) (t : Fin cfg0.N) :
    (GenP.dats m 0 c).flushed 1 t = ((cfg0.win 1).blk t).view.read (Elt Ideal) (G1 (GenP.V m c main_v0)) := by
  show (cfg0.win 1).cut (grid0.coords t) ((GenP.dats m 0 c).after 1 t) = _
  rw [GenP.after0_1]
  obtain ⟨-, -, -, -, e4, e5, e6⟩ := idx_facts t
  funext y
  obtain ⟨u, r, l, rfl⟩ : ∃ (u : Fin 1) (r : Fin 544) (l : Fin 4608), y = ix3 u r l := ⟨y 0, y 1, y 2, eq_ix3 y⟩
  obtain rfl : u = 0 := Subsingleton.elim _ _
  have hemb : ((cfg0.win 1).blk t).view.emb (ix3 (0 : Fin 1) r l)
      = ix3 (⟨win0_1.index t (0 : Fin 3), e5⟩ : Fin 16) r (⟨win0_1.index t (2 : Fin 3) * 4608 + l.val, by omega⟩ : Fin 9216) := by
    funext a; apply Fin.ext
    match a with
    | ⟨0, _⟩ => show win0_1.index t (0 : Fin 3) * 1 + 1 * 0 = win0_1.index t (0 : Fin 3); omega
    | ⟨1, _⟩ => show win0_1.index t (1 : Fin 3) * 544 + 1 * r.val = r.val; omega
    | ⟨2, _⟩ => show win0_1.index t (2 : Fin 3) * 4608 + 1 * l.val = win0_1.index t (2 : Fin 3) * 4608 + l.val; omega
  show GenP.out0_1 (GenP.iblk m c 0 t) (ix3 0 r l) = G1 (GenP.V m c main_v0) (((cfg0.win 1).blk t).view.emb (ix3 (0 : Fin 1) r l))
  rw [hemb]
  refine (out_apply (GenP.iblk m c 0 t) r l).trans ?_
  rw [iblk_apply m c t _ _ l ⟨win0_1.index t (0 : Fin 3), e5⟩ ⟨win0_1.index t (2 : Fin 3) * 4608 + l.val, by omega⟩ rfl rfl,
    iblk_apply m c t _ _ l ⟨win0_1.index t (0 : Fin 3), e5⟩ ⟨win0_1.index t (2 : Fin 3) * 4608 + l.val, by omega⟩ rfl rfl]
  rfl

/-- The blocks cover the written array: position `p` of batch entry `b` is in the block of the point (b, p / 4608). -/
theorem cover (i : S16x544x9216.Idx) :
    ∃ t : Fin cfg0.N, (cfg0.win 1).flush t = true ∧ i ∈ ((cfg0.win 1).blk t).view.set := by
  have h0 : (i 0).val < 16 := (i 0).isLt
  have h1 : (i 1).val < 544 := (i 1).isLt
  have h2 : (i 2).val < 9216 := (i 2).isLt
  obtain ⟨t, ht⟩ := idx_onto ⟨(i 0).val, h0⟩ ⟨(i 2).val / 4608, by omega⟩
  have q0 : win0_1.index t (0 : Fin 3) = (i 0).val := congrFun ht 0
  have q1 : win0_1.index t (1 : Fin 3) = 0 := congrFun ht 1
  have q2 : win0_1.index t (2 : Fin 3) = (i 2).val / 4608 := congrFun ht 2
  refine ⟨t, flush0_1 t, ?_⟩
  show i ∈ ((View.whole main_v1).slice (win0_1.rect t)).set
  rw [View.set_slice_whole, Rect.mem_set_unit]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 544 ≤ (i 1).val ∧ (i 1).val < win0_1.index t (1 : Fin 3) * 544 + 544; omega
  | ⟨2, _⟩ => show win0_1.index t (2 : Fin 3) * 4608 ≤ (i 2).val ∧ (i 2).val < win0_1.index t (2 : Fin 3) * 4608 + 4608; omega

/-- THE WRITTEN ARRAY after the run is `G1` of the array read. -/
theorem final (c : Dev nD) : (GenP.dats m 0 c).arrAt 1 cfg0.N = G1 (GenP.V m c main_v0) :=
  (GenP.dats m 0 c).arrAt_eq_of_cover 1 (G1 (GenP.V m c main_v0)) (fun t _ => flushed_eq m c t) cover

/-! ## The result: the written array, reshaped, is the common function of the argument -/

/-- What the second reshape leaves in the result buffer. -/
theorem tail_eq (c : Dev nD) :
    (Pipeline.afterTail₀ cfgs (GenP.dats m) 0 (GenP.V0 m) [hostOps1] c main_v2 : S16x544x96x96.Idx → Elt Ideal .f32)
      = shapeCast S16x544x96x96 (G1 (GenP.V m c main_v0)) shapeCasts_S16x544x9216_S16x544x96x96 := by
  have hw : Pipeline.withArrays (cfgs 0).spec c (GenP.V0 m c) (fun w => (GenP.dats m 0 c).arrAt w (cfgs 0).N) (Proc.devRef .tc main_v1)
      = G1 (GenP.V m c main_v0) :=
    (Pipeline.withArrays_arr spec0 launch0.win.arr_inj c _ _ 1).trans (final m c)
  unfold Pipeline.afterTail₀
  show StableHlo.after hostOps1 _ (Proc.devRef .tc main_v2) = _
  after_results
  rw [hw]
  rfl

/-- The first reshape read at an index: position (p, q) of channel 4·i + h. -/
theorem reshape_in_apply (x : S16x64x96x96.Idx → Elt Ideal .f32) (b i : Fin 16) (h : Fin 4) (p q : Fin 96)
    (hpq : p.val * 96 + q.val < 9216) :
    shapeCast S16x16x4x9216 x shapeCasts_S16x64x96x96_S16x16x4x9216 (ix4 b i h (⟨p.val * 96 + q.val, hpq⟩ : Fin 9216))
      = x (ix4 b (chan i h) p q) :=
  shapeCast_apply x _ _ _ (by
    rw [Shape.rowMajor_val_four, Shape.rowMajor_val_four]
    show ((b.val * 64 + (4 * i.val + h.val)) * 96 + p.val) * 96 + q.val
      = ((b.val * 16 + i.val) * 4 + h.val) * 9216 + (p.val * 96 + q.val)
    omega)

/-- Through the two reshapes, `G1` is the common function. -/
theorem G1_reshape (x : S16x64x96x96.Idx → Elt Ideal .f32) :
    shapeCast S16x544x96x96 (G1 (shapeCast S16x16x4x9216 x shapeCasts_S16x64x96x96_S16x16x4x9216))
      shapeCasts_S16x544x9216_S16x544x96x96 = Cert.Spec.G x := by
  funext j
  obtain ⟨b, c, p, q, rfl⟩ : ∃ (b : Fin 16) (c : Fin 544) (p q : Fin 96), j = ix4 b c p q := ⟨j 0, j 1, j 2, j 3, eq_ix4 j⟩
  have hpq : p.val * 96 + q.val < 9216 := by omega
  refine (shapeCast_apply _ _ (ix4 b c p q) (ix3 b c (⟨p.val * 96 + q.val, hpq⟩ : Fin 9216)) ?_).trans ?_
  · rw [Shape.rowMajor_val_three, Shape.rowMajor_val_four]
    show (b.val * 544 + c.val) * 9216 + (p.val * 96 + q.val) = ((b.val * 544 + c.val) * 96 + p.val) * 96 + q.val
    omega
  · show shapeCast S16x16x4x9216 x shapeCasts_S16x64x96x96_S16x16x4x9216 (ix4 b (pair (slot c)).1 (head c) (⟨p.val * 96 + q.val, hpq⟩ : Fin 9216))
        * shapeCast S16x16x4x9216 x shapeCasts_S16x64x96x96_S16x16x4x9216 (ix4 b (pair (slot c)).2 (head c) (⟨p.val * 96 + q.val, hpq⟩ : Fin 9216)) = _
    rw [reshape_in_apply, reshape_in_apply]
    rfl

/-- The result buffer after the run. -/
theorem result_eq (c : Dev nD) :
    Pipeline.afterTail₀ cfgs (GenP.dats m) 0 (GenP.V0 m) [hostOps1] c main_v2
      = Cert.Spec.G (m ((c.tc : Thread nD τ).loc main_arg0)) := by
  refine (tail_eq m c).trans ?_
  rw [V_main_v0 m c]
  exact G1_reshape _

end Cert.KernelIdeal.KValue

end
-- ==== Proof.KernelValue.lean ====
/-
  The idealized kernel's run: it ends with the result array at the common function `Cert.Spec.G` of the argument array
  and the argument array as launched. The frame run has every array of the pipeline at what the proof data compute and
  every other buffer at what the host operations after the region leave; KernelArray.lean reads the result buffer there.
-/
import proofs.«108151_j54528904790278_2_alg».proof.Proof.KernelArray
import proofs.«108151_j54528904790278_2_alg».proof.Proof.KernelIdealFrameQ

noncomputable section

namespace Cert.KernelIdeal.KValue

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-! ## The run -/

/-- At the compiled mesh, from any memory with zero counters: the program terminates with the result array at the
    common function of the argument array, and the argument array as launched. -/
theorem run : θ_run (defs (F := Ideal)) (onTc (τ := τ) (main (F := Ideal))) ⟨m, fun _ => 0, ρ⟩ (fun r => ∀ c : Dev nD,
      r.2.mem ((c.tc : Thread nD τ).loc main_v2) = Cert.Spec.G (m ((c.tc : Thread nD τ).loc main_arg0))
      ∧ r.2.mem ((c.tc : Thread nD τ).loc main_arg0) = m ((c.tc : Thread nD τ).loc main_arg0)) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (GenP.W_main_arg0 m (GenP.dats m) c)⟩)
    (GenP.run_main m ρ)

end Cert.KernelIdeal.KValue

end
-- ==== Proof.RefTerm.lean ====
/-
  The reference's computation as pure terms.

  The reference program is a straight line of tensor operations, some of them grouped into functions that the
  program calls.  This module writes down, once, what that line computes from its argument: `result x`, built from
  `heads x` (the input regrouped so that the four heads' sixteen channels sit last) and from two closed index vectors
  `rowIdx F` and `colIdx F` of length 136 (which channel pair each of the 136 products multiplies).  Nothing is
  proved here; the run of the program is read back against these terms elsewhere, and what the closed index
  vectors evaluate to is a separate computation.
-/
import proofs.«108151_j54528904790278_2_alg».proof.Proof.Gen.ReferenceIdeal
import Idealize.ShloMosaic.PureOps

noncomputable section

namespace Cert.ReferenceIdeal.RefRun

open Cert.ReferenceIdeal Cert.ReferenceIdeal.Gen Idealize.ShloMosaic

variable {F : FTy → Type} [FloatOps F]

/-! ## The operations' composition, as pure terms

Every definition below is the composition of the printed operations, in the printed order, each with the dimension
records and literals the printed program gives it.  The module's own functions are mirrored one for one
(`triu`, `cumsum` and `cumsum0`, `clip`, `cumsum1` and `cumsum2`, `floorDivide`, `remainder`, `where_`, `where3`), a
call being an application, so that unfolding the definitions yields the plain nested applications of the operations.
The integer functions are stated over integer vectors (`IVec s w`, which is what a buffer of integer element type
holds whatever the float values are); the closed terms take the float values `F` explicitly, since the mask they start
from is a comparison of floats. -/

/-- `%5`: the input regrouped by head.  `x[b, 4·c + h, l]` (with `l` the flattened position in `96 × 96`) is moved to
    `heads x [b, l, h, c]`: reshape to `[16, 16, 4, 96, 96]`, swap the two channel axes, flatten back to 64 channels and
    then the two spatial axes to `9216`, move the channel axis last, and split it as `4 × 16`. -/
def heads (x : (⟨S16x64x96x96, .f32⟩ : BufTy).Contents (Elt F)) : (⟨S16x9216x4x16, .f32⟩ : BufTy).Contents (Elt F) :=
  shapeCast S16x9216x4x16
    (transpose S16x9216x64 [0, 2, 1]
      (shapeCast S16x64x9216
        (shapeCast S16x64x96x96
          (transpose S16x4x16x96x96 [0, 2, 1, 3, 4]
            (shapeCast S16x16x4x96x96 x shapeCasts_S16x64x96x96_S16x16x4x96x96)
            transposes_S16x16x4x96x96_S16x4x16x96x96_0_2_1_3_4)
          shapeCasts_S16x4x16x96x96_S16x64x96x96)
        shapeCasts_S16x64x96x96_S16x64x9216)
      transposes_S16x64x9216_S16x9216x64_0_2_1)
    shapeCasts_S16x9216x64_S16x9216x4x16

/-- `@triu`: the argument with its entries strictly below the diagonal (`row - 1 ≥ col`) replaced by zero. -/
def triu (a : (⟨S16x16, .f32⟩ : BufTy).Contents (Elt F)) : (⟨S16x16, .f32⟩ : BufTy).Contents (Elt F) :=
  select
    (cmpi .sge (addi (iotaInDim S16x16 32 0) (broadcastInDim S16x16 ![] bcast_S_S16x16 (constantI S_ 32 4294967295#32))) (iotaInDim S16x16 32 1))
    (broadcastInDim S16x16 ![] bcast_S_S16x16 (constant (F := F) S_ .f32 0x00000000#32))
    a

/-- `%9`: where the upper triangle of the all-ones `16 × 16` matrix is not zero, i.e. the positions `(i, j)` with `i ≤ j`. -/
def mask (F : FTy → Type) [FloatOps F] : IVec S16x16 1 :=
  cmpf .une (triu (F := F) (broadcastInDim S16x16 ![] bcast_S_S16x16 (constant (F := F) S_ .f32 0x3F800000#32)))
    (broadcastInDim S16x16 ![] bcast_S_S16x16 (constant (F := F) S_ .f32 0x00000000#32))

/-- `@cumsum_0`: the inclusive running sum of 256 integers (a sum over a window of 256 ending at each position, the
    255 positions before the start padded with the initial value zero). -/
def cumsum0 (x : IVec S256 32) : IVec S256 32 :=
  Host.reduceWindow IntOp.addi ![256] ![1] ![255] ![0] x (broadcastInDim S_ ![] bcast_S_S_ (constantI S_ 32 0#32))
    reduceWindows_S256_S256_w256s1p255_0 h_S_

/-- `@cumsum`: the mask flattened to 256 bits, widened to integers, and summed cumulatively. -/
def cumsum (a : IVec S16x16 1) : IVec S256 32 :=
  cumsum0 (extui 32 (shapeCast S256 a shapeCasts_S16x16_S256) natLt_1_32)

/-- `@clip`: the entrywise maximum with a scalar lower bound. -/
def clip (a : IVec S256 32) (lo : IVec S_ 32) : IVec S256 32 :=
  maxsi (broadcastInDim S256 ![] bcast_S_S256 (id lo)) a

/-- `%12`: at flat position `p` of the `16 × 16` mask, the number of set positions up to and including `p`, bounded below by zero. -/
def slot (F : FTy → Type) [FloatOps F] : IVec S256 32 :=
  clip (cumsum (mask F)) (constantI S_ 32 0#32)

/-- `%17`: `slot` with a negative entry shifted up by 136 (the scatter's index normalisation). -/
def slotN (F : FTy → Type) [FloatOps F] : IVec S256 32 :=
  select (cmpi .slt (slot F) (broadcastInDim S256 ![] bcast_S_S256 (constantI S_ 32 0#32))) (addi (slot F) (broadcastInDim S256 ![] bcast_S_S256 (constantI S_ 32 136#32))) (slot F)

/-- `%20`: 136 zeros to which a one is added at index `slotN p` for each of the 256 flat positions `p`. -/
def counts (F : FTy → Type) [FloatOps F] : IVec S136 32 :=
  Host.scatter scatter_S136_S256x1_S256_n_0_0_1 IntOp.addi (broadcastInDim S136 ![] bcast_S_S136 (constantI S_ 32 0#32))
    (broadcastInDim S256x1 ![0] bcast_S256_S256x1_0 (slotN F)) (broadcastInDim S256 ![] bcast_S_S256 (constantI S_ 32 1#32))

/-- `@cumsum_2`: the inclusive running sum of 136 integers. -/
def cumsum2 (x : IVec S136 32) : IVec S136 32 :=
  Host.reduceWindow IntOp.addi ![136] ![1] ![135] ![0] x (broadcastInDim S_ ![] bcast_S_S_ (constantI S_ 32 0#32))
    reduceWindows_S136_S136_w136s1p135_0 h_S_

/-- `@cumsum_1`: it only calls `@cumsum_2`. -/
def cumsum1 (x : IVec S136 32) : IVec S136 32 :=
  cumsum2 x

/-- `%21`: the running sum of `counts`. -/
def pos (F : FTy → Type) [FloatOps F] : IVec S136 32 :=
  cumsum1 (counts F)

/-- `@_where`. -/
def where_ (c : IVec S136 1) (a b : IVec S136 32) : IVec S136 32 :=
  select c a b

/-- `@_where_3`. -/
def where3 (c : IVec S_ 1) (a b : IVec S_ 32) : IVec S_ 32 :=
  select c a b

/-- `@floor_divide`'s `%1`: the truncating quotient by the broadcast scalar. -/
def floorDivide.quot (a : IVec S136 32) (b : IVec S_ 32) : IVec S136 32 :=
  Host.divsi a (broadcastInDim S136 ![] bcast_S_S136 b)

/-- `@floor_divide`: the truncating quotient, less one where the signs differ and the remainder is not zero. -/
def floorDivide (a : IVec S136 32) (b : IVec S_ 32) : IVec S136 32 :=
  where_
    (andi (cmpi .ne (signi a) (broadcastInDim S136 ![] bcast_S_S136 (signi b)))
      (cmpi .ne (Host.remsi a (broadcastInDim S136 ![] bcast_S_S136 b)) (broadcastInDim S136 ![] bcast_S_S136 (constantI S_ 32 0#32))))
    (subi (floorDivide.quot a b) (broadcastInDim S136 ![] bcast_S_S136 (constantI S_ 32 1#32)))
    (floorDivide.quot a b)

/-- `@remainder`'s `%2`: the divisor, with one in place of zero. -/
def remainder.divisor (b : IVec S_ 32) : IVec S_ 32 :=
  where3 (cmpi .eq (id b) (constantI S_ 32 0#32)) (constantI S_ 32 1#32) (id b)

/-- `@remainder`'s `%4`: the truncating remainder by the broadcast divisor. -/
def remainder.rem (a : IVec S136 32) (b : IVec S_ 32) : IVec S136 32 :=
  Host.remsi a (broadcastInDim S136 ![] bcast_S_S136 (remainder.divisor b))

/-- `@remainder`: the truncating remainder, plus the divisor where it is not zero and its sign differs from the divisor's. -/
def remainder (a : IVec S136 32) (b : IVec S_ 32) : IVec S136 32 :=
  select
    (andi
      (cmpi .ne (cmpi .slt (remainder.rem a b) (broadcastInDim S136 ![] bcast_S_S136 (constantI S_ 32 0#32)))
        (broadcastInDim S136 ![] bcast_S_S136 (cmpi .slt (remainder.divisor b) (constantI S_ 32 0#32))))
      (cmpi .ne (remainder.rem a b) (broadcastInDim S136 ![] bcast_S_S136 (constantI S_ 32 0#32))))
    (addi (remainder.rem a b) (broadcastInDim S136 ![] bcast_S_S136 (remainder.divisor b)))
    (remainder.rem a b)

/-- The negative-index normalisation before a gather: sixteen added to a negative entry. -/
def normIdx (r : IVec S136 32) : IVec S136 32 :=
  select (cmpi .slt r (broadcastInDim S136 ![] bcast_S_S136 (constantI S_ 32 0#32))) (addi r (broadcastInDim S136 ![] bcast_S_S136 (constantI S_ 32 16#32))) r

/-- `%23`: `(pos / 16) mod 16`. -/
def rowRaw (F : FTy → Type) [FloatOps F] : IVec S136 32 :=
  remainder (floorDivide (pos F) (constantI S_ 32 16#32)) (constantI S_ 32 16#32)

/-- `%25`: `(pos / 1) mod 16`. -/
def colRaw (F : FTy → Type) [FloatOps F] : IVec S136 32 :=
  remainder (floorDivide (pos F) (constantI S_ 32 1#32)) (constantI S_ 32 16#32)

/-- `%30`: the first channel index of each of the 136 pairs.  A closed term: it does not depend on the input. -/
def rowIdx (F : FTy → Type) [FloatOps F] : IVec S136 32 :=
  normIdx (rowRaw F)

/-- `%37`: the second channel index of each of the 136 pairs.  A closed term: it does not depend on the input. -/
def colIdx (F : FTy → Type) [FloatOps F] : IVec S136 32 :=
  normIdx (colRaw F)

/-- `%43`: per head and position, the product of the channel at `rowIdx` and the channel at `colIdx`, the 136 products
    of the 4 heads laid out as `544 = 4 × 136` channels, moved back in front of the position, the position split as `96 × 96`. -/
def result (x : (⟨S16x64x96x96, .f32⟩ : BufTy).Contents (Elt F)) : (⟨S16x544x96x96, .f32⟩ : BufTy).Contents (Elt F) :=
  shapeCast S16x544x96x96
    (transpose S16x544x9216 [0, 2, 1]
      (shapeCast S16x9216x544
        (mulf
          (Host.gather gather_S16x9216x4x16_S136x1_S16x9216x4x136_012_3_n_n_3_1_16921641 (heads x)
            (broadcastInDim S136x1 ![0] bcast_S136_S136x1_0 (rowIdx F)))
          (Host.gather gather_S16x9216x4x16_S136x1_S16x9216x4x136_012_3_n_n_3_1_16921641 (heads x)
            (broadcastInDim S136x1 ![0] bcast_S136_S136x1_0 (colIdx F))))
        shapeCasts_S16x9216x4x136_S16x9216x544)
      transposes_S16x9216x544_S16x544x9216_0_2_1)
    shapeCasts_S16x544x9216_S16x544x96x96

end Cert.ReferenceIdeal.RefRun

end
-- ==== Proof.RefRun.lean ====
/-
  The reference's run, read back.

  The reference program is a host program with no kernel launch: a straight line of 145 tensor operations once the
  calls of its functions are unfolded.  This module lists those operations, shows that the program is that line, and
  reads the line back: every weakly fair execution terminates, without a fault, with the result buffer holding the
  operations' composition `result` (the pure terms of the module it imports) applied to the argument array, and
  the argument array unchanged.  It holds for any float values `F`.
-/
import proofs.«108151_j54528904790278_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The program as a list of operations

First as the program prints it — each call unfolded at its call site, the callee's operations over the call's buffer
record, stated through typed references —, then over the plain builders at the same buffers, which is the form the
read-back below computes with.  The two lists are equal operation by operation: a typed reference made of a literal
buffer carries that buffer's own type, so its transports are the identity. -/

/-- @main's 145 operations in order, each call unfolded at its call site, as printed. -/
abbrev opsT : List (HloOp τ sig (Elt F)) :=
  [ StableHlo.reshape main_arg0 main_v0 rfl shapeCasts_S16x64x96x96_S16x16x4x96x96,
    StableHlo.unary main_v0 main_v1 ((transpose S16x4x16x96x96 [0, 2, 1, 3, 4] · transposes_S16x16x4x96x96_S16x4x16x96x96_0_2_1_3_4) : (⟨S16x16x4x96x96, .f32⟩ : BufTy).Contents (Elt F) → (⟨S16x4x16x96x96, .f32⟩ : BufTy).Contents (Elt F)),
    StableHlo.reshape main_v1 main_v2 rfl shapeCasts_S16x4x16x96x96_S16x64x96x96,
    StableHlo.reshape main_v2 main_v3 rfl shapeCasts_S16x64x96x96_S16x64x9216,
    StableHlo.unary main_v3 main_v4 ((transpose S16x9216x64 [0, 2, 1] · transposes_S16x64x9216_S16x9216x64_0_2_1) : (⟨S16x64x9216, .f32⟩ : BufTy).Contents (Elt F) → (⟨S16x9216x64, .f32⟩ : BufTy).Contents (Elt F)),
    StableHlo.reshape main_v4 main_v5 rfl shapeCasts_S16x9216x64_S16x9216x4x16,
    StableHlo.nullary main_cst (constant S_ .f32 0x3F800000#32),
    StableHlo.unary main_cst main_v6 (broadcastInDim S16x16 ![] bcast_S_S16x16 : (⟨S_, .f32⟩ : BufTy).Contents (Elt F) → (⟨S16x16, .f32⟩ : BufTy).Contents (Elt F)),
    StableHlo.TRef.nullary main_call0.v0 (iotaInDim S16x16 32 0),
    StableHlo.TRef.nullary main_call0.c (constantI S_ 32 4294967295#32),
    StableHlo.TRef.unary main_call0.c main_call0.v1 (broadcastInDim S16x16 ![] bcast_S_S16x16),
    StableHlo.TRef.binary main_call0.v0 main_call0.v1 main_call0.v2 addi,
    StableHlo.TRef.nullary main_call0.v3 (iotaInDim S16x16 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S16x16 ![] bcast_S_S16x16),
    StableHlo.TRef.ternary main_call0.v4 main_call0.v5 (.of main_v6 : StableHlo.TRef sig ⟨S16x16, .f32⟩) main_call0.v6 select,
    StableHlo.nullary main_cst_0 (constant S_ .f32 0x00000000#32),
    StableHlo.unary main_cst_0 main_v8 (broadcastInDim S16x16 ![] bcast_S_S16x16 : (⟨S_, .f32⟩ : BufTy).Contents (Elt F) → (⟨S16x16, .f32⟩ : BufTy).Contents (Elt F)),
    StableHlo.binary main_v7 main_v8 main_v9 (cmpf .une : (⟨S16x16, .f32⟩ : BufTy).Contents (Elt F) → (⟨S16x16, .f32⟩ : BufTy).Contents (Elt F) → (⟨S16x16, .i1⟩ : BufTy).Contents (Elt F)),
    StableHlo.TRef.reshape (.of main_v9 : StableHlo.TRef sig ⟨S16x16, .i1⟩) main_call1.v0 rfl shapeCasts_S16x16_S256,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![256] ![1] ![255] ![0] x v reduceWindows_S256_S256_w256s1p255_0 h_S_),
    StableHlo.nullary main_c (constantI S_ 32 0#32),
    StableHlo.unary main_c main_v11 (broadcastInDim S136 ![] bcast_S_S136 : (⟨S_, .i32⟩ : BufTy).Contents (Elt F) → (⟨S136, .i32⟩ : BufTy).Contents (Elt F)),
    StableHlo.nullary main_c_1 (constantI S_ 32 0#32),
    StableHlo.TRef.unary (.of main_c_1 : StableHlo.TRef sig ⟨S_, .i32⟩) main_call2.v0 id,
    StableHlo.TRef.unary main_call2.v0 main_call2.v1 (broadcastInDim S256 ![] bcast_S_S256),
    StableHlo.TRef.binary main_call2.v1 (.of main_v10 : StableHlo.TRef sig ⟨S256, .i32⟩) main_call2.v2 maxsi,
    StableHlo.nullary main_c_2 (constantI S_ 32 0#32),
    StableHlo.unary main_c_2 main_v13 (broadcastInDim S256 ![] bcast_S_S256 : (⟨S_, .i32⟩ : BufTy).Contents (Elt F) → (⟨S256, .i32⟩ : BufTy).Contents (Elt F)),
    StableHlo.binary main_v12 main_v13 main_v14 (cmpi .slt : (⟨S256, .i32⟩ : BufTy).Contents (Elt F) → (⟨S256, .i32⟩ : BufTy).Contents (Elt F) → (⟨S256, .i1⟩ : BufTy).Contents (Elt F)),
    StableHlo.nullary main_c_3 (constantI S_ 32 136#32),
    StableHlo.unary main_c_3 main_v15 (broadcastInDim S256 ![] bcast_S_S256 : (⟨S_, .i32⟩ : BufTy).Contents (Elt F) → (⟨S256, .i32⟩ : BufTy).Contents (Elt F)),
    StableHlo.binary main_v12 main_v15 main_v16 (addi : (⟨S256, .i32⟩ : BufTy).Contents (Elt F) → (⟨S256, .i32⟩ : BufTy).Contents (Elt F) → (⟨S256, .i32⟩ : BufTy).Contents (Elt F)),
    StableHlo.ternary main_v14 main_v16 main_v12 main_v17 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v17 main_v18 (broadcastInDim S256x1 ![0] bcast_S256_S256x1_0 : (⟨S256, .i32⟩ : BufTy).Contents (Elt F) → (⟨S256x1, .i32⟩ : BufTy).Contents (Elt F)),
    StableHlo.nullary main_c_4 (constantI S_ 32 1#32),
    StableHlo.unary main_c_4 main_v19 (broadcastInDim S256 ![] bcast_S_S256 : (⟨S_, .i32⟩ : BufTy).Contents (Elt F) → (⟨S256, .i32⟩ : BufTy).Contents (Elt F)),
    StableHlo.ternary main_v11 main_v18 main_v19 main_v20 ((fun x i u => Host.scatter scatter_S136_S256x1_S256_n_0_0_1 IntOp.addi x i u) : (⟨S136, .i32⟩ : BufTy).Contents (Elt F) → (⟨S256x1, .i32⟩ : BufTy).Contents (Elt F) → (⟨S256, .i32⟩ : BufTy).Contents (Elt F) → (⟨S136, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v20 : StableHlo.TRef sig ⟨S136, .i32⟩) main_call3.call0.v0 main_call3.call0.v1 (fun x v => Host.reduceWindow IntOp.addi ![136] ![1] ![135] ![0] x v reduceWindows_S136_S136_w136s1p135_0 h_S_),
    StableHlo.nullary main_c_5 (constantI S_ 32 16#32),
    StableHlo.TRef.unary (.of main_c_5 : StableHlo.TRef sig ⟨S_, .i32⟩) main_call4.v0 (broadcastInDim S136 ![] bcast_S_S136),
    StableHlo.TRef.binary (.of main_v21 : StableHlo.TRef sig ⟨S136, .i32⟩) main_call4.v0 main_call4.v1 Host.divsi,
    StableHlo.TRef.unary (.of main_v21 : StableHlo.TRef sig ⟨S136, .i32⟩) main_call4.v2 signi,
    StableHlo.TRef.unary (.of main_c_5 : StableHlo.TRef sig ⟨S_, .i32⟩) main_call4.v3 signi,
    StableHlo.TRef.unary main_call4.v3 main_call4.v4 (broadcastInDim S136 ![] bcast_S_S136),
    StableHlo.TRef.binary main_call4.v2 main_call4.v4 main_call4.v5 (cmpi .ne),
    StableHlo.TRef.unary (.of main_c_5 : StableHlo.TRef sig ⟨S_, .i32⟩) main_call4.v6 (broadcastInDim S136 ![] bcast_S_S136),
    StableHlo.TRef.binary (.of main_v21 : StableHlo.TRef sig ⟨S136, .i32⟩) main_call4.v6 main_call4.v7 Host.remsi,
    StableHlo.TRef.nullary main_call4.c (constantI S_ 32 0#32),
    StableHlo.TRef.unary main_call4.c main_call4.v8 (broadcastInDim S136 ![] bcast_S_S136),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S136 ![] bcast_S_S136),
    StableHlo.TRef.binary main_call4.v1 main_call4.v11 main_call4.v12 subi,
    StableHlo.TRef.ternary main_call4.v10 main_call4.v12 main_call4.v1 main_call4.call0.v0 select,
    StableHlo.nullary main_c_6 (constantI S_ 32 16#32),
    StableHlo.TRef.unary (.of main_c_6 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S136 ![] bcast_S_S136),
    StableHlo.TRef.binary (.of main_v22 : StableHlo.TRef sig ⟨S136, .i32⟩) main_call5.v3 main_call5.v4 Host.remsi,
    StableHlo.TRef.nullary main_call5.c_1 (constantI S_ 32 0#32),
    StableHlo.TRef.unary main_call5.c_1 main_call5.v5 (broadcastInDim S136 ![] bcast_S_S136),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S136 ![] bcast_S_S136),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S136 ![] bcast_S_S136),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S136 ![] bcast_S_S136),
    StableHlo.TRef.binary main_call5.v4 main_call5.v13 main_call5.v14 addi,
    StableHlo.TRef.ternary main_call5.v12 main_call5.v14 main_call5.v4 main_call5.v15 select,
    StableHlo.nullary main_c_7 (constantI S_ 32 1#32),
    StableHlo.TRef.unary (.of main_c_7 : StableHlo.TRef sig ⟨S_, .i32⟩) main_call6.v0 (broadcastInDim S136 ![] bcast_S_S136),
    StableHlo.TRef.binary (.of main_v21 : StableHlo.TRef sig ⟨S136, .i32⟩) main_call6.v0 main_call6.v1 Host.divsi,
    StableHlo.TRef.unary (.of main_v21 : StableHlo.TRef sig ⟨S136, .i32⟩) main_call6.v2 signi,
    StableHlo.TRef.unary (.of main_c_7 : StableHlo.TRef sig ⟨S_, .i32⟩) main_call6.v3 signi,
    StableHlo.TRef.unary main_call6.v3 main_call6.v4 (broadcastInDim S136 ![] bcast_S_S136),
    StableHlo.TRef.binary main_call6.v2 main_call6.v4 main_call6.v5 (cmpi .ne),
    StableHlo.TRef.unary (.of main_c_7 : StableHlo.TRef sig ⟨S_, .i32⟩) main_call6.v6 (broadcastInDim S136 ![] bcast_S_S136),
    StableHlo.TRef.binary (.of main_v21 : StableHlo.TRef sig ⟨S136, .i32⟩) main_call6.v6 main_call6.v7 Host.remsi,
    StableHlo.TRef.nullary main_call6.c (constantI S_ 32 0#32),
    StableHlo.TRef.unary main_call6.c main_call6.v8 (broadcastInDim S136 ![] bcast_S_S136),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S136 ![] bcast_S_S136),
    StableHlo.TRef.binary main_call6.v1 main_call6.v11 main_call6.v12 subi,
    StableHlo.TRef.ternary main_call6.v10 main_call6.v12 main_call6.v1 main_call6.call0.v0 select,
    StableHlo.nullary main_c_8 (constantI S_ 32 16#32),
    StableHlo.TRef.unary (.of main_c_8 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S136 ![] bcast_S_S136),
    StableHlo.TRef.binary (.of main_v24 : StableHlo.TRef sig ⟨S136, .i32⟩) main_call7.v3 main_call7.v4 Host.remsi,
    StableHlo.TRef.nullary main_call7.c_1 (constantI S_ 32 0#32),
    StableHlo.TRef.unary main_call7.c_1 main_call7.v5 (broadcastInDim S136 ![] bcast_S_S136),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S136 ![] bcast_S_S136),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S136 ![] bcast_S_S136),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S136 ![] bcast_S_S136),
    StableHlo.TRef.binary main_call7.v4 main_call7.v13 main_call7.v14 addi,
    StableHlo.TRef.ternary main_call7.v12 main_call7.v14 main_call7.v4 main_call7.v15 select,
    StableHlo.nullary main_c_9 (constantI S_ 32 0#32),
    StableHlo.unary main_c_9 main_v26 (broadcastInDim S136 ![] bcast_S_S136 : (⟨S_, .i32⟩ : BufTy).Contents (Elt F) → (⟨S136, .i32⟩ : BufTy).Contents (Elt F)),
    StableHlo.binary main_v23 main_v26 main_v27 (cmpi .slt : (⟨S136, .i32⟩ : BufTy).Contents (Elt F) → (⟨S136, .i32⟩ : BufTy).Contents (Elt F) → (⟨S136, .i1⟩ : BufTy).Contents (Elt F)),
    StableHlo.nullary main_c_10 (constantI S_ 32 16#32),
    StableHlo.unary main_c_10 main_v28 (broadcastInDim S136 ![] bcast_S_S136 : (⟨S_, .i32⟩ : BufTy).Contents (Elt F) → (⟨S136, .i32⟩ : BufTy).Contents (Elt F)),
    StableHlo.binary main_v23 main_v28 main_v29 (addi : (⟨S136, .i32⟩ : BufTy).Contents (Elt F) → (⟨S136, .i32⟩ : BufTy).Contents (Elt F) → (⟨S136, .i32⟩ : BufTy).Contents (Elt F)),
    StableHlo.ternary main_v27 main_v29 main_v23 main_v30 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.unary main_v30 main_v31 (broadcastInDim S136x1 ![0] bcast_S136_S136x1_0 : (⟨S136, .i32⟩ : BufTy).Contents (Elt F) → (⟨S136x1, .i32⟩ : BufTy).Contents (Elt F)),
    StableHlo.binary main_v5 main_v31 main_v32 ((fun x i => Host.gather gather_S16x9216x4x16_S136x1_S16x9216x4x136_012_3_n_n_3_1_16921641 x i) : (⟨S16x9216x4x16, .f32⟩ : BufTy).Contents (Elt F) → (⟨S136x1, .i32⟩ : BufTy).Contents (Elt F) → (⟨S16x9216x4x136, .f32⟩ : BufTy).Contents (Elt F)),
    StableHlo.nullary main_c_11 (constantI S_ 32 0#32),
    StableHlo.unary main_c_11 main_v33 (broadcastInDim S136 ![] bcast_S_S136 : (⟨S_, .i32⟩ : BufTy).Contents (Elt F) → (⟨S136, .i32⟩ : BufTy).Contents (Elt F)),
    StableHlo.binary main_v25 main_v33 main_v34 (cmpi .slt : (⟨S136, .i32⟩ : BufTy).Contents (Elt F) → (⟨S136, .i32⟩ : BufTy).Contents (Elt F) → (⟨S136, .i1⟩ : BufTy).Contents (Elt F)),
    StableHlo.nullary main_c_12 (constantI S_ 32 16#32),
    StableHlo.unary main_c_12 main_v35 (broadcastInDim S136 ![] bcast_S_S136 : (⟨S_, .i32⟩ : BufTy).Contents (Elt F) → (⟨S136, .i32⟩ : BufTy).Contents (Elt F)),
    StableHlo.binary main_v25 main_v35 main_v36 (addi : (⟨S136, .i32⟩ : BufTy).Contents (Elt F) → (⟨S136, .i32⟩ : BufTy).Contents (Elt F) → (⟨S136, .i32⟩ : BufTy).Contents (Elt F)),
    StableHlo.ternary main_v34 main_v36 main_v25 main_v37 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.unary main_v37 main_v38 (broadcastInDim S136x1 ![0] bcast_S136_S136x1_0 : (⟨S136, .i32⟩ : BufTy).Contents (Elt F) → (⟨S136x1, .i32⟩ : BufTy).Contents (Elt F)),
    StableHlo.binary main_v5 main_v38 main_v39 ((fun x i => Host.gather gather_S16x9216x4x16_S136x1_S16x9216x4x136_012_3_n_n_3_1_16921641 x i) : (⟨S16x9216x4x16, .f32⟩ : BufTy).Contents (Elt F) → (⟨S136x1, .i32⟩ : BufTy).Contents (Elt F) → (⟨S16x9216x4x136, .f32⟩ : BufTy).Contents (Elt F)),
    StableHlo.binary main_v32 main_v39 main_v40 (mulf : (⟨S16x9216x4x136, .f32⟩ : BufTy).Contents (Elt F) → (⟨S16x9216x4x136, .f32⟩ : BufTy).Contents (Elt F) → (⟨S16x9216x4x136, .f32⟩ : BufTy).Contents (Elt F)),
    StableHlo.reshape main_v40 main_v41 rfl shapeCasts_S16x9216x4x136_S16x9216x544,
    StableHlo.unary main_v41 main_v42 ((transpose S16x544x9216 [0, 2, 1] · transposes_S16x9216x544_S16x544x9216_0_2_1) : (⟨S16x9216x544, .f32⟩ : BufTy).Contents (Elt F) → (⟨S16x544x9216, .f32⟩ : BufTy).Contents (Elt F)),
    StableHlo.reshape main_v42 main_v43 rfl shapeCasts_S16x544x9216_S16x544x96x96 ]

set_option maxRecDepth 8192 in
set_option maxHeartbeats 4000000 in
/-- @main is that straight line: the functions' bodies unfolded at their calls, the sequencing reassociated. -/
theorem main_eqT (c : Dev nD) : main (F := F) c = seq opsT := by
  simp only [main, fn_triu.body, fn_cumsum_0.body, fn_cumsum.body, fn_clip.body, fn_cumsum_2.body, fn_cumsum_1.body, fn_where.body, fn_floor_divide.body, fn_where_3.body, fn_remainder.body, seq, bind_assoc, pure_bind]

/-! ### A typed builder at literal buffers is the plain builder -/

theorem tref_nullary (y : Ref sig .tc) (h2 : y.space ≠ .host) (h3 : y.isScoped = false) (v : y.ty.Contents (Elt F)) :
    TRef.nullary (τ := τ) (TRef.of y rfl h2 h3) v
      = StableHlo.nullary y v (TRef.dev (τ := τ) (TRef.of y rfl h2 h3)) := rfl

theorem tref_unary (x y : Ref sig .tc) (hx2 : x.space ≠ .host) (hx3 : x.isScoped = false)
    (hy2 : y.space ≠ .host) (hy3 : y.isScoped = false) (f : x.ty.Contents (Elt F) → y.ty.Contents (Elt F)) :
    TRef.unary (τ := τ) (TRef.of x rfl hx2 hx3) (TRef.of y rfl hy2 hy3) f
      = StableHlo.unary x y f (TRef.dev (τ := τ) (TRef.of x rfl hx2 hx3)) (TRef.dev (τ := τ) (TRef.of y rfl hy2 hy3)) := rfl

theorem tref_binary (a b y : Ref sig .tc) (ha2 : a.space ≠ .host) (ha3 : a.isScoped = false)
    (hb2 : b.space ≠ .host) (hb3 : b.isScoped = false) (hy2 : y.space ≠ .host) (hy3 : y.isScoped = false)
    (f : a.ty.Contents (Elt F) → b.ty.Contents (Elt F) → y.ty.Contents (Elt F)) :
    TRef.binary (τ := τ) (TRef.of a rfl ha2 ha3) (TRef.of b rfl hb2 hb3) (TRef.of y rfl hy2 hy3) f
      = StableHlo.binary a b y f (TRef.dev (τ := τ) (TRef.of a rfl ha2 ha3)) (TRef.dev (τ := τ) (TRef.of b rfl hb2 hb3))
          (TRef.dev (τ := τ) (TRef.of y rfl hy2 hy3)) := rfl

theorem tref_ternary (c a b y : Ref sig .tc) (hc2 : c.space ≠ .host) (hc3 : c.isScoped = false)
    (ha2 : a.space ≠ .host) (ha3 : a.isScoped = false) (hb2 : b.space ≠ .host) (hb3 : b.isScoped = false)
    (hy2 : y.space ≠ .host) (hy3 : y.isScoped = false)
    (f : c.ty.Contents (Elt F) → a.ty.Contents (Elt F) → b.ty.Contents (Elt F) → y.ty.Contents (Elt F)) :
    TRef.ternary (τ := τ) (TRef.of c rfl hc2 hc3) (TRef.of a rfl ha2 ha3) (TRef.of b rfl hb2 hb3) (TRef.of y rfl hy2 hy3) f
      = StableHlo.ternary c a b y f (TRef.dev (τ := τ) (TRef.of c rfl hc2 hc3)) (TRef.dev (τ := τ) (TRef.of a rfl ha2 ha3))
          (TRef.dev (τ := τ) (TRef.of b rfl hb2 hb3)) (TRef.dev (τ := τ) (TRef.of y rfl hy2 hy3)) := rfl

theorem tref_reshape (x y : Ref sig .tc) (hx2 : x.space ≠ .host) (hx3 : x.isScoped = false)
    (hy2 : y.space ≠ .host) (hy3 : y.isScoped = false) (he : x.ty.elt = y.ty.elt) (hn : x.ty.shape.ShapeCasts y.ty.shape) :
    TRef.reshape (τ := τ) (Val := Elt F) (TRef.of x rfl hx2 hx3) (TRef.of y rfl hy2 hy3) he hn
      = StableHlo.reshape x y he hn (TRef.dev (τ := τ) (TRef.of x rfl hx2 hx3)) (TRef.dev (τ := τ) (TRef.of y rfl hy2 hy3)) := rfl

theorem cons_eq {α : Type} {a b : α} {l m : List α} (h : a = b) (t : l = m) : a :: l = b :: m := by
  subst h; subst t; rfl

/-- The same 145 operations over the plain builders. -/
abbrev ops : List (HloOp τ sig (Elt F)) :=
  [ StableHlo.reshape main_arg0 main_v0 rfl shapeCasts_S16x64x96x96_S16x16x4x96x96,
    StableHlo.unary main_v0 main_v1 ((transpose S16x4x16x96x96 [0, 2, 1, 3, 4] · transposes_S16x16x4x96x96_S16x4x16x96x96_0_2_1_3_4) : (⟨S16x16x4x96x96, .f32⟩ : BufTy).Contents (Elt F) → (⟨S16x4x16x96x96, .f32⟩ : BufTy).Contents (Elt F)),
    StableHlo.reshape main_v1 main_v2 rfl shapeCasts_S16x4x16x96x96_S16x64x96x96,
    StableHlo.reshape main_v2 main_v3 rfl shapeCasts_S16x64x96x96_S16x64x9216,
    StableHlo.unary main_v3 main_v4 ((transpose S16x9216x64 [0, 2, 1] · transposes_S16x64x9216_S16x9216x64_0_2_1) : (⟨S16x64x9216, .f32⟩ : BufTy).Contents (Elt F) → (⟨S16x9216x64, .f32⟩ : BufTy).Contents (Elt F)),
    StableHlo.reshape main_v4 main_v5 rfl shapeCasts_S16x9216x64_S16x9216x4x16,
    StableHlo.nullary main_cst (constant S_ .f32 0x3F800000#32),
    StableHlo.unary main_cst main_v6 (broadcastInDim S16x16 ![] bcast_S_S16x16 : (⟨S_, .f32⟩ : BufTy).Contents (Elt F) → (⟨S16x16, .f32⟩ : BufTy).Contents (Elt F)),
    StableHlo.nullary main_call0_v0 ((iotaInDim S16x16 32 0) : (⟨S16x16, .i32⟩ : BufTy).Contents (Elt F)),
    StableHlo.nullary main_call0_c ((constantI S_ 32 4294967295#32) : (⟨S_, .i32⟩ : BufTy).Contents (Elt F)),
    StableHlo.unary main_call0_c main_call0_v1 ((broadcastInDim S16x16 ![] bcast_S_S16x16) : (⟨S_, .i32⟩ : BufTy).Contents (Elt F) → (⟨S16x16, .i32⟩ : BufTy).Contents (Elt F)),
    StableHlo.binary main_call0_v0 main_call0_v1 main_call0_v2 (addi : (⟨S16x16, .i32⟩ : BufTy).Contents (Elt F) → (⟨S16x16, .i32⟩ : BufTy).Contents (Elt F) → (⟨S16x16, .i32⟩ : BufTy).Contents (Elt F)),
    StableHlo.nullary main_call0_v3 ((iotaInDim S16x16 32 1) : (⟨S16x16, .i32⟩ : BufTy).Contents (Elt F)),
    StableHlo.binary main_call0_v2 main_call0_v3 main_call0_v4 ((cmpi .sge) : (⟨S16x16, .i32⟩ : BufTy).Contents (Elt F) → (⟨S16x16, .i32⟩ : BufTy).Contents (Elt F) → (⟨S16x16, .i1⟩ : BufTy).Contents (Elt F)),
    StableHlo.nullary main_call0_cst ((constant S_ .f32 0x00000000#32) : (⟨S_, .f32⟩ : BufTy).Contents (Elt F)),
    StableHlo.unary main_call0_cst main_call0_v5 ((broadcastInDim S16x16 ![] bcast_S_S16x16) : (⟨S_, .f32⟩ : BufTy).Contents (Elt F) → (⟨S16x16, .f32⟩ : BufTy).Contents (Elt F)),
    StableHlo.ternary main_call0_v4 main_call0_v5 main_v6 main_v7 (select : (⟨S16x16, .i1⟩ : BufTy).Contents (Elt F) → (⟨S16x16, .f32⟩ : BufTy).Contents (Elt F) → (⟨S16x16, .f32⟩ : BufTy).Contents (Elt F) → (⟨S16x16, .f32⟩ : BufTy).Contents (Elt F)),
    StableHlo.nullary main_cst_0 (constant S_ .f32 0x00000000#32),
    StableHlo.unary main_cst_0 main_v8 (broadcastInDim S16x16 ![] bcast_S_S16x16 : (⟨S_, .f32⟩ : BufTy).Contents (Elt F) → (⟨S16x16, .f32⟩ : BufTy).Contents (Elt F)),
    StableHlo.binary main_v7 main_v8 main_v9 (cmpf .une : (⟨S16x16, .f32⟩ : BufTy).Contents (Elt F) → (⟨S16x16, .f32⟩ : BufTy).Contents (Elt F) → (⟨S16x16, .i1⟩ : BufTy).Contents (Elt F)),
    StableHlo.reshape main_v9 main_call1_v0 rfl shapeCasts_S16x16_S256,
    StableHlo.unary main_call1_v0 main_call1_v1 ((extui 32 · natLt_1_32) : (⟨S256, .i1⟩ : BufTy).Contents (Elt F) → (⟨S256, .i32⟩ : BufTy).Contents (Elt F)),
    StableHlo.nullary main_call1_call0_c ((constantI S_ 32 0#32) : (⟨S_, .i32⟩ : BufTy).Contents (Elt F)),
    StableHlo.unary main_call1_call0_c main_call1_call0_v0 ((broadcastInDim S_ ![] bcast_S_S_) : (⟨S_, .i32⟩ : BufTy).Contents (Elt F) → (⟨S_, .i32⟩ : BufTy).Contents (Elt F)),
    StableHlo.binary main_call1_v1 main_call1_call0_v0 main_v10 ((fun x v => Host.reduceWindow IntOp.addi ![256] ![1] ![255] ![0] x v reduceWindows_S256_S256_w256s1p255_0 h_S_) : (⟨S256, .i32⟩ : BufTy).Contents (Elt F) → (⟨S_, .i32⟩ : BufTy).Contents (Elt F) → (⟨S256, .i32⟩ : BufTy).Contents (Elt F)),
    StableHlo.nullary main_c (constantI S_ 32 0#32),
    StableHlo.unary main_c main_v11 (broadcastInDim S136 ![] bcast_S_S136 : (⟨S_, .i32⟩ : BufTy).Contents (Elt F) → (⟨S136, .i32⟩ : BufTy).Contents (Elt F)),
    StableHlo.nullary main_c_1 (constantI S_ 32 0#32),
    StableHlo.unary main_c_1 main_call2_v0 (id : (⟨S_, .i32⟩ : BufTy).Contents (Elt F) → (⟨S_, .i32⟩ : BufTy).Contents (Elt F)),
    StableHlo.unary main_call2_v0 main_call2_v1 ((broadcastInDim S256 ![] bcast_S_S256) : (⟨S_, .i32⟩ : BufTy).Contents (Elt F) → (⟨S256, .i32⟩ : BufTy).Contents (Elt F)),
    StableHlo.binary main_call2_v1 main_v10 main_v12 (maxsi : (⟨S256, .i32⟩ : BufTy).Contents (Elt F) → (⟨S256, .i32⟩ : BufTy).Contents (Elt F) → (⟨S256, .i32⟩ : BufTy).Contents (Elt F)),
    StableHlo.nullary main_c_2 (constantI S_ 32 0#32),
    StableHlo.unary main_c_2 main_v13 (broadcastInDim S256 ![] bcast_S_S256 : (⟨S_, .i32⟩ : BufTy).Contents (Elt F) → (⟨S256, .i32⟩ : BufTy).Contents (Elt F)),
    StableHlo.binary main_v12 main_v13 main_v14 (cmpi .slt : (⟨S256, .i32⟩ : BufTy).Contents (Elt F) → (⟨S256, .i32⟩ : BufTy).Contents (Elt F) → (⟨S256, .i1⟩ : BufTy).Contents (Elt F)),
    StableHlo.nullary main_c_3 (constantI S_ 32 136#32),
    StableHlo.unary main_c_3 main_v15 (broadcastInDim S256 ![] bcast_S_S256 : (⟨S_, .i32⟩ : BufTy).Contents (Elt F) → (⟨S256, .i32⟩ : BufTy).Contents (Elt F)),
    StableHlo.binary main_v12 main_v15 main_v16 (addi : (⟨S256, .i32⟩ : BufTy).Contents (Elt F) → (⟨S256, .i32⟩ : BufTy).Contents (Elt F) → (⟨S256, .i32⟩ : BufTy).Contents (Elt F)),
    StableHlo.ternary main_v14 main_v16 main_v12 main_v17 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    StableHlo.unary main_v17 main_v18 (broadcastInDim S256x1 ![0] bcast_S256_S256x1_0 : (⟨S256, .i32⟩ : BufTy).Contents (Elt F) → (⟨S256x1, .i32⟩ : BufTy).Contents (Elt F)),
    StableHlo.nullary main_c_4 (constantI S_ 32 1#32),
    StableHlo.unary main_c_4 main_v19 (broadcastInDim S256 ![] bcast_S_S256 : (⟨S_, .i32⟩ : BufTy).Contents (Elt F) → (⟨S256, .i32⟩ : BufTy).Contents (Elt F)),
    StableHlo.ternary main_v11 main_v18 main_v19 main_v20 ((fun x i u => Host.scatter scatter_S136_S256x1_S256_n_0_0_1 IntOp.addi x i u) : (⟨S136, .i32⟩ : BufTy).Contents (Elt F) → (⟨S256x1, .i32⟩ : BufTy).Contents (Elt F) → (⟨S256, .i32⟩ : BufTy).Contents (Elt F) → (⟨S136, .i32⟩ : BufTy).Contents (Elt F)),
    StableHlo.nullary main_call3_call0_c ((constantI S_ 32 0#32) : (⟨S_, .i32⟩ : BufTy).Contents (Elt F)),
    StableHlo.unary main_call3_call0_c main_call3_call0_v0 ((broadcastInDim S_ ![] bcast_S_S_) : (⟨S_, .i32⟩ : BufTy).Contents (Elt F) → (⟨S_, .i32⟩ : BufTy).Contents (Elt F)),
    StableHlo.binary main_v20 main_call3_call0_v0 main_v21 ((fun x v => Host.reduceWindow IntOp.addi ![136] ![1] ![135] ![0] x v reduceWindows_S136_S136_w136s1p135_0 h_S_) : (⟨S136, .i32⟩ : BufTy).Contents (Elt F) → (⟨S_, .i32⟩ : BufTy).Contents (Elt F) → (⟨S136, .i32⟩ : BufTy).Contents (Elt F)),
    StableHlo.nullary main_c_5 (constantI S_ 32 16#32),
    StableHlo.unary main_c_5 main_call4_v0 ((broadcastInDim S136 ![] bcast_S_S136) : (⟨S_, .i32⟩ : BufTy).Contents (Elt F) → (⟨S136, .i32⟩ : BufTy).Contents (Elt F)),
    StableHlo.binary main_v21 main_call4_v0 main_call4_v1 (Host.divsi : (⟨S136, .i32⟩ : BufTy).Contents (Elt F) → (⟨S136, .i32⟩ : BufTy).Contents (Elt F) → (⟨S136, .i32⟩ : BufTy).Contents (Elt F)),
    StableHlo.unary main_v21 main_call4_v2 (signi : (⟨S136, .i32⟩ : BufTy).Contents (Elt F) → (⟨S136, .i32⟩ : BufTy).Contents (Elt F)),
    StableHlo.unary main_c_5 main_call4_v3 (signi : (⟨S_, .i32⟩ : BufTy).Contents (Elt F) → (⟨S_, .i32⟩ : BufTy).Contents (Elt F)),
    StableHlo.unary main_call4_v3 main_call4_v4 ((broadcastInDim S136 ![] bcast_S_S136) : (⟨S_, .i32⟩ : BufTy).Contents (Elt F) → (⟨S136, .i32⟩ : BufTy).Contents (Elt F)),
    StableHlo.binary main_call4_v2 main_call4_v4 main_call4_v5 ((cmpi .ne) : (⟨S136, .i32⟩ : BufTy).Contents (Elt F) → (⟨S136, .i32⟩ : BufTy).Contents (Elt F) → (⟨S136, .i1⟩ : BufTy).Contents (Elt F)),
    StableHlo.unary main_c_5 main_call4_v6 ((broadcastInDim S136 ![] bcast_S_S136) : (⟨S_, .i32⟩ : BufTy).Contents (Elt F) → (⟨S136, .i32⟩ : BufTy).Contents (Elt F)),
    StableHlo.binary main_v21 main_call4_v6 main_call4_v7 (Host.remsi : (⟨S136, .i32⟩ : BufTy).Contents (Elt F) → (⟨S136, .i32⟩ : BufTy).Contents (Elt F) → (⟨S136, .i32⟩ : BufTy).Contents (Elt F)),
    StableHlo.nullary main_call4_c ((constantI S_ 32 0#32) : (⟨S_, .i32⟩ : BufTy).Contents (Elt F)),
    StableHlo.unary main_call4_c main_call4_v8 ((broadcastInDim S136 ![] bcast_S_S136) : (⟨S_, .i32⟩ : BufTy).Contents (Elt F) → (⟨S136, .i32⟩ : BufTy).Contents (Elt F)),
    StableHlo.binary main_call4_v7 main_call4_v8 main_call4_v9 ((cmpi .ne) : (⟨S136, .i32⟩ : BufTy).Contents (Elt F) → (⟨S136, .i32⟩ : BufTy).Contents (Elt F) → (⟨S136, .i1⟩ : BufTy).Contents (Elt F)),
    StableHlo.binary main_call4_v5 main_call4_v9 main_call4_v10 (andi : (⟨S136, .i1⟩ : BufTy).Contents (Elt F) → (⟨S136, .i1⟩ : BufTy).Contents (Elt F) → (⟨S136, .i1⟩ : BufTy).Contents (Elt F)),
    StableHlo.nullary main_call4_c_0 ((constantI S_ 32 1#32) : (⟨S_, .i32⟩ : BufTy).Contents (Elt F)),
    StableHlo.unary main_call4_c_0 main_call4_v11 ((broadcastInDim S136 ![] bcast_S_S136) : (⟨S_, .i32⟩ : BufTy).Contents (Elt F) → (⟨S136, .i32⟩ : BufTy).Contents (Elt F)),
    StableHlo.binary main_call4_v1 main_call4_v11 main_call4_v12 (subi : (⟨S136, .i32⟩ : BufTy).Contents (Elt F) → (⟨S136, .i32⟩ : BufTy).Contents (Elt F) → (⟨S136, .i32⟩ : BufTy).Contents (Elt F)),
    StableHlo.ternary main_call4_v10 main_call4_v12 main_call4_v1 main_v22 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.nullary main_c_6 (constantI S_ 32 16#32),
    StableHlo.unary main_c_6 main_call5_v0 (id : (⟨S_, .i32⟩ : BufTy).Contents (Elt F) → (⟨S_, .i32⟩ : BufTy).Contents (Elt F)),
    StableHlo.nullary main_call5_c ((constantI S_ 32 0#32) : (⟨S_, .i32⟩ : BufTy).Contents (Elt F)),
    StableHlo.binary main_call5_v0 main_call5_c main_call5_v1 ((cmpi .eq) : (⟨S_, .i32⟩ : BufTy).Contents (Elt F) → (⟨S_, .i32⟩ : BufTy).Contents (Elt F) → (⟨S_, .i1⟩ : BufTy).Contents (Elt F)),
    StableHlo.nullary main_call5_c_0 ((constantI S_ 32 1#32) : (⟨S_, .i32⟩ : BufTy).Contents (Elt F)),
    StableHlo.ternary main_call5_v1 main_call5_c_0 main_call5_v0 main_call5_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call5_v2 main_call5_v3 ((broadcastInDim S136 ![] bcast_S_S136) : (⟨S_, .i32⟩ : BufTy).Contents (Elt F) → (⟨S136, .i32⟩ : BufTy).Contents (Elt F)),
    StableHlo.binary main_v22 main_call5_v3 main_call5_v4 (Host.remsi : (⟨S136, .i32⟩ : BufTy).Contents (Elt F) → (⟨S136, .i32⟩ : BufTy).Contents (Elt F) → (⟨S136, .i32⟩ : BufTy).Contents (Elt F)),
    StableHlo.nullary main_call5_c_1 ((constantI S_ 32 0#32) : (⟨S_, .i32⟩ : BufTy).Contents (Elt F)),
    StableHlo.unary main_call5_c_1 main_call5_v5 ((broadcastInDim S136 ![] bcast_S_S136) : (⟨S_, .i32⟩ : BufTy).Contents (Elt F) → (⟨S136, .i32⟩ : BufTy).Contents (Elt F)),
    StableHlo.binary main_call5_v4 main_call5_v5 main_call5_v6 ((cmpi .ne) : (⟨S136, .i32⟩ : BufTy).Contents (Elt F) → (⟨S136, .i32⟩ : BufTy).Contents (Elt F) → (⟨S136, .i1⟩ : BufTy).Contents (Elt F)),
    StableHlo.nullary main_call5_c_2 ((constantI S_ 32 0#32) : (⟨S_, .i32⟩ : BufTy).Contents (Elt F)),
    StableHlo.unary main_call5_c_2 main_call5_v7 ((broadcastInDim S136 ![] bcast_S_S136) : (⟨S_, .i32⟩ : BufTy).Contents (Elt F) → (⟨S136, .i32⟩ : BufTy).Contents (Elt F)),
    StableHlo.binary main_call5_v4 main_call5_v7 main_call5_v8 ((cmpi .slt) : (⟨S136, .i32⟩ : BufTy).Contents (Elt F) → (⟨S136, .i32⟩ : BufTy).Contents (Elt F) → (⟨S136, .i1⟩ : BufTy).Contents (Elt F)),
    StableHlo.nullary main_call5_c_3 ((constantI S_ 32 0#32) : (⟨S_, .i32⟩ : BufTy).Contents (Elt F)),
    StableHlo.binary main_call5_v2 main_call5_c_3 main_call5_v9 ((cmpi .slt) : (⟨S_, .i32⟩ : BufTy).Contents (Elt F) → (⟨S_, .i32⟩ : BufTy).Contents (Elt F) → (⟨S_, .i1⟩ : BufTy).Contents (Elt F)),
    StableHlo.unary main_call5_v9 main_call5_v10 ((broadcastInDim S136 ![] bcast_S_S136) : (⟨S_, .i1⟩ : BufTy).Contents (Elt F) → (⟨S136, .i1⟩ : BufTy).Contents (Elt F)),
    StableHlo.binary main_call5_v8 main_call5_v10 main_call5_v11 ((cmpi .ne) : (⟨S136, .i1⟩ : BufTy).Contents (Elt F) → (⟨S136, .i1⟩ : BufTy).Contents (Elt F) → (⟨S136, .i1⟩ : BufTy).Contents (Elt F)),
    StableHlo.binary main_call5_v11 main_call5_v6 main_call5_v12 (andi : (⟨S136, .i1⟩ : BufTy).Contents (Elt F) → (⟨S136, .i1⟩ : BufTy).Contents (Elt F) → (⟨S136, .i1⟩ : BufTy).Contents (Elt F)),
    StableHlo.unary main_call5_v2 main_call5_v13 ((broadcastInDim S136 ![] bcast_S_S136) : (⟨S_, .i32⟩ : BufTy).Contents (Elt F) → (⟨S136, .i32⟩ : BufTy).Contents (Elt F)),
    StableHlo.binary main_call5_v4 main_call5_v13 main_call5_v14 (addi : (⟨S136, .i32⟩ : BufTy).Contents (Elt F) → (⟨S136, .i32⟩ : BufTy).Contents (Elt F) → (⟨S136, .i32⟩ : BufTy).Contents (Elt F)),
    StableHlo.ternary main_call5_v12 main_call5_v14 main_call5_v4 main_v23 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.nullary main_c_7 (constantI S_ 32 1#32),
    StableHlo.unary main_c_7 main_call6_v0 ((broadcastInDim S136 ![] bcast_S_S136) : (⟨S_, .i32⟩ : BufTy).Contents (Elt F) → (⟨S136, .i32⟩ : BufTy).Contents (Elt F)),
    StableHlo.binary main_v21 main_call6_v0 main_call6_v1 (Host.divsi : (⟨S136, .i32⟩ : BufTy).Contents (Elt F) → (⟨S136, .i32⟩ : BufTy).Contents (Elt F) → (⟨S136, .i32⟩ : BufTy).Contents (Elt F)),
    StableHlo.unary main_v21 main_call6_v2 (signi : (⟨S136, .i32⟩ : BufTy).Contents (Elt F) → (⟨S136, .i32⟩ : BufTy).Contents (Elt F)),
    StableHlo.unary main_c_7 main_call6_v3 (signi : (⟨S_, .i32⟩ : BufTy).Contents (Elt F) → (⟨S_, .i32⟩ : BufTy).Contents (Elt F)),
    StableHlo.unary main_call6_v3 main_call6_v4 ((broadcastInDim S136 ![] bcast_S_S136) : (⟨S_, .i32⟩ : BufTy).Contents (Elt F) → (⟨S136, .i32⟩ : BufTy).Contents (Elt F)),
    StableHlo.binary main_call6_v2 main_call6_v4 main_call6_v5 ((cmpi .ne) : (⟨S136, .i32⟩ : BufTy).Contents (Elt F) → (⟨S136, .i32⟩ : BufTy).Contents (Elt F) → (⟨S136, .i1⟩ : BufTy).Contents (Elt F)),
    StableHlo.unary main_c_7 main_call6_v6 ((broadcastInDim S136 ![] bcast_S_S136) : (⟨S_, .i32⟩ : BufTy).Contents (Elt F) → (⟨S136, .i32⟩ : BufTy).Contents (Elt F)),
    StableHlo.binary main_v21 main_call6_v6 main_call6_v7 (Host.remsi : (⟨S136, .i32⟩ : BufTy).Contents (Elt F) → (⟨S136, .i32⟩ : BufTy).Contents (Elt F) → (⟨S136, .i32⟩ : BufTy).Contents (Elt F)),
    StableHlo.nullary main_call6_c ((constantI S_ 32 0#32) : (⟨S_, .i32⟩ : BufTy).Contents (Elt F)),
    StableHlo.unary main_call6_c main_call6_v8 ((broadcastInDim S136 ![] bcast_S_S136) : (⟨S_, .i32⟩ : BufTy).Contents (Elt F) → (⟨S136, .i32⟩ : BufTy).Contents (Elt F)),
    StableHlo.binary main_call6_v7 main_call6_v8 main_call6_v9 ((cmpi .ne) : (⟨S136, .i32⟩ : BufTy).Contents (Elt F) → (⟨S136, .i32⟩ : BufTy).Contents (Elt F) → (⟨S136, .i1⟩ : BufTy).Contents (Elt F)),
    StableHlo.binary main_call6_v5 main_call6_v9 main_call6_v10 (andi : (⟨S136, .i1⟩ : BufTy).Contents (Elt F) → (⟨S136, .i1⟩ : BufTy).Contents (Elt F) → (⟨S136, .i1⟩ : BufTy).Contents (Elt F)),
    StableHlo.nullary main_call6_c_0 ((constantI S_ 32 1#32) : (⟨S_, .i32⟩ : BufTy).Contents (Elt F)),
    StableHlo.unary main_call6_c_0 main_call6_v11 ((broadcastInDim S136 ![] bcast_S_S136) : (⟨S_, .i32⟩ : BufTy).Contents (Elt F) → (⟨S136, .i32⟩ : BufTy).Contents (Elt F)),
    StableHlo.binary main_call6_v1 main_call6_v11 main_call6_v12 (subi : (⟨S136, .i32⟩ : BufTy).Contents (Elt F) → (⟨S136, .i32⟩ : BufTy).Contents (Elt F) → (⟨S136, .i32⟩ : BufTy).Contents (Elt F)),
    StableHlo.ternary main_call6_v10 main_call6_v12 main_call6_v1 main_v24 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.nullary main_c_8 (constantI S_ 32 16#32),
    StableHlo.unary main_c_8 main_call7_v0 (id : (⟨S_, .i32⟩ : BufTy).Contents (Elt F) → (⟨S_, .i32⟩ : BufTy).Contents (Elt F)),
    StableHlo.nullary main_call7_c ((constantI S_ 32 0#32) : (⟨S_, .i32⟩ : BufTy).Contents (Elt F)),
    StableHlo.binary main_call7_v0 main_call7_c main_call7_v1 ((cmpi .eq) : (⟨S_, .i32⟩ : BufTy).Contents (Elt F) → (⟨S_, .i32⟩ : BufTy).Contents (Elt F) → (⟨S_, .i1⟩ : BufTy).Contents (Elt F)),
    StableHlo.nullary main_call7_c_0 ((constantI S_ 32 1#32) : (⟨S_, .i32⟩ : BufTy).Contents (Elt F)),
    StableHlo.ternary main_call7_v1 main_call7_c_0 main_call7_v0 main_call7_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_call7_v2 main_call7_v3 ((broadcastInDim S136 ![] bcast_S_S136) : (⟨S_, .i32⟩ : BufTy).Contents (Elt F) → (⟨S136, .i32⟩ : BufTy).Contents (Elt F)),
    StableHlo.binary main_v24 main_call7_v3 main_call7_v4 (Host.remsi : (⟨S136, .i32⟩ : BufTy).Contents (Elt F) → (⟨S136, .i32⟩ : BufTy).Contents (Elt F) → (⟨S136, .i32⟩ : BufTy).Contents (Elt F)),
    StableHlo.nullary main_call7_c_1 ((constantI S_ 32 0#32) : (⟨S_, .i32⟩ : BufTy).Contents (Elt F)),
    StableHlo.unary main_call7_c_1 main_call7_v5 ((broadcastInDim S136 ![] bcast_S_S136) : (⟨S_, .i32⟩ : BufTy).Contents (Elt F) → (⟨S136, .i32⟩ : BufTy).Contents (Elt F)),
    StableHlo.binary main_call7_v4 main_call7_v5 main_call7_v6 ((cmpi .ne) : (⟨S136, .i32⟩ : BufTy).Contents (Elt F) → (⟨S136, .i32⟩ : BufTy).Contents (Elt F) → (⟨S136, .i1⟩ : BufTy).Contents (Elt F)),
    StableHlo.nullary main_call7_c_2 ((constantI S_ 32 0#32) : (⟨S_, .i32⟩ : BufTy).Contents (Elt F)),
    StableHlo.unary main_call7_c_2 main_call7_v7 ((broadcastInDim S136 ![] bcast_S_S136) : (⟨S_, .i32⟩ : BufTy).Contents (Elt F) → (⟨S136, .i32⟩ : BufTy).Contents (Elt F)),
    StableHlo.binary main_call7_v4 main_call7_v7 main_call7_v8 ((cmpi .slt) : (⟨S136, .i32⟩ : BufTy).Contents (Elt F) → (⟨S136, .i32⟩ : BufTy).Contents (Elt F) → (⟨S136, .i1⟩ : BufTy).Contents (Elt F)),
    StableHlo.nullary main_call7_c_3 ((constantI S_ 32 0#32) : (⟨S_, .i32⟩ : BufTy).Contents (Elt F)),
    StableHlo.binary main_call7_v2 main_call7_c_3 main_call7_v9 ((cmpi .slt) : (⟨S_, .i32⟩ : BufTy).Contents (Elt F) → (⟨S_, .i32⟩ : BufTy).Contents (Elt F) → (⟨S_, .i1⟩ : BufTy).Contents (Elt F)),
    StableHlo.unary main_call7_v9 main_call7_v10 ((broadcastInDim S136 ![] bcast_S_S136) : (⟨S_, .i1⟩ : BufTy).Contents (Elt F) → (⟨S136, .i1⟩ : BufTy).Contents (Elt F)),
    StableHlo.binary main_call7_v8 main_call7_v10 main_call7_v11 ((cmpi .ne) : (⟨S136, .i1⟩ : BufTy).Contents (Elt F) → (⟨S136, .i1⟩ : BufTy).Contents (Elt F) → (⟨S136, .i1⟩ : BufTy).Contents (Elt F)),
    StableHlo.binary main_call7_v11 main_call7_v6 main_call7_v12 (andi : (⟨S136, .i1⟩ : BufTy).Contents (Elt F) → (⟨S136, .i1⟩ : BufTy).Contents (Elt F) → (⟨S136, .i1⟩ : BufTy).Contents (Elt F)),
    StableHlo.unary main_call7_v2 main_call7_v13 ((broadcastInDim S136 ![] bcast_S_S136) : (⟨S_, .i32⟩ : BufTy).Contents (Elt F) → (⟨S136, .i32⟩ : BufTy).Contents (Elt F)),
    StableHlo.binary main_call7_v4 main_call7_v13 main_call7_v14 (addi : (⟨S136, .i32⟩ : BufTy).Contents (Elt F) → (⟨S136, .i32⟩ : BufTy).Contents (Elt F) → (⟨S136, .i32⟩ : BufTy).Contents (Elt F)),
    StableHlo.ternary main_call7_v12 main_call7_v14 main_call7_v4 main_v25 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.nullary main_c_9 (constantI S_ 32 0#32),
    StableHlo.unary main_c_9 main_v26 (broadcastInDim S136 ![] bcast_S_S136 : (⟨S_, .i32⟩ : BufTy).Contents (Elt F) → (⟨S136, .i32⟩ : BufTy).Contents (Elt F)),
    StableHlo.binary main_v23 main_v26 main_v27 (cmpi .slt : (⟨S136, .i32⟩ : BufTy).Contents (Elt F) → (⟨S136, .i32⟩ : BufTy).Contents (Elt F) → (⟨S136, .i1⟩ : BufTy).Contents (Elt F)),
    StableHlo.nullary main_c_10 (constantI S_ 32 16#32),
    StableHlo.unary main_c_10 main_v28 (broadcastInDim S136 ![] bcast_S_S136 : (⟨S_, .i32⟩ : BufTy).Contents (Elt F) → (⟨S136, .i32⟩ : BufTy).Contents (Elt F)),
    StableHlo.binary main_v23 main_v28 main_v29 (addi : (⟨S136, .i32⟩ : BufTy).Contents (Elt F) → (⟨S136, .i32⟩ : BufTy).Contents (Elt F) → (⟨S136, .i32⟩ : BufTy).Contents (Elt F)),
    StableHlo.ternary main_v27 main_v29 main_v23 main_v30 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.unary main_v30 main_v31 (broadcastInDim S136x1 ![0] bcast_S136_S136x1_0 : (⟨S136, .i32⟩ : BufTy).Contents (Elt F) → (⟨S136x1, .i32⟩ : BufTy).Contents (Elt F)),
    StableHlo.binary main_v5 main_v31 main_v32 ((fun x i => Host.gather gather_S16x9216x4x16_S136x1_S16x9216x4x136_012_3_n_n_3_1_16921641 x i) : (⟨S16x9216x4x16, .f32⟩ : BufTy).Contents (Elt F) → (⟨S136x1, .i32⟩ : BufTy).Contents (Elt F) → (⟨S16x9216x4x136, .f32⟩ : BufTy).Contents (Elt F)),
    StableHlo.nullary main_c_11 (constantI S_ 32 0#32),
    StableHlo.unary main_c_11 main_v33 (broadcastInDim S136 ![] bcast_S_S136 : (⟨S_, .i32⟩ : BufTy).Contents (Elt F) → (⟨S136, .i32⟩ : BufTy).Contents (Elt F)),
    StableHlo.binary main_v25 main_v33 main_v34 (cmpi .slt : (⟨S136, .i32⟩ : BufTy).Contents (Elt F) → (⟨S136, .i32⟩ : BufTy).Contents (Elt F) → (⟨S136, .i1⟩ : BufTy).Contents (Elt F)),
    StableHlo.nullary main_c_12 (constantI S_ 32 16#32),
    StableHlo.unary main_c_12 main_v35 (broadcastInDim S136 ![] bcast_S_S136 : (⟨S_, .i32⟩ : BufTy).Contents (Elt F) → (⟨S136, .i32⟩ : BufTy).Contents (Elt F)),
    StableHlo.binary main_v25 main_v35 main_v36 (addi : (⟨S136, .i32⟩ : BufTy).Contents (Elt F) → (⟨S136, .i32⟩ : BufTy).Contents (Elt F) → (⟨S136, .i32⟩ : BufTy).Contents (Elt F)),
    StableHlo.ternary main_v34 main_v36 main_v25 main_v37 (select : (⟨S136, .i1⟩ : BufTy).Contents (Elt F) → (⟨S136, .i32⟩ : BufTy).Contents (Elt F) → (⟨S136, .i32⟩ : BufTy).Contents (Elt F) → (⟨S136, .i32⟩ : BufTy).Contents (Elt F)),
    StableHlo.unary main_v37 main_v38 (broadcastInDim S136x1 ![0] bcast_S136_S136x1_0 : (⟨S136, .i32⟩ : BufTy).Contents (Elt F) → (⟨S136x1, .i32⟩ : BufTy).Contents (Elt F)),
    StableHlo.binary main_v5 main_v38 main_v39 ((fun x i => Host.gather gather_S16x9216x4x16_S136x1_S16x9216x4x136_012_3_n_n_3_1_16921641 x i) : (⟨S16x9216x4x16, .f32⟩ : BufTy).Contents (Elt F) → (⟨S136x1, .i32⟩ : BufTy).Contents (Elt F) → (⟨S16x9216x4x136, .f32⟩ : BufTy).Contents (Elt F)),
    StableHlo.binary main_v32 main_v39 main_v40 (mulf : (⟨S16x9216x4x136, .f32⟩ : BufTy).Contents (Elt F) → (⟨S16x9216x4x136, .f32⟩ : BufTy).Contents (Elt F) → (⟨S16x9216x4x136, .f32⟩ : BufTy).Contents (Elt F)),
    StableHlo.reshape main_v40 main_v41 rfl shapeCasts_S16x9216x4x136_S16x9216x544,
    StableHlo.unary main_v41 main_v42 ((transpose S16x544x9216 [0, 2, 1] · transposes_S16x9216x544_S16x544x9216_0_2_1) : (⟨S16x9216x544, .f32⟩ : BufTy).Contents (Elt F) → (⟨S16x544x9216, .f32⟩ : BufTy).Contents (Elt F)),
    StableHlo.reshape main_v42 main_v43 rfl shapeCasts_S16x544x9216_S16x544x96x96 ]

set_option maxRecDepth 8192 in
set_option maxHeartbeats 4000000 in
/-- The two lists agree, operation by operation. -/
theorem opsT_eq : (opsT : List (HloOp τ sig (Elt F))) = ops :=
    cons_eq (rfl) <|
    cons_eq (rfl) <|
    cons_eq (rfl) <|
    cons_eq (rfl) <|
    cons_eq (rfl) <|
    cons_eq (rfl) <|
    cons_eq (rfl) <|
    cons_eq (rfl) <|
    cons_eq (tref_nullary main_call0_v0 _ _ _) <|
    cons_eq (tref_nullary main_call0_c _ _ _) <|
    cons_eq (tref_unary main_call0_c main_call0_v1 _ _ _ _ _) <|
    cons_eq (tref_binary main_call0_v0 main_call0_v1 main_call0_v2 _ _ _ _ _ _ _) <|
    cons_eq (tref_nullary main_call0_v3 _ _ _) <|
    cons_eq (tref_binary main_call0_v2 main_call0_v3 main_call0_v4 _ _ _ _ _ _ _) <|
    cons_eq (tref_nullary main_call0_cst _ _ _) <|
    cons_eq (tref_unary main_call0_cst main_call0_v5 _ _ _ _ _) <|
    cons_eq (tref_ternary main_call0_v4 main_call0_v5 main_v6 main_v7 _ _ _ _ _ _ _ _ _) <|
    cons_eq (rfl) <|
    cons_eq (rfl) <|
    cons_eq (rfl) <|
    cons_eq (tref_reshape main_v9 main_call1_v0 _ _ _ _ _ _) <|
    cons_eq (tref_unary main_call1_v0 main_call1_v1 _ _ _ _ _) <|
    cons_eq (tref_nullary main_call1_call0_c _ _ _) <|
    cons_eq (tref_unary main_call1_call0_c main_call1_call0_v0 _ _ _ _ _) <|
    cons_eq (tref_binary main_call1_v1 main_call1_call0_v0 main_v10 _ _ _ _ _ _ _) <|
    cons_eq (rfl) <|
    cons_eq (rfl) <|
    cons_eq (rfl) <|
    cons_eq (tref_unary main_c_1 main_call2_v0 _ _ _ _ _) <|
    cons_eq (tref_unary main_call2_v0 main_call2_v1 _ _ _ _ _) <|
    cons_eq (tref_binary main_call2_v1 main_v10 main_v12 _ _ _ _ _ _ _) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (tref_nullary main_call3_call0_c _ _ _) <|
    cons_eq (tref_unary main_call3_call0_c main_call3_call0_v0 _ _ _ _ _) <|
    cons_eq (tref_binary main_v20 main_call3_call0_v0 main_v21 _ _ _ _ _ _ _) <|
    cons_eq (rfl) <|
    cons_eq (tref_unary main_c_5 main_call4_v0 _ _ _ _ _) <|
    cons_eq (tref_binary main_v21 main_call4_v0 main_call4_v1 _ _ _ _ _ _ _) <|
    cons_eq (tref_unary main_v21 main_call4_v2 _ _ _ _ _) <|
    cons_eq (tref_unary main_c_5 main_call4_v3 _ _ _ _ _) <|
    cons_eq (tref_unary main_call4_v3 main_call4_v4 _ _ _ _ _) <|
    cons_eq (tref_binary main_call4_v2 main_call4_v4 main_call4_v5 _ _ _ _ _ _ _) <|
    cons_eq (tref_unary main_c_5 main_call4_v6 _ _ _ _ _) <|
    cons_eq (tref_binary main_v21 main_call4_v6 main_call4_v7 _ _ _ _ _ _ _) <|
    cons_eq (tref_nullary main_call4_c _ _ _) <|
    cons_eq (tref_unary main_call4_c main_call4_v8 _ _ _ _ _) <|
    cons_eq (tref_binary main_call4_v7 main_call4_v8 main_call4_v9 _ _ _ _ _ _ _) <|
    cons_eq (tref_binary main_call4_v5 main_call4_v9 main_call4_v10 _ _ _ _ _ _ _) <|
    cons_eq (tref_nullary main_call4_c_0 _ _ _) <|
    cons_eq (tref_unary main_call4_c_0 main_call4_v11 _ _ _ _ _) <|
    cons_eq (tref_binary main_call4_v1 main_call4_v11 main_call4_v12 _ _ _ _ _ _ _) <|
    cons_eq (tref_ternary main_call4_v10 main_call4_v12 main_call4_v1 main_v22 _ _ _ _ _ _ _ _ _) <|
    cons_eq (rfl) <|
    cons_eq (tref_unary main_c_6 main_call5_v0 _ _ _ _ _) <|
    cons_eq (tref_nullary main_call5_c _ _ _) <|
    cons_eq (tref_binary main_call5_v0 main_call5_c main_call5_v1 _ _ _ _ _ _ _) <|
    cons_eq (tref_nullary main_call5_c_0 _ _ _) <|
    cons_eq (tref_ternary main_call5_v1 main_call5_c_0 main_call5_v0 main_call5_v2 _ _ _ _ _ _ _ _ _) <|
    cons_eq (tref_unary main_call5_v2 main_call5_v3 _ _ _ _ _) <|
    cons_eq (tref_binary main_v22 main_call5_v3 main_call5_v4 _ _ _ _ _ _ _) <|
    cons_eq (tref_nullary main_call5_c_1 _ _ _) <|
    cons_eq (tref_unary main_call5_c_1 main_call5_v5 _ _ _ _ _) <|
    cons_eq (tref_binary main_call5_v4 main_call5_v5 main_call5_v6 _ _ _ _ _ _ _) <|
    cons_eq (tref_nullary main_call5_c_2 _ _ _) <|
    cons_eq (tref_unary main_call5_c_2 main_call5_v7 _ _ _ _ _) <|
    cons_eq (tref_binary main_call5_v4 main_call5_v7 main_call5_v8 _ _ _ _ _ _ _) <|
    cons_eq (tref_nullary main_call5_c_3 _ _ _) <|
    cons_eq (tref_binary main_call5_v2 main_call5_c_3 main_call5_v9 _ _ _ _ _ _ _) <|
    cons_eq (tref_unary main_call5_v9 main_call5_v10 _ _ _ _ _) <|
    cons_eq (tref_binary main_call5_v8 main_call5_v10 main_call5_v11 _ _ _ _ _ _ _) <|
    cons_eq (tref_binary main_call5_v11 main_call5_v6 main_call5_v12 _ _ _ _ _ _ _) <|
    cons_eq (tref_unary main_call5_v2 main_call5_v13 _ _ _ _ _) <|
    cons_eq (tref_binary main_call5_v4 main_call5_v13 main_call5_v14 _ _ _ _ _ _ _) <|
    cons_eq (tref_ternary main_call5_v12 main_call5_v14 main_call5_v4 main_v23 _ _ _ _ _ _ _ _ _) <|
    cons_eq (rfl) <|
    cons_eq (tref_unary main_c_7 main_call6_v0 _ _ _ _ _) <|
    cons_eq (tref_binary main_v21 main_call6_v0 main_call6_v1 _ _ _ _ _ _ _) <|
    cons_eq (tref_unary main_v21 main_call6_v2 _ _ _ _ _) <|
    cons_eq (tref_unary main_c_7 main_call6_v3 _ _ _ _ _) <|
    cons_eq (tref_unary main_call6_v3 main_call6_v4 _ _ _ _ _) <|
    cons_eq (tref_binary main_call6_v2 main_call6_v4 main_call6_v5 _ _ _ _ _ _ _) <|
    cons_eq (tref_unary main_c_7 main_call6_v6 _ _ _ _ _) <|
    cons_eq (tref_binary main_v21 main_call6_v6 main_call6_v7 _ _ _ _ _ _ _) <|
    cons_eq (tref_nullary main_call6_c _ _ _) <|
    cons_eq (tref_unary main_call6_c main_call6_v8 _ _ _ _ _) <|
    cons_eq (tref_binary main_call6_v7 main_call6_v8 main_call6_v9 _ _ _ _ _ _ _) <|
    cons_eq (tref_binary main_call6_v5 main_call6_v9 main_call6_v10 _ _ _ _ _ _ _) <|
    cons_eq (tref_nullary main_call6_c_0 _ _ _) <|
    cons_eq (tref_unary main_call6_c_0 main_call6_v11 _ _ _ _ _) <|
    cons_eq (tref_binary main_call6_v1 main_call6_v11 main_call6_v12 _ _ _ _ _ _ _) <|
    cons_eq (tref_ternary main_call6_v10 main_call6_v12 main_call6_v1 main_v24 _ _ _ _ _ _ _ _ _) <|
    cons_eq (rfl) <|
    cons_eq (tref_unary main_c_8 main_call7_v0 _ _ _ _ _) <|
    cons_eq (tref_nullary main_call7_c _ _ _) <|
    cons_eq (tref_binary main_call7_v0 main_call7_c main_call7_v1 _ _ _ _ _ _ _) <|
    cons_eq (tref_nullary main_call7_c_0 _ _ _) <|
    cons_eq (tref_ternary main_call7_v1 main_call7_c_0 main_call7_v0 main_call7_v2 _ _ _ _ _ _ _ _ _) <|
    cons_eq (tref_unary main_call7_v2 main_call7_v3 _ _ _ _ _) <|
    cons_eq (tref_binary main_v24 main_call7_v3 main_call7_v4 _ _ _ _ _ _ _) <|
    cons_eq (tref_nullary main_call7_c_1 _ _ _) <|
    cons_eq (tref_unary main_call7_c_1 main_call7_v5 _ _ _ _ _) <|
    cons_eq (tref_binary main_call7_v4 main_call7_v5 main_call7_v6 _ _ _ _ _ _ _) <|
    cons_eq (tref_nullary main_call7_c_2 _ _ _) <|
    cons_eq (tref_unary main_call7_c_2 main_call7_v7 _ _ _ _ _) <|
    cons_eq (tref_binary main_call7_v4 main_call7_v7 main_call7_v8 _ _ _ _ _ _ _) <|
    cons_eq (tref_nullary main_call7_c_3 _ _ _) <|
    cons_eq (tref_binary main_call7_v2 main_call7_c_3 main_call7_v9 _ _ _ _ _ _ _) <|
    cons_eq (tref_unary main_call7_v9 main_call7_v10 _ _ _ _ _) <|
    cons_eq (tref_binary main_call7_v8 main_call7_v10 main_call7_v11 _ _ _ _ _ _ _) <|
    cons_eq (tref_binary main_call7_v11 main_call7_v6 main_call7_v12 _ _ _ _ _ _ _) <|
    cons_eq (tref_unary main_call7_v2 main_call7_v13 _ _ _ _ _) <|
    cons_eq (tref_binary main_call7_v4 main_call7_v13 main_call7_v14 _ _ _ _ _ _ _) <|
    cons_eq (tref_ternary main_call7_v12 main_call7_v14 main_call7_v4 main_v25 _ _ _ _ _ _ _ _ _) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    cons_eq (rfl) <|
    rfl

/-- @main is the straight line of `ops`. -/
theorem main_eq (c : Dev nD) : main (F := F) c = seq ops :=
  (main_eqT c).trans (congrArg seq opsT_eq)

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨reshape_bufs_sub .., unary_bufs_sub .., reshape_bufs_sub .., reshape_bufs_sub .., unary_bufs_sub .., reshape_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., reshape_bufs_sub .., unary_bufs_sub .., reshape_bufs_sub ..⟩

/-! ## What the buffers hold after the line -/

set_option maxRecDepth 8192 in
set_option maxHeartbeats 2000000 in
/-- The fold at the result buffer is `result` of the argument's contents: each operation's result at its own buffer is
    its function's value at its operands' contents, any other buffer keeps what it held. -/
theorem out_eq (V : Valuation τ sig (Elt F)) :
    after ops V (main_v43 : DevRef τ sig) = result (V (main_arg0 : DevRef τ sig)) := by
  after_results_simp
  rfl

set_option maxRecDepth 8192 in
set_option maxHeartbeats 2000000 in
/-- No operation writes the argument's buffer. -/
theorem arg0_eq (V : Valuation τ sig (Elt F)) :
    after ops V (main_arg0 : DevRef τ sig) = V (main_arg0 : DevRef τ sig) := by
  after_results_simp

/-! ## The run -/

/-- On every device, for any float values, from any memory with zero counters: every weakly fair execution of @main
    terminates, without a fault, with the result buffer holding `result` of the argument array's launch contents, and
    the argument array unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v43) = result (m ((c.tc : Thread nD τ).loc main_arg0))
      ∧ r.2.mem ((c.tc : Thread nD τ).loc main_arg0) = m ((c.tc : Thread nD τ).loc main_arg0)) :=
  (θ_run defs _ _).mono (fun _ h c => ⟨(h c main_v43).trans (out_eq _), (h c main_arg0).trans (arg0_eq _)⟩)
    (run_seq scopedRefs_eq scopedSems_eq defs main (fun _ => ops) main_eq (fun _ => ops_sub) m ρ)

end Cert.ReferenceIdeal.RefRun

end
-- ==== Proof.RefValue.lean ====
/-
  The reference's result, index by index.

  The reference regroups the input so that the sixteen entries of each head sit last (`heads`), gathers along that
  last axis with two index vectors of length 136, multiplies, and lays the 4 × 136 products out as 544 channels in
  front of the 96 × 96 plane. Reading every layout step at an index: output channel `c` at `(b, p, q)` is the product
  of the input's channels `4·i + h` and `4·j + h` there, with `h = c / 136` and `(i, j)` what the two index vectors
  hold at `t = c % 136`. Given that those vectors hold the `t`-th pair of the triangle (proved separately, from their
  closed terms), this is the common function `Cert.Spec.G`.
-/
import proofs.«108151_j54528904790278_2_alg».proof.Proof.RefTerm
import proofs.«108151_j54528904790278_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.RefRun Idealize.ShloMosaic Idealize.ShloMosaic.ValueIdx
open Cert.Pairs Cert.Spec

/-- The regrouped input at head `h`, entry `i`, flattened position `l` is the input's channel `4·i + h` at row `l / 96`,
    column `l % 96`. -/
theorem heads_apply (x : FVec Ideal S16x64x96x96 .f32) (b : Fin 16) (l : Fin 9216) (h : Fin 4) (i : Fin 16) :
    heads (F := Ideal) x (ix4 b l h i)
      = x (ix4 b (⟨4 * i.val + h.val, by omega⟩ : Fin 64) (⟨l.val / 96, by omega⟩ : Fin 96) (⟨l.val % 96, by omega⟩ : Fin 96)) := by
  unfold heads
  -- [16, 9216, 4, 16] from [16, 9216, 64]: the last two coordinates (h, i) are channel position 16·h + i
  refine (shapeCast_apply _ _ (ix4 b l h i) (ix3 b l (⟨16 * h.val + i.val, by omega⟩ : Fin 64)) ?_).trans ?_
  · rw [Shape.rowMajor_val_three, Shape.rowMajor_val_four]
    show (b.val * 9216 + l.val) * 64 + (16 * h.val + i.val) = ((b.val * 9216 + l.val) * 4 + h.val) * 16 + i.val
    omega
  -- the channel axis moved last
  refine (transpose_apply _ _ _ (ix3 b l (⟨16 * h.val + i.val, by omega⟩ : Fin 64))
    (ix3 b (⟨16 * h.val + i.val, by omega⟩ : Fin 64) l) ?_).trans ?_
  · intro a
    match a with
    | ⟨0, _⟩ => rfl
    | ⟨1, _⟩ => rfl
    | ⟨2, _⟩ => rfl
  -- the plane flattened: position l is row l / 96, column l % 96
  refine (shapeCast_apply _ _ (ix3 b (⟨16 * h.val + i.val, by omega⟩ : Fin 64) l)
    (ix4 b (⟨16 * h.val + i.val, by omega⟩ : Fin 64) (⟨l.val / 96, by omega⟩ : Fin 96) (⟨l.val % 96, by omega⟩ : Fin 96)) ?_).trans ?_
  · rw [Shape.rowMajor_val_four, Shape.rowMajor_val_three]
    show ((b.val * 64 + (16 * h.val + i.val)) * 96 + l.val / 96) * 96 + l.val % 96 = (b.val * 64 + (16 * h.val + i.val)) * 9216 + l.val
    omega
  -- 64 channels as 4 heads of 16
  refine (shapeCast_apply _ _ (ix4 b (⟨16 * h.val + i.val, by omega⟩ : Fin 64) (⟨l.val / 96, by omega⟩ : Fin 96) (⟨l.val % 96, by omega⟩ : Fin 96))
    (ix5 b h i (⟨l.val / 96, by omega⟩ : Fin 96) (⟨l.val % 96, by omega⟩ : Fin 96)) ?_).trans ?_
  · rw [Shape.rowMajor_val_five, Shape.rowMajor_val_four]
    show (((b.val * 4 + h.val) * 16 + i.val) * 96 + l.val / 96) * 96 + l.val % 96
      = ((b.val * 64 + (16 * h.val + i.val)) * 96 + l.val / 96) * 96 + l.val % 96
    omega
  -- the two channel axes swapped back
  refine (transpose_apply _ _ _ (ix5 b h i (⟨l.val / 96, by omega⟩ : Fin 96) (⟨l.val % 96, by omega⟩ : Fin 96))
    (ix5 b i h (⟨l.val / 96, by omega⟩ : Fin 96) (⟨l.val % 96, by omega⟩ : Fin 96)) ?_).trans ?_
  · intro a
    match a with
    | ⟨0, _⟩ => rfl
    | ⟨1, _⟩ => rfl
    | ⟨2, _⟩ => rfl
    | ⟨3, _⟩ => rfl
    | ⟨4, _⟩ => rfl
  -- entry i of head h is channel 4·i + h
  refine shapeCast_apply _ _ (ix5 b i h (⟨l.val / 96, by omega⟩ : Fin 96) (⟨l.val % 96, by omega⟩ : Fin 96)) _ ?_
  rw [Shape.rowMajor_val_four, Shape.rowMajor_val_five]
  show ((b.val * 64 + (4 * i.val + h.val)) * 96 + l.val / 96) * 96 + l.val % 96
    = (((b.val * 16 + i.val) * 4 + h.val) * 96 + l.val / 96) * 96 + l.val % 96
  omega

/-- The same at position `96·p + q` of the flattened plane: row `p`, column `q`. -/
theorem heads_apply_plane (x : FVec Ideal S16x64x96x96 .f32) (b : Fin 16) (p q : Fin 96) (h : Fin 4) (i : Fin 16) :
    heads (F := Ideal) x (ix4 b (⟨96 * p.val + q.val, by omega⟩ : Fin 9216) h i)
      = x (ix4 b (⟨4 * i.val + h.val, by omega⟩ : Fin 64) p q) := by
  refine (heads_apply x b _ h i).trans (congrArg x (funext fun a => ?_))
  match a with
  | ⟨0, _⟩ => rfl
  | ⟨1, _⟩ => rfl
  | ⟨2, _⟩ => exact Fin.ext (by show (96 * p.val + q.val) / 96 = p.val; omega)
  | ⟨3, _⟩ => exact Fin.ext (by show (96 * p.val + q.val) % 96 = q.val; omega)

local notation "Gd" => gather_S16x9216x4x16_S136x1_S16x9216x4x136_012_3_n_n_3_1_16921641

/-- An index below sixteen, written as a 32-bit word, read back signed and clamped to `[0, 15]`, is itself. -/
theorem clamp_word (i : Fin 16) : min (BitVec.ofNat 32 i.val).toInt.toNat (16 - 1) = i.val := by
  revert i; decide

/-- The index vector as a column: row `t` of the `[136, 1]` array is entry `t` of the vector. -/
theorem column_apply (idx : IVec S136 32) (t : Fin 136) (z : Fin 1) :
    broadcastInDim S136x1 ![0] bcast_S136_S136x1_0 idx (ix2 t z) = idx (ix1 t) := by
  refine broadcastInDim_apply _ _ _ (ix2 t z) (ix1 t) ?_
  intro a
  match a with
  | ⟨0, _⟩ => rfl

/-- A gather along the last axis: at `(b, l, h, t)` it reads the operand at `(b, l, h, i)`, `i` the `t`-th index. -/
theorem gather_apply (X : FVec Ideal S16x9216x4x16 .f32) (idx : IVec S136 32) (b : Fin 16) (l : Fin 9216) (h : Fin 4)
    (t : Fin 136) (i : Fin 16) (hi : idx (ix1 t) = BitVec.ofNat 32 i.val) :
    Host.gather Gd X (broadcastInDim S136x1 ![0] bcast_S136_S136x1_0 idx) (ix4 b l h t) = X (ix4 b l h i) := by
  unfold Host.gather
  refine congrArg X (funext fun a => Fin.ext ?_)
  show GatherDims.start Gd (ix4 b l h t) (broadcastInDim S136x1 ![0] bcast_S136_S136x1_0 idx) a + GatherDims.batchCoord Gd (ix4 b l h t) a
      + GatherDims.offCoord Gd (ix4 b l h t) a = (ix4 b l h i a).val
  rw [GatherDims.batchCoord_eq_zero _ _ _ List.not_mem_nil, Nat.add_zero]
  match a with
  | ⟨0, _⟩ =>
    unfold GatherDims.start GatherDims.offCoord
    rw [dif_neg (by decide +revert), dif_pos (by decide +revert), Nat.zero_add]
    rfl
  | ⟨1, _⟩ =>
    unfold GatherDims.start GatherDims.offCoord
    rw [dif_neg (by decide +revert), dif_pos (by decide +revert), Nat.zero_add]
    rfl
  | ⟨2, _⟩ =>
    unfold GatherDims.start GatherDims.offCoord
    rw [dif_neg (by decide +revert), dif_pos (by decide +revert), Nat.zero_add]
    rfl
  | ⟨3, _⟩ =>
    rw [GatherDims.offCoord_eq_zero _ _ _ (by decide +revert), Nat.add_zero]
    unfold GatherDims.start
    rw [dif_pos (by decide +revert)]
    have hsi : GatherDims.siIdx Gd (ix4 b l h t) ⟨List.idxOf (⟨3, by decide⟩ : Fin S16x9216x4x16.rank) (GatherDims.startIndexMap Gd),
        List.idxOf_lt_length_iff.2 (by decide +revert)⟩ = ix2 t (0 : Fin 1) := by
      funext c; refine Fin.ext ?_
      match c with
      | ⟨0, _⟩ => rfl
      | ⟨1, _⟩ => rfl
    rw [hsi, column_apply, hi]
    exact clamp_word i

/-- The result at channel `c`, batch entry `b`, row `p`, column `q`, given what the two index vectors hold. -/
theorem result_apply (x : FVec Ideal S16x64x96x96 .f32)
    (hrow : ∀ t : Fin 136, rowIdx Ideal (ix1 t) = BitVec.ofNat 32 (pair t).1.val)
    (hcol : ∀ t : Fin 136, colIdx Ideal (ix1 t) = BitVec.ofNat 32 (pair t).2.val)
    (b : Fin 16) (c : Fin 544) (p q : Fin 96) :
    result (F := Ideal) x (ix4 b c p q) = x (ix4 b (left c) p q) * x (ix4 b (right c) p q) := by
  unfold result
  -- the plane flattened: (p, q) is position 96·p + q
  refine (shapeCast_apply _ _ (ix4 b c p q) (ix3 b c (⟨96 * p.val + q.val, by omega⟩ : Fin 9216)) ?_).trans ?_
  · rw [Shape.rowMajor_val_three, Shape.rowMajor_val_four]
    show (b.val * 544 + c.val) * 9216 + (96 * p.val + q.val) = ((b.val * 544 + c.val) * 96 + p.val) * 96 + q.val
    omega
  -- the channel axis moved in front of the position
  refine (transpose_apply _ _ _ (ix3 b c (⟨96 * p.val + q.val, by omega⟩ : Fin 9216))
    (ix3 b (⟨96 * p.val + q.val, by omega⟩ : Fin 9216) c) ?_).trans ?_
  · intro a
    match a with
    | ⟨0, _⟩ => rfl
    | ⟨1, _⟩ => rfl
    | ⟨2, _⟩ => rfl
  -- channel c is product c % 136 of head c / 136
  refine (shapeCast_apply _ _ (ix3 b (⟨96 * p.val + q.val, by omega⟩ : Fin 9216) c)
    (ix4 b (⟨96 * p.val + q.val, by omega⟩ : Fin 9216) (head c) (slot c)) ?_).trans ?_
  · rw [Shape.rowMajor_val_four, Shape.rowMajor_val_three]
    show ((b.val * 9216 + (96 * p.val + q.val)) * 4 + c.val / 136) * 136 + c.val % 136
      = (b.val * 9216 + (96 * p.val + q.val)) * 544 + c.val
    omega
  rw [mulf_apply, gather_apply _ _ b _ (head c) (slot c) (pair (slot c)).1 (hrow (slot c)),
    gather_apply _ _ b _ (head c) (slot c) (pair (slot c)).2 (hcol (slot c)),
    heads_apply_plane, heads_apply_plane]
  rfl

/-- The reference's result is the common function of its argument. -/
theorem result_eq (x : FVec Ideal S16x64x96x96 .f32)
    (hrow : ∀ t : Fin 136, rowIdx Ideal (ix1 t) = BitVec.ofNat 32 (pair t).1.val)
    (hcol : ∀ t : Fin 136, colIdx Ideal (ix1 t) = BitVec.ofNat 32 (pair t).2.val) :
    result (F := Ideal) x = Cert.Spec.G x := by
  funext j
  obtain ⟨b, c, p, q, rfl⟩ : ∃ (b : Fin 16) (c : Fin 544) (p q : Fin 96), j = ix4 b c p q := ⟨j 0, j 1, j 2, j 3, eq_ix4 j⟩
  exact (result_apply x hrow hcol b c p q).trans (G_apply x b c p q).symm

end Cert.ReferenceIdeal.RefValue

end
-- ==== Proof.RefIndexMask.lean ====
/-
  The reference's triangular mask, read at the extended reals.

  The reference builds the sixteen-by-sixteen upper-triangular mask from constants: a square of ones, zeroed strictly
  below the diagonal (where `row − 1 ≥ column` as signed words), compared for inequality with a square of zeros.
  At the ideal values a float is an extended real, so the comparison is not a computation on bit patterns: the two
  literals denote the reals `1` and `0`, which differ. This module proves that the mask's bit at `(r, c)` is set
  exactly when `r ≤ c`, and names that closed form `maskT`.
-/
import proofs.«108151_j54528904790278_2_alg».proof.Proof.RefTerm
import Idealize.ShloMosaic.Lib.ValueIdx
import Idealize.ShloMosaic.PureOps.Ideal.Laws

namespace Cert.RefIndex

open Idealize.ShloMosaic Cert.ReferenceIdeal Cert.ReferenceIdeal.Gen Cert.ReferenceIdeal.RefRun

/-- The closed form of the mask: bit `(r, c)` is set exactly when `r ≤ c`. -/
def maskT : IVec S16x16 1 := fun i => if (i 0).val ≤ (i 1).val then 1#1 else 0#1

/-- The word-level test "strictly below the diagonal": `r + (−1) ≥ c`, signed, on 32-bit words. -/
def belowW (r c : Nat) : BitVec 1 :=
  IntOp.cmpi .sge (IntOp.addi (BitVec.ofNat 32 r) 4294967295#32) (BitVec.ofNat 32 c)

/-- On sixteen rows and columns, `row − 1 ≥ column` as signed 32-bit words says `column < row`. -/
theorem belowW_eq : ∀ r c : Fin 16, belowW r.val c.val = if c.val < r.val then 1#1 else 0#1 := by
  decide +kernel

/-- The word `0x3F800000` denotes the real number one. -/
theorem ofBits_one_f32 : Ideal.ofBits .f32 0x3F800000#32 = 1 := by
  simp [Ideal.ofBits, Ideal.ieee, -EReal.coe_mul]; norm_num

/-- A comparison of a selection between two constant squares with a constant square, read at one position: the
    comparison of the selected constant with the constant, whatever the two bit patterns are. -/
theorem une_select_const (B : IVec S16x16 1) (z o : BitVec 32) (i : S16x16.Idx) :
    cmpf .une
        (select B (broadcastInDim S16x16 ![] bcast_S_S16x16 (constant (F := Ideal) S_ .f32 z))
          (broadcastInDim S16x16 ![] bcast_S_S16x16 (constant (F := Ideal) S_ .f32 o)))
        (broadcastInDim S16x16 ![] bcast_S_S16x16 (constant (F := Ideal) S_ .f32 z)) i
      = Ideal.cmp .une (Scalar.select (B i) (Ideal.ofBits .f32 z) (Ideal.ofBits .f32 o)) (Ideal.ofBits .f32 z) := rfl

/-- The integer test of the triangle, read at one position. -/
theorem below_apply (j : S16x16.Idx) :
    cmpi .sge (addi (iotaInDim S16x16 32 0) (broadcastInDim S16x16 ![] bcast_S_S16x16 (constantI S_ 32 4294967295#32)))
        (iotaInDim S16x16 32 1) j
      = if (j 1).val < (j 0).val then 1#1 else 0#1 := belowW_eq (j 0) (j 1)

/-- The mask's bit at `(r, c)` is set exactly when `r ≤ c`. -/
theorem mask_apply (i : S16x16.Idx) : mask Ideal i = maskT i := by
  refine (une_select_const _ _ _ i).trans ?_
  rw [below_apply, Ideal.ofBits_zero_f32, ofBits_one_f32]
  unfold maskT
  by_cases h : (i 1).val < (i 0).val
  · rw [if_pos h, if_neg (by omega)]
    simp [Scalar.select, Ideal.cmp]
  · rw [if_neg h, if_pos (by omega)]
    simp [Scalar.select, Ideal.cmp]

/-- The mask is its closed form. -/
theorem mask_eq : mask Ideal = maskT := funext mask_apply

end Cert.RefIndex
-- ==== Proof.RefIndexCum.lean ====
/-
  The running count of the mask.

  Flattened row by row, the triangular mask has 256 bits; the reference sums them cumulatively (a windowed sum of
  width 256 ending at each position).  Row `r` of the mask holds `16 − r` set bits, in columns `r … 15`, so the
  number of set bits at flat positions `≤ 16 r + c` is `16 r − r (r − 1) / 2` for the rows before, plus
  `c − r + 1` when `r ≤ c`.  This module checks that closed form against the windowed sum at each of the 256
  positions, by evaluation: every value here is a machine word.
-/
import proofs.«108151_j54528904790278_2_alg».proof.Proof.RefIndexMask

namespace Cert.RefIndex

open Idealize.ShloMosaic Cert.ReferenceIdeal Cert.ReferenceIdeal.Gen Cert.ReferenceIdeal.RefRun

/-- The number of pairs `(r', c')` with `r' ≤ c' < 16` at flat positions `16 r' + c' ≤ p`. -/
def cumT (p : Nat) : Nat :=
  let r := p / 16; let c := p % 16
  16 * r - r * (r - 1) / 2 + (if r ≤ c then c - r + 1 else 0)

/-- The running count as a vector of 256 words. -/
def cumF : IVec S256 32 := fun i => BitVec.ofNat 32 (cumT (i 0).val)

/-! The 256 positions, a quarter at a time (each quarter is one evaluation of 64 windowed sums). -/

theorem cumsum_maskT_0 : ∀ p : Fin 256, p.val < 64 → cumsum maskT (ValueIdx.ix1 p) = BitVec.ofNat 32 (cumT p.val) := by
  decide +kernel

theorem cumsum_maskT_1 : ∀ p : Fin 256, 64 ≤ p.val → p.val < 128 → cumsum maskT (ValueIdx.ix1 p) = BitVec.ofNat 32 (cumT p.val) := by
  decide +kernel

theorem cumsum_maskT_2 : ∀ p : Fin 256, 128 ≤ p.val → p.val < 192 → cumsum maskT (ValueIdx.ix1 p) = BitVec.ofNat 32 (cumT p.val) := by
  decide +kernel

theorem cumsum_maskT_3 : ∀ p : Fin 256, 192 ≤ p.val → cumsum maskT (ValueIdx.ix1 p) = BitVec.ofNat 32 (cumT p.val) := by
  decide +kernel

/-- The windowed sum of the closed-form mask is the closed-form count, at every position. -/
theorem cumsum_maskT (p : Fin 256) : cumsum maskT (ValueIdx.ix1 p) = BitVec.ofNat 32 (cumT p.val) := by
  by_cases h1 : p.val < 64
  · exact cumsum_maskT_0 p h1
  by_cases h2 : p.val < 128
  · exact cumsum_maskT_1 p (by omega) h2
  by_cases h3 : p.val < 192
  · exact cumsum_maskT_2 p (by omega) h3
  · exact cumsum_maskT_3 p (by omega)

/-- The reference's running count of its mask is the closed form. -/
theorem cumsum_mask : cumsum (mask Ideal) = cumF := by
  rw [mask_eq]
  funext i
  obtain ⟨a, rfl⟩ : ∃ a, i = ValueIdx.ix1 a := ⟨i 0, ValueIdx.eq_ix1 i⟩
  exact cumsum_maskT a

end Cert.RefIndex
-- ==== Proof.RefIndexSlot.lean ====
/-
  The scatter positions.

  The running count is never negative, so bounding it below by zero changes nothing, and neither does the scatter's
  normalisation of negative indices (adding the operand's length, 136, to a negative entry).  Both are entrywise
  operations on 256 machine words and are checked by evaluation against the closed-form count.
-/
import proofs.«108151_j54528904790278_2_alg».proof.Proof.RefIndexCum

namespace Cert.RefIndex

open Idealize.ShloMosaic Cert.ReferenceIdeal Cert.ReferenceIdeal.Gen Cert.ReferenceIdeal.RefRun

/-- The maximum with zero leaves the running count as it is, at every position. -/
theorem clip_cumF : ∀ p : Fin 256, clip cumF (constantI S_ 32 0#32) (ValueIdx.ix1 p) = cumF (ValueIdx.ix1 p) := by
  decide +kernel

/-- The reference's clipped running count is the closed form. -/
theorem slot_eq : slot Ideal = cumF := by
  unfold slot
  rw [cumsum_mask]
  funext i
  obtain ⟨a, rfl⟩ : ∃ a, i = ValueIdx.ix1 a := ⟨i 0, ValueIdx.eq_ix1 i⟩
  exact clip_cumF a

/-- The normalisation of negative indices, as a function of the vector it is applied to. -/
def normSlot (s : IVec S256 32) : IVec S256 32 :=
  select (cmpi .slt s (broadcastInDim S256 ![] bcast_S_S256 (constantI S_ 32 0#32))) (addi s (broadcastInDim S256 ![] bcast_S_S256 (constantI S_ 32 136#32))) s

theorem slotN_unfold : slotN Ideal = normSlot (slot Ideal) := rfl

/-- No entry of the running count is negative: the normalisation leaves it as it is. -/
theorem normSlot_cumF : ∀ p : Fin 256, normSlot cumF (ValueIdx.ix1 p) = cumF (ValueIdx.ix1 p) := by
  decide +kernel

/-- The reference's scatter positions are the closed-form running count. -/
theorem slotN_eq : slotN Ideal = cumF := by
  rw [slotN_unfold, slot_eq]
  funext i
  obtain ⟨a, rfl⟩ : ∃ a, i = ValueIdx.ix1 a := ⟨i 0, ValueIdx.eq_ix1 i⟩
  exact normSlot_cumF a

end Cert.RefIndex
-- ==== Proof.RefIndexCount.lean ====
/-
  The scatter's counts.

  The reference adds a one into a vector of 136 zeros at index `count p` for each of the 256 flat positions `p`
  (the last position's index, 136, lies outside and is dropped).  Entry `k` of the result is therefore the number of
  positions whose running count is `k`: none for `k = 0`, and for `k ≥ 1` one more than the number of unset mask bits
  between the `k`-th set bit and the next.  The 136 entries are listed as a table and checked against the scatter by
  evaluation, a few entries at a time (each entry replays the 256 updates).
-/
import proofs.«108151_j54528904790278_2_alg».proof.Proof.RefIndexSlot

namespace Cert.RefIndex

open Idealize.ShloMosaic Cert.ReferenceIdeal Cert.ReferenceIdeal.Gen Cert.ReferenceIdeal.RefRun

/-- Entry `k`: the number of flat positions whose running count is `k`. -/
def cntL : List Nat := [0,1,1,1,1,1,1,1,1,1,1,1,1,1,1,1,2,1,1,1,1,1,1,1,1,1,1,1,1,1,1,3,1,1,1,1,1,1,1,1,1,1,1,1,1,4,1,1,1,1,1,1,1,1,1,1,1,1,5,1,1,1,1,1,1,1,1,1,1,1,6,1,1,1,1,1,1,1,1,1,1,7,1,1,1,1,1,1,1,1,1,8,1,1,1,1,1,1,1,1,9,1,1,1,1,1,1,1,10,1,1,1,1,1,1,11,1,1,1,1,1,12,1,1,1,1,13,1,1,1,14,1,1,15,1,16]

/-- The counts as a vector of 136 words. -/
def cntF : IVec S136 32 := fun i => BitVec.ofNat 32 (cntL.getD (i 0).val 0)

/-- The scatter of ones into 136 zeros, as a function of the scatter positions. -/
def countsOf (s : IVec S256 32) : IVec S136 32 :=
  Host.scatter scatter_S136_S256x1_S256_n_0_0_1 IntOp.addi (broadcastInDim S136 ![] bcast_S_S136 (constantI S_ 32 0#32))
    (broadcastInDim S256x1 ![0] bcast_S256_S256x1_0 s) (broadcastInDim S256 ![] bcast_S_S256 (constantI S_ 32 1#32))

theorem counts_unfold : counts Ideal = countsOf (slotN Ideal) := rfl

theorem countsOf_cumF_0 : ∀ k : Fin 136, k.val < 34 → countsOf cumF (ValueIdx.ix1 k) = BitVec.ofNat 32 (cntL.getD k.val 0) := by
  decide +kernel

theorem countsOf_cumF_1 : ∀ k : Fin 136, 34 ≤ k.val → k.val < 68 → countsOf cumF (ValueIdx.ix1 k) = BitVec.ofNat 32 (cntL.getD k.val 0) := by
  decide +kernel

theorem countsOf_cumF_2 : ∀ k : Fin 136, 68 ≤ k.val → k.val < 102 → countsOf cumF (ValueIdx.ix1 k) = BitVec.ofNat 32 (cntL.getD k.val 0) := by
  decide +kernel

theorem countsOf_cumF_3 : ∀ k : Fin 136, 102 ≤ k.val → countsOf cumF (ValueIdx.ix1 k) = BitVec.ofNat 32 (cntL.getD k.val 0) := by
  decide +kernel

/-- The scatter at the closed-form positions gives the table, at every entry. -/
theorem countsOf_cumF (k : Fin 136) : countsOf cumF (ValueIdx.ix1 k) = BitVec.ofNat 32 (cntL.getD k.val 0) := by
  by_cases h0 : k.val < 34
  · exact countsOf_cumF_0 k h0
  by_cases h1 : k.val < 68
  · exact countsOf_cumF_1 k (by omega) h1
  by_cases h2 : k.val < 102
  · exact countsOf_cumF_2 k (by omega) h2
  exact countsOf_cumF_3 k (by omega)

/-- The reference's counts are the table. -/
theorem counts_eq : counts Ideal = cntF := by
  rw [counts_unfold, slotN_eq]
  funext i
  obtain ⟨a, rfl⟩ : ∃ a, i = ValueIdx.ix1 a := ⟨i 0, ValueIdx.eq_ix1 i⟩
  exact countsOf_cumF a

end Cert.RefIndex
-- ==== Proof.RefIndexPos.lean ====
/-
  The flat positions of the pairs.

  The running sum of the counts at `t` is the number of flat positions whose running count of the mask is at most
  `t`, which is the flat position `16 i + j` of the `(t + 1)`-th set bit of the mask, that is of the `t`-th pair
  `(i, j)` with `i ≤ j` (counting from zero).  The 136 positions are listed as a table and checked against the
  windowed sum of the counts by evaluation.
-/
import proofs.«108151_j54528904790278_2_alg».proof.Proof.RefIndexCount

namespace Cert.RefIndex

open Idealize.ShloMosaic Cert.ReferenceIdeal Cert.ReferenceIdeal.Gen Cert.ReferenceIdeal.RefRun

/-- Entry `t`: the flat position `16 i + j` of the `t`-th pair `i ≤ j`, rows first. -/
def posL : List Nat := [0,1,2,3,4,5,6,7,8,9,10,11,12,13,14,15,17,18,19,20,21,22,23,24,25,26,27,28,29,30,31,34,35,36,37,38,39,40,41,42,43,44,45,46,47,51,52,53,54,55,56,57,58,59,60,61,62,63,68,69,70,71,72,73,74,75,76,77,78,79,85,86,87,88,89,90,91,92,93,94,95,102,103,104,105,106,107,108,109,110,111,119,120,121,122,123,124,125,126,127,136,137,138,139,140,141,142,143,153,154,155,156,157,158,159,170,171,172,173,174,175,187,188,189,190,191,204,205,206,207,221,222,223,238,239,255]

/-- The positions as a vector of 136 words. -/
def posF : IVec S136 32 := fun i => BitVec.ofNat 32 (posL.getD (i 0).val 0)

theorem cumsum1_cntF_0 : ∀ t : Fin 136, t.val < 68 → cumsum1 cntF (ValueIdx.ix1 t) = BitVec.ofNat 32 (posL.getD t.val 0) := by
  decide +kernel

theorem cumsum1_cntF_1 : ∀ t : Fin 136, 68 ≤ t.val → cumsum1 cntF (ValueIdx.ix1 t) = BitVec.ofNat 32 (posL.getD t.val 0) := by
  decide +kernel

/-- The running sum of the table of counts is the table of positions, at every entry. -/
theorem cumsum1_cntF (t : Fin 136) : cumsum1 cntF (ValueIdx.ix1 t) = BitVec.ofNat 32 (posL.getD t.val 0) := by
  by_cases h0 : t.val < 68
  · exact cumsum1_cntF_0 t h0
  exact cumsum1_cntF_1 t (by omega)

/-- The reference's positions are the table. -/
theorem pos_eq : pos Ideal = posF := by
  unfold pos
  rw [counts_eq]
  funext i
  obtain ⟨a, rfl⟩ : ∃ a, i = ValueIdx.ix1 a := ⟨i 0, ValueIdx.eq_ix1 i⟩
  exact cumsum1_cntF a

end Cert.RefIndex
-- ==== Proof.RefIndex.lean ====
/-
  The reference's two index vectors.

  From the flat position `16 i + j` of the `t`-th pair the reference takes the floored quotient by sixteen and its
  remainder modulo sixteen (the row `i`), and the floored quotient by one and its remainder modulo sixteen (the column
  `j`), each followed by the gather's normalisation of negative indices (which finds none).  These are entrywise
  operations on 136 machine words, checked by evaluation against the table of pairs.
-/
import proofs.«108151_j54528904790278_2_alg».proof.Proof.RefIndexPos
import proofs.«108151_j54528904790278_2_alg».proof.Proof.Pairs

namespace Cert.RefIndex

open Idealize.ShloMosaic Cert.ReferenceIdeal Cert.ReferenceIdeal.Gen Cert.ReferenceIdeal.RefRun

/-- Row of the `t`-th pair: quotient by sixteen, modulo sixteen, of its flat position. -/
theorem row_posF : ∀ t : Fin 136,
    normIdx (remainder (floorDivide posF (constantI S_ 32 16#32)) (constantI S_ 32 16#32)) (ValueIdx.ix1 t)
      = BitVec.ofNat 32 (Cert.Pairs.pair t).1.val := by
  decide +kernel

/-- Column of the `t`-th pair: its flat position modulo sixteen. -/
theorem col_posF : ∀ t : Fin 136,
    normIdx (remainder (floorDivide posF (constantI S_ 32 1#32)) (constantI S_ 32 16#32)) (ValueIdx.ix1 t)
      = BitVec.ofNat 32 (Cert.Pairs.pair t).2.val := by
  decide +kernel

/-- The reference's first index vector lists the rows of the pairs. -/
theorem rowIdx_apply (t : Fin 136) :
    rowIdx Ideal (ValueIdx.ix1 t) = BitVec.ofNat 32 (Cert.Pairs.pair t).1.val := by
  unfold rowIdx rowRaw
  rw [pos_eq]
  exact row_posF t

/-- The reference's second index vector lists the columns of the pairs. -/
theorem colIdx_apply (t : Fin 136) :
    colIdx Ideal (ValueIdx.ix1 t) = BitVec.ofNat 32 (Cert.Pairs.pair t).2.val := by
  unfold colIdx colRaw
  rw [pos_eq]
  exact col_posF t

end Cert.RefIndex
-- ==== Proof.lean ====
/-
  Sixteen-channel heads and their upper-triangular products: the kernel and the reference compute one function.

  The input is `x : [16, 64, 96, 96]`; channel `4·i + h` is entry `i < 16` of head `h < 4`. Both programs produce
  `[16, 544, 96, 96]`: at every batch entry and every position of the plane, channel `136·h + t` is the product of
  entries `i` and `j` of head `h`, where `(i, j)` is the `t`-th pair with `i ≤ j < 16`, rows first (Proof/Pairs.lean,
  Proof/Spec.lean: `Cert.Spec.G`). Every output element is a single product of two input elements, so nothing has to be
  summed, reordered or rounded, no constant enters, and the equality holds on all extended reals: the finiteness of the
  input is never used.

  The kernel (Proof/KernelBlock.lean, Proof/KernelValue.lean) views the input as `[16, 16, 4, 9216]`, and at each of
  32 grid points takes one batch entry and one half of the flattened plane; there it stores, head by head, the 136
  products of two rows of the head's `[16, 4608]` slab as the 136 rows `136·h + t` of its `[544, 4608]` output block.
  The rows tile the block, the blocks tile `[16, 544, 9216]`, and reshaping the plane back gives `G x`.

  The reference (Proof/RefTerm.lean, Proof/RefRun.lean, Proof/RefValue.lean) regroups the input by head, gathers
  along the sixteen entries with two index vectors of length 136, multiplies, and lays the products out as 544
  channels. It does not hold the index vectors as constants: it computes them, from constants only, as the positions
  of the entries on or above the diagonal of a 16 × 16 square (a prefix count of the triangular mask, a count of
  positions per prefix value, a second prefix sum) split into row and column. Proof/RefIndex*.lean evaluates that closed
  computation stage by stage: the two vectors hold the `t`-th pair's row and column.

  No operation of the kernel is rewritten by the idealization, so that part of the claim is trivially true.
-/
import proofs.«108151_j54528904790278_2_alg».proof.Defs
import proofs.«108151_j54528904790278_2_alg».proof.Proof.Gen.Kernel
import proofs.«108151_j54528904790278_2_alg».proof.Proof.Gen.KernelIdeal
import proofs.«108151_j54528904790278_2_alg».proof.Proof.Gen.ReferenceIdeal
import proofs.«108151_j54528904790278_2_alg».proof.Proof.Gen.Pre_finite_inputs
import proofs.«108151_j54528904790278_2_alg».proof.Proof.KernelFrameQ
import proofs.«108151_j54528904790278_2_alg».proof.Proof.KernelIdealFrameQ
import proofs.«108151_j54528904790278_2_alg».proof.Proof.KernelValue
import proofs.«108151_j54528904790278_2_alg».proof.Proof.RefRun
import proofs.«108151_j54528904790278_2_alg».proof.Proof.RefValue
import proofs.«108151_j54528904790278_2_alg».proof.Proof.RefIndex
import Idealize.ShloMosaic.Adequacy
import Idealize.ShloMosaic.Init

noncomputable section

namespace Cert.Proof

open Idealize.ShloMosaic Idealize.SL.Sem

/-- The word-level kernel runs, and leaves its argument as it found it. -/
theorem frame_kernel : Cert.frame_Kernel := fun m ρ _ => Cert.Kernel.GenP.frame m ρ

/-- So does the kernel read over the extended reals. -/
theorem frame_kernelIdeal : Cert.frame_KernelIdeal := fun m ρ _ => Cert.KernelIdeal.GenP.frame m ρ

/-- The reference runs and leaves its argument unchanged: its run, with the result forgotten. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation of the kernel. -/
theorem preserves : Cert.preserves_Kernel_KernelIdeal := trivial

/-- From memories that agree on the argument, the kernel's result array and the reference's both end at `G` of it. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)),
    Cert.KernelIdeal.KValue.run m ρ, ?_⟩
  refine (θ_run Cert.ReferenceIdeal.defs _ _).mono (fun _ h c => ⟨(h c).1.trans ?_, (h c).2⟩)
    (Cert.ReferenceIdeal.RefRun.run (F := Ideal) m' ρ')
  rw [hagree c]
  exact Cert.ReferenceIdeal.RefValue.result_eq _ Cert.RefIndex.rowIdx_apply Cert.RefIndex.colIdx_apply

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
